-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "c_8_9" .f32 0x3F638E39#32 ((8 / 9 : ℝ) : EReal)
  ∧ IdealRules.named_const.Statement Cert.KernelIdeal.κ "inv_tau" .f32 0x41A00000#32 ((268435456 / 13421773 : ℝ) : EReal)
  ∧ IdealRules.named_const.Statement Cert.KernelIdeal.κ "inv_tau" .f32 0x41A00000#32 ((268435456 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x24 : Shape := ⟨2, ![200000, 24]⟩
abbrev S2x2000000 : Shape := ⟨2, ![2, 2000000]⟩
abbrev S200000 : Shape := ⟨1, ![200000]⟩
abbrev S200000x3 : Shape := ⟨2, ![200000, 3]⟩
abbrev S_ : Shape := ⟨0, ![]⟩

class Facts : Prop where
  bcast_S_S200000x24 : S_.BroadcastsInDim S200000x24 (![] : Fin 0 → Fin S200000x24.rank)
  reducesTo_S200000x24_S_d0_1 : S200000x24.ReducesTo [0, 1] S_
  h_S_ : 0 < S_.numel
  bcast_S_S200000x3 : S_.BroadcastsInDim S200000x3 (![] : Fin 0 → Fin S200000x3.rank)
  reducesTo_S200000x3_S_d0_1 : S200000x3.ReducesTo [0, 1] S_

variable [Facts]

def fn {F : FTy → Type} [FloatOps F] (main_arg0 : FVec F S200000x24 .f32) (main_arg1 : IVec S2x2000000 32) (main_arg2 : IVec S200000 32) (main_arg3 : FVec F S200000x3 .f32) (main_arg4 : FVec F S200000x3 .f32) : IVec S_ 1 :=
  let main_v0 : FVec F S200000x24 .f32 := Host.absf main_arg0
  let main_cst : FVec F S_ .f32 := constant S_ .f32 0x7F800000#32
  let main_v1 : FVec F S200000x24 .f32 := broadcastInDim S200000x24 ![] bcast_S_S200000x24 main_cst
  let main_v2 : IVec S200000x24 1 := cmpf .olt main_v0 main_v1
  let main_c : IVec S_ 1 := constantI S_ 1 1#1
  let main_v3 : IVec S_ 1 := (fun x v => Host.reduce IntOp.andi x v reducesTo_S200000x24_S_d0_1 h_S_) main_v2 main_c
  let main_v4 : FVec F S200000x3 .f32 := Host.absf main_arg3
  let main_cst_0 : FVec F S_ .f32 := constant S_ .f32 0x7F800000#32
  let main_v5 : FVec F S200000x3 .f32 := broadcastInDim S200000x3 ![] bcast_S_S200000x3 main_cst_0
  let main_v6 : IVec S200000x3 1 := cmpf .olt main_v4 main_v5
  let main_c_1 : IVec S_ 1 := constantI S_ 1 1#1
  let main_v7 : IVec S_ 1 := (fun x v => Host.reduce IntOp.andi x v reducesTo_S200000x3_S_d0_1 h_S_) main_v6 main_c_1
  let main_v8 : IVec S_ 1 := andi main_v3 main_v7
  let main_v9 : FVec F S200000x3 .f32 := Host.absf main_arg4
  let main_cst_2 : FVec F S_ .f32 := constant S_ .f32 0x7F800000#32
  let main_v10 : FVec F S200000x3 .f32 := broadcastInDim S200000x3 ![] bcast_S_S200000x3 main_cst_2
  let main_v11 : IVec S200000x3 1 := cmpf .olt main_v9 main_v10
  let main_c_3 : IVec S_ 1 := constantI S_ 1 1#1
  let main_v12 : IVec S_ 1 := (fun x v => Host.reduce IntOp.andi x v reducesTo_S200000x3_S_d0_1 h_S_) main_v11 main_c_3
  let main_v13 : IVec S_ 1 := andi main_v8 main_v12
  main_v13
-- ==== Kernel.lean ====
abbrev S200000x24 : Shape := ⟨2, ![200000, 24]⟩
abbrev S2x2000000 : Shape := ⟨2, ![2, 2000000]⟩
abbrev S200000 : Shape := ⟨1, ![200000]⟩
abbrev S200000x3 : Shape := ⟨2, ![200000, 3]⟩
abbrev S1x2000000 : Shape := ⟨2, ![1, 2000000]⟩
abbrev S2000000 : Shape := ⟨1, ![2000000]⟩
abbrev S_ : Shape := ⟨0, ![]⟩
abbrev S896 : Shape := ⟨1, ![896]⟩
abbrev S2000896 : Shape := ⟨1, ![2000896]⟩
abbrev S2000896x1 : Shape := ⟨2, ![2000896, 1]⟩
abbrev S2000896x24 : Shape := ⟨2, ![2000896, 24]⟩
abbrev S2048x24 : Shape := ⟨2, ![2048, 24]⟩
abbrev S2048x1 : Shape := ⟨2, ![2048, 1]⟩
abbrev S2048 : Shape := ⟨1, ![2048]⟩
abbrev S1x2 : Shape := ⟨2, ![1, 2]⟩
abbrev S1 : Shape := ⟨1, ![1]⟩
abbrev S1x1 : Shape := ⟨2, ![1, 1]⟩

abbrev nBuf : Space → Nat
  | .hbm => 84
  | .vmem => 24
  | .smem => 0
  | _ => 0

abbrev bufTy : (tb : Table) → Fin (tcTables nBuf tb) → BufTy
  | .hbm, ⟨0, _⟩ => ⟨S200000x24, .f32⟩
  | .hbm, ⟨1, _⟩ => ⟨S2x2000000, .i32⟩
  | .hbm, ⟨2, _⟩ => ⟨S200000, .i32⟩
  | .hbm, ⟨3, _⟩ => ⟨S200000x3, .f32⟩
  | .hbm, ⟨4, _⟩ => ⟨S200000x3, .f32⟩
  | .hbm, ⟨5, _⟩ => ⟨S1x2000000, .i32⟩
  | .hbm, ⟨6, _⟩ => ⟨S2000000, .i32⟩
  | .hbm, ⟨7, _⟩ => ⟨S1x2000000, .i32⟩
  | .hbm, ⟨8, _⟩ => ⟨S2000000, .i32⟩
  | .hbm, ⟨9, _⟩ => ⟨S_, .i32⟩
  | .hbm, ⟨10, _⟩ => ⟨S896, .i32⟩
  | .hbm, ⟨11, _⟩ => ⟨S2000896, .i32⟩
  | .hbm, ⟨12, _⟩ => ⟨S2000896, .i32⟩
  | .hbm, ⟨13, _⟩ => ⟨S_, .f32⟩
  | .hbm, ⟨14, _⟩ => ⟨S2000000, .f32⟩
  | .hbm, ⟨15, _⟩ => ⟨S_, .f32⟩
  | .hbm, ⟨16, _⟩ => ⟨S896, .f32⟩
  | .hbm, ⟨17, _⟩ => ⟨S2000896, .f32⟩
  | .hbm, ⟨18, _⟩ => ⟨S_, .i32⟩
  | .hbm, ⟨19, _⟩ => ⟨S2000896, .i32⟩
  | .hbm, ⟨20, _⟩ => ⟨S2000896, .i1⟩
  | .hbm, ⟨21, _⟩ => ⟨S_, .i32⟩
  | .hbm, ⟨22, _⟩ => ⟨S2000896, .i32⟩
  | .hbm, ⟨23, _⟩ => ⟨S2000896, .i32⟩
  | .hbm, ⟨24, _⟩ => ⟨S2000896, .i32⟩
  | .hbm, ⟨25, _⟩ => ⟨S2000896x1, .i32⟩
  | .hbm, ⟨26, _⟩ => ⟨S2000896x24, .f32⟩
  | .hbm, ⟨27, _⟩ => ⟨S_, .i32⟩
  | .hbm, ⟨28, _⟩ => ⟨S2000896, .i32⟩
  | .hbm, ⟨29, _⟩ => ⟨S2000896, .i1⟩
  | .hbm, ⟨30, _⟩ => ⟨S_, .i32⟩
  | .hbm, ⟨31, _⟩ => ⟨S2000896, .i32⟩
  | .hbm, ⟨32, _⟩ => ⟨S2000896, .i32⟩
  | .hbm, ⟨33, _⟩ => ⟨S2000896, .i32⟩
  | .hbm, ⟨34, _⟩ => ⟨S2000896x1, .i32⟩
  | .hbm, ⟨35, _⟩ => ⟨S2000896x24, .f32⟩
  | .hbm, ⟨36, _⟩ => ⟨S_, .i32⟩
  | .hbm, ⟨37, _⟩ => ⟨S2000896, .i32⟩
  | .hbm, ⟨38, _⟩ => ⟨S2000896, .i1⟩
  | .hbm, ⟨39, _⟩ => ⟨S_, .i32⟩
  | .hbm, ⟨40, _⟩ => ⟨S2000896, .i32⟩
  | .hbm, ⟨41, _⟩ => ⟨S2000896, .i32⟩
  | .hbm, ⟨42, _⟩ => ⟨S2000896, .i32⟩
  | .hbm, ⟨43, _⟩ => ⟨S2000896x1, .i32⟩
  | .hbm, ⟨44, _⟩ => ⟨S2000896, .i32⟩
  | .hbm, ⟨45, _⟩ => ⟨S2000896x1, .i32⟩
  | .hbm, ⟨46, _⟩ => ⟨S_, .i32⟩
  | .hbm, ⟨47, _⟩ => ⟨S2000896, .i32⟩
  | .hbm, ⟨48, _⟩ => ⟨S2000896, .i1⟩
  | .hbm, ⟨49, _⟩ => ⟨S_, .i32⟩
  | .hbm, ⟨50, _⟩ => ⟨S2000896, .i32⟩
  | .hbm, ⟨51, _⟩ => ⟨S2000896, .i32⟩
  | .hbm, ⟨52, _⟩ => ⟨S2000896, .i32⟩
  | .hbm, ⟨53, _⟩ => ⟨S2000896x1, .i32⟩
  | .hbm, ⟨54, _⟩ => ⟨S2000896, .i32⟩
  | .hbm, ⟨55, _⟩ => ⟨S2000896x1, .i32⟩
  | .hbm, ⟨56, _⟩ => ⟨S2000896x1, .f32⟩
  | .hbm, ⟨57, _⟩ => ⟨S2000896x1, .f32⟩
  | .hbm, ⟨58, _⟩ => ⟨S2000896x1, .f32⟩
  | .hbm, ⟨59, _⟩ => ⟨S2000896x1, .f32⟩
  | .hbm, ⟨60, _⟩ => ⟨S2000896, .f32⟩
  | .hbm, ⟨61, _⟩ => ⟨S_, .f32⟩
  | .hbm, ⟨62, _⟩ => ⟨S200000, .f32⟩
  | .hbm, ⟨63, _⟩ => ⟨S2000896x1, .i32⟩
  | .hbm, ⟨64, _⟩ => ⟨S200000, .f32⟩
  | .hbm, ⟨65, _⟩ => ⟨S_, .f32⟩
  | .hbm, ⟨66, _⟩ => ⟨S200000, .f32⟩
  | .hbm, ⟨67, _⟩ => ⟨S200000, .f32⟩
  | .hbm, ⟨68, _⟩ => ⟨S_, .i32⟩
  | .hbm, ⟨69, _⟩ => ⟨S2000896, .i32⟩
  | .hbm, ⟨70, _⟩ => ⟨S2000896, .i1⟩
  | .hbm, ⟨71, _⟩ => ⟨S_, .i32⟩
  | .hbm, ⟨72, _⟩ => ⟨S2000896, .i32⟩
  | .hbm, ⟨73, _⟩ => ⟨S2000896, .i32⟩
  | .hbm, ⟨74, _⟩ => ⟨S2000896, .i32⟩
  | .hbm, ⟨75, _⟩ => ⟨S2000896x1, .i32⟩
  | .hbm, ⟨76, _⟩ => ⟨S2000896, .f32⟩
  | .hbm, ⟨77, _⟩ => ⟨S2000896x1, .f32⟩
  | .hbm, ⟨78, _⟩ => ⟨S1x2, .f32⟩
  | .hbm, ⟨79, _⟩ => ⟨S1x1, .f32⟩
  | .hbm, ⟨80, _⟩ => ⟨S_, .f32⟩
  | .hbm, ⟨81, _⟩ => ⟨S1x1, .f32⟩
  | .hbm, ⟨82, _⟩ => ⟨S_, .f32⟩
  | .hbm, ⟨83, _⟩ => ⟨S_, .f32⟩
  | .local _ .vmem, ⟨0, _⟩ => ⟨S2048x24, .f32⟩
  | .local _ .vmem, ⟨1, _⟩ => ⟨S2048x24, .f32⟩
  | .local _ .vmem, ⟨2, _⟩ => ⟨S2048x24, .f32⟩
  | .local _ .vmem, ⟨3, _⟩ => ⟨S2048x24, .f32⟩
  | .local _ .vmem, ⟨4, _⟩ => ⟨S2048x1, .i32⟩
  | .local _ .vmem, ⟨5, _⟩ => ⟨S2048x1, .i32⟩
  | .local _ .vmem, ⟨6, _⟩ => ⟨S2048x1, .i32⟩
  | .local _ .vmem, ⟨7, _⟩ => ⟨S2048x1, .i32⟩
  | .local _ .vmem, ⟨8, _⟩ => ⟨S2048x1, .f32⟩
  | .local _ .vmem, ⟨9, _⟩ => ⟨S2048x1, .f32⟩
  | .local _ .vmem, ⟨10, _⟩ => ⟨S2048x1, .f32⟩
  | .local _ .vmem, ⟨11, _⟩ => ⟨S2048x1, .f32⟩
  | .local _ .vmem, ⟨12, _⟩ => ⟨S2048x1, .f32⟩
  | .local _ .vmem, ⟨13, _⟩ => ⟨S2048x1, .f32⟩
  | .local _ .vmem, ⟨14, _⟩ => ⟨S2048x1, .f32⟩
  | .local _ .vmem, ⟨15, _⟩ => ⟨S2048x1, .f32⟩
  | .local _ .vmem, ⟨16, _⟩ => ⟨S2048x1, .f32⟩
  | .local _ .vmem, ⟨17, _⟩ => ⟨S2048x1, .f32⟩
  | .local _ .vmem, ⟨18, _⟩ => ⟨S2048x1, .f32⟩
  | .local _ .vmem, ⟨19, _⟩ => ⟨S2048x1, .f32⟩
  | .local _ .vmem, ⟨20, _⟩ => ⟨S2048x1, .f32⟩
  | .local _ .vmem, ⟨21, _⟩ => ⟨S2048x1, .f32⟩
  | .local _ .vmem, ⟨22, _⟩ => ⟨S1x2, .f32⟩
  | .local _ .vmem, ⟨23, _⟩ => ⟨S1x2, .f32⟩
  | _, _ => ⟨S200000x24, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c_3 : Ref sig .tc := ⟨.hbm, 27, rfl⟩
abbrev main_v17 : Ref sig .tc := ⟨.hbm, 28, rfl⟩
abbrev main_v18 : Ref sig .tc := ⟨.hbm, 29, rfl⟩
abbrev main_c_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_5 : Ref sig .tc := ⟨.hbm, 36, rfl⟩
abbrev main_v24 : Ref sig .tc := ⟨.hbm, 37, rfl⟩
abbrev main_v25 : Ref sig .tc := ⟨.hbm, 38, rfl⟩
abbrev main_c_6 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_7 : Ref sig .tc := ⟨.hbm, 46, rfl⟩
abbrev main_v32 : Ref sig .tc := ⟨.hbm, 47, rfl⟩
abbrev main_v33 : Ref sig .tc := ⟨.hbm, 48, rfl⟩
abbrev main_c_8 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41_0 : Ref sig .tc := ⟨.hbm, 57, rfl⟩
abbrev main_v41_1 : Ref sig .tc := ⟨.hbm, 58, rfl⟩
abbrev main_v41_2 : Ref sig .tc := ⟨.hbm, 59, rfl⟩
abbrev main_v42 : Ref sig .tc := ⟨.hbm, 60, rfl⟩
abbrev main_cst_9 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_10 : Ref sig .tc := ⟨.hbm, 65, rfl⟩
abbrev main_v46 : Ref sig .tc := ⟨.hbm, 66, rfl⟩
abbrev main_v47 : Ref sig .tc := ⟨.hbm, 67, rfl⟩
abbrev main_c_11 : Ref sig .tc := ⟨.hbm, 68, rfl⟩
abbrev main_v48 : Ref sig .tc := ⟨.hbm, 69, rfl⟩
abbrev main_v49 : Ref sig .tc := ⟨.hbm, 70, rfl⟩
abbrev main_c_12 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22

abbrev nD : Nat := 1
abbrev τ : Topo := Topo.v7x

variable {F : FTy → Type} [FloatOps F]

abbrev grid0 : Pipeline.Grid := ⟨1, ![977], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x24 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x24 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![977], ![false]⟩

def k1_cond2 (i : grid1.Coords) : BitVec 1 :=
  let arg0 : BitVec 32 := BitVec.ofNat 32 (i 0).val
  let c976_i32 : BitVec 32 := 976#32
  let v29 : BitVec 1 := Scalar.cmpi .eq arg0 c976_i32
  let v30 : BitVec 32 := Scalar.extui v29
  let c0_i32_15 : BitVec 32 := 0#32
  let v31 : BitVec 1 := Scalar.cmpi .ne v30 c0_i32_15
  v31

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2048x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x2 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

class Facts₀ : Prop where
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  bcast_S_S896 : S_.BroadcastsInDim S896 (![] : Fin 0 → Fin S896.rank)
  concatenates_S2000000_S896_S2000896_d0 : Shape.Concatenates [S2000000, S896] S2000896 0
  bcast_S_S2000000 : S_.BroadcastsInDim S2000000 (![] : Fin 0 → Fin S2000000.rank)
  bcast_S_S2000896 : S_.BroadcastsInDim S2000896 (![] : Fin 0 → Fin S2000896.rank)
  bcast_S2000896_S2000896x1_0 : S2000896.BroadcastsInDim S2000896x1 (![0] : Fin 1 → Fin S2000896x1.rank)
  shapeCasts_S2000896_S2000896x1 : S2000896.ShapeCasts S2000896x1
  inb_S2048x24_S2048x24_0_0 : ∀ a, (![0, 0] : Fin 2 → Nat) a + S2048x24.size a ≤ S2048x24.size a
  h_S2048x24 : 0 < S2048x24.numel
  shapeCasts_S2048x24_S2048x24 : S2048x24.ShapeCasts S2048x24
  reduces_S2048x24_S2048 : S2048x24.Reduces [1] S2048
  shapeCasts_S2048_S2048x1 : S2048.ShapeCasts S2048x1
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  shapeCasts_S2000896x1_S2000896 : S2000896x1.ShapeCasts S2000896
  bcast_S_S200000 : S_.BroadcastsInDim S200000 (![] : Fin 0 → Fin S200000.rank)
  inb_S1x2_S1x2_0_0 : ∀ a, (![0, 0] : Fin 2 → Nat) a + S1x2.size a ≤ S1x2.size a
  h_S1x2 : 0 < S1x2.numel
  shapeCasts_S1x2_S1x2 : S1x2.ShapeCasts S1x2
  reduces_S2048x1_S1 : S2048x1.Reduces [0] S1
  shapeCasts_S1_S1x1 : S1.ShapeCasts S1x1
  inb_S1x2_S1x1_0_0 : ∀ a, (![0, 0] : Fin 2 → Nat) a + S1x1.size a ≤ S1x2.size a
  h_S1x1 : 0 < S1x1.numel
  shapeCasts_S1x1_S1x1 : S1x1.ShapeCasts S1x1
  inb_S1x2_S1x1_0_1 : ∀ a, (![0, 1] : Fin 2 → Nat) a + S1x1.size a ≤ S1x2.size a
  slices_S1x2_S1x1_0_0 : S1x2.Slices ![0, 0] S1x1
  shapeCasts_S1x1_S_ : S1x1.ShapeCasts S_
  slices_S1x2_S1x1_0_1 : S1x2.Slices ![0, 1] S1x1
  gather_S200000x24_S2000896x1_S2000896x24_1_0_n_n_0_1_124_wf : GatherDims.WF S200000x24 S2000896x1 S2000896x24 [1] [0] [] [0] [] 1 ![1, 24]
  gather_S200000_S2000896x1_S2000896_n_0_n_n_0_1_1_wf : GatherDims.WF S200000 S2000896x1 S2000896 [] [0] [] [0] [] 1 ![1]
  scatter_S200000_S2000896x1_S2000896_n_0_0_1_wf : ScatterDims.WF S200000 S2000896x1 S2000896 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x24.size a ≤ S2000896x24.size a
  hwx0_0 : ∀ i : grid0.Coords, EltTy.bits .f32 = 32 ∨ (Rect.block (s := S2000896x24) S2048x24.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x24.size a ≤ S2000896x24.size a
  hwx0_1 : ∀ i : grid0.Coords, EltTy.bits .f32 = 32 ∨ (Rect.block (s := S2000896x24) S2048x24.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S2000896x1.size a
  hwx0_2 : ∀ i : grid0.Coords, EltTy.bits .i32 = 32 ∨ (Rect.block (s := S2000896x1) S2048x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1.size a ≤ S2000896x1.size a
  hwx0_3 : ∀ i : grid0.Coords, EltTy.bits .i32 = 32 ∨ (Rect.block (s := S2000896x1) S2048x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1.size a ≤ S2000896x1.size a
  hwx0_4 : ∀ i : grid0.Coords, EltTy.bits .f32 = 32 ∨ (Rect.block (s := S2000896x1) S2048x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x1.size a ≤ S2000896x1.size a
  hwx0_5 : ∀ i : grid0.Coords, EltTy.bits .f32 = 32 ∨ (Rect.block (s := S2000896x1) S2048x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x1.size a ≤ S2000896x1.size a
  hwx0_6 : ∀ i : grid0.Coords, EltTy.bits .f32 = 32 ∨ (Rect.block (s := S2000896x1) S2048x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x1.size a ≤ S2000896x1.size a
  hwx0_7 : ∀ i : grid0.Coords, EltTy.bits .f32 = 32 ∨ (Rect.block (s := S2000896x1) S2048x1.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1.size a ≤ S2000896x1.size a
  hwx1_0 : ∀ i : grid1.Coords, EltTy.bits .f32 = 32 ∨ (Rect.block (s := S2000896x1) S2048x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1.size a ≤ S2000896x1.size a
  hwx1_1 : ∀ i : grid1.Coords, EltTy.bits .f32 = 32 ∨ (Rect.block (s := S2000896x1) S2048x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1.size a ≤ S2000896x1.size a
  hwx1_2 : ∀ i : grid1.Coords, EltTy.bits .f32 = 32 ∨ (Rect.block (s := S2000896x1) S2048x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x2.size a ≤ S1x2.size a
  hwx1_3 : ∀ i : grid1.Coords, EltTy.bits .f32 = 32 ∨ (Rect.block (s := S1x2) S1x2.size (cc1_transform_3 i) (hinb1_3 i)).WholeWords (EltTy.packing .f32)

variable [Facts₀]

def gather_S200000x24_S2000896x1_S2000896x24_1_0_n_n_0_1_124 : GatherDims S200000x24 S2000896x1 S2000896x24 where
  offsetDims := [1]
  collapsedSliceDims := [0]
  operandBatchingDims := []
  startIndicesBatchingDims := []
  startIndexMap := [0]
  indexVectorDim := 1
  sliceSizes := ![1, 24]
  wf := gather_S200000x24_S2000896x1_S2000896x24_1_0_n_n_0_1_124_wf
def gather_S200000_S2000896x1_S2000896_n_0_n_n_0_1_1 : GatherDims S200000 S2000896x1 S2000896 where
  offsetDims := []
  collapsedSliceDims := [0]
  operandBatchingDims := []
  startIndicesBatchingDims := []
  startIndexMap := [0]
  indexVectorDim := 1
  sliceSizes := ![1]
  wf := gather_S200000_S2000896x1_S2000896_n_0_n_n_0_1_1_wf
def scatter_S200000_S2000896x1_S2000896_n_0_0_1 : ScatterDims S200000 S2000896x1 S2000896 where
  updateWindowDims := []
  insertedWindowDims := [0]
  scatterDimsToOperandDims := [0]
  indexVectorDim := 1
  wf := scatter_S200000_S2000896x1_S2000896_n_0_0_1_wf

abbrev win0_0 : Pipeline.Window sig grid0 :=
  Pipeline.Window.ofSpec (Memref.whole main_v16) S2048x24.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S2048x24.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v31) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v39) S2048x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v40) S2048x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v41_0) S2048x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v41_1) S2048x1.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v41_2) S2048x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v41_0) S2048x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v55) S2048x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41_2) S2048x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v56) S1x2.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S200000x24 : Shape := ⟨2, ![200000, 24]⟩
abbrev S2x2000000 : Shape := ⟨2, ![2, 2000000]⟩
abbrev S200000 : Shape := ⟨1, ![200000]⟩
abbrev S200000x3 : Shape := ⟨2, ![200000, 3]⟩
abbrev S1x2000000 : Shape := ⟨2, ![1, 2000000]⟩
abbrev S2000000 : Shape := ⟨1, ![2000000]⟩
abbrev S_ : Shape := ⟨0, ![]⟩
abbrev S2000000x1 : Shape := ⟨2, ![2000000, 1]⟩
abbrev S2000000x24 : Shape := ⟨2, ![2000000, 24]⟩

abbrev nBuf : Space → Nat
  | .hbm => 103
  | .vmem => 0
  | .smem => 0
  | _ => 0

abbrev bufTy : (tb : Table) → Fin (tcTables nBuf tb) → BufTy
  | .hbm, ⟨0, _⟩ => ⟨S200000x24, .f32⟩
  | .hbm, ⟨1, _⟩ => ⟨S2x2000000, .i32⟩
  | .hbm, ⟨2, _⟩ => ⟨S200000, .i32⟩
  | .hbm, ⟨3, _⟩ => ⟨S200000x3, .f32⟩
  | .hbm, ⟨4, _⟩ => ⟨S200000x3, .f32⟩
  | .hbm, ⟨5, _⟩ => ⟨S1x2000000, .i32⟩
  | .hbm, ⟨6, _⟩ => ⟨S2000000, .i32⟩
  | .hbm, ⟨7, _⟩ => ⟨S1x2000000, .i32⟩
  | .hbm, ⟨8, _⟩ => ⟨S2000000, .i32⟩
  | .hbm, ⟨9, _⟩ => ⟨S_, .i32⟩
  | .hbm, ⟨10, _⟩ => ⟨S2000000, .i32⟩
  | .hbm, ⟨11, _⟩ => ⟨S2000000, .i1⟩
  | .hbm, ⟨12, _⟩ => ⟨S_, .i32⟩
  | .hbm, ⟨13, _⟩ => ⟨S2000000, .i32⟩
  | .hbm, ⟨14, _⟩ => ⟨S2000000, .i32⟩
  | .hbm, ⟨15, _⟩ => ⟨S2000000, .i32⟩
  | .hbm, ⟨16, _⟩ => ⟨S2000000x1, .i32⟩
  | .hbm, ⟨17, _⟩ => ⟨S2000000, .i32⟩
  | .hbm, ⟨18, _⟩ => ⟨S_, .i32⟩
  | .hbm, ⟨19, _⟩ => ⟨S2000000, .i32⟩
  | .hbm, ⟨20, _⟩ => ⟨S2000000, .i1⟩
  | .hbm, ⟨21, _⟩ => ⟨S_, .i32⟩
  | .hbm, ⟨22, _⟩ => ⟨S2000000, .i32⟩
  | .hbm, ⟨23, _⟩ => ⟨S2000000, .i32⟩
  | .hbm, ⟨24, _⟩ => ⟨S2000000, .i32⟩
  | .hbm, ⟨25, _⟩ => ⟨S2000000x1, .i32⟩
  | .hbm, ⟨26, _⟩ => ⟨S2000000, .i32⟩
  | .hbm, ⟨27, _⟩ => ⟨S2000000, .i1⟩
  | .hbm, ⟨28, _⟩ => ⟨S_, .i32⟩
  | .hbm, ⟨29, _⟩ => ⟨S2000000, .i32⟩
  | .hbm, ⟨30, _⟩ => ⟨S2000000, .i1⟩
  | .hbm, ⟨31, _⟩ => ⟨S2000000, .i1⟩
  | .hbm, ⟨32, _⟩ => ⟨S_, .i32⟩
  | .hbm, ⟨33, _⟩ => ⟨S2000000, .i32⟩
  | .hbm, ⟨34, _⟩ => ⟨S2000000, .i1⟩
  | .hbm, ⟨35, _⟩ => ⟨S2000000, .i1⟩
  | .hbm, ⟨36, _⟩ => ⟨S2000000, .i1⟩
  | .hbm, ⟨37, _⟩ => ⟨S_, .i32⟩
  | .hbm, ⟨38, _⟩ => ⟨S2000000, .i32⟩
  | .hbm, ⟨39, _⟩ => ⟨S2000000, .i1⟩
  | .hbm, ⟨40, _⟩ => ⟨S_, .i32⟩
  | .hbm, ⟨41, _⟩ => ⟨S2000000, .i32⟩
  | .hbm, ⟨42, _⟩ => ⟨S2000000, .i32⟩
  | .hbm, ⟨43, _⟩ => ⟨S2000000, .i32⟩
  | .hbm, ⟨44, _⟩ => ⟨S2000000x1, .i32⟩
  | .hbm, ⟨45, _⟩ => ⟨S2000000x24, .f32⟩
  | .hbm, ⟨46, _⟩ => ⟨S_, .i32⟩
  | .hbm, ⟨47, _⟩ => ⟨S2000000, .i32⟩
  | .hbm, ⟨48, _⟩ => ⟨S2000000, .i1⟩
  | .hbm, ⟨49, _⟩ => ⟨S_, .i32⟩
  | .hbm, ⟨50, _⟩ => ⟨S2000000, .i32⟩
  | .hbm, ⟨51, _⟩ => ⟨S2000000, .i32⟩
  | .hbm, ⟨52, _⟩ => ⟨S2000000, .i32⟩
  | .hbm, ⟨53, _⟩ => ⟨S2000000x1, .i32⟩
  | .hbm, ⟨54, _⟩ => ⟨S2000000x24, .f32⟩
  | .hbm, ⟨55, _⟩ => ⟨S2000000x24, .f32⟩
  | .hbm, ⟨56, _⟩ => ⟨S2000000x24, .f32⟩
  | .hbm, ⟨57, _⟩ => ⟨S_, .f32⟩
  | .hbm, ⟨58, _⟩ => ⟨S2000000, .f32⟩
  | .hbm, ⟨59, _⟩ => ⟨S2000000, .f32⟩
  | .hbm, ⟨60, _⟩ => ⟨S2000000, .f32⟩
  | .hbm, ⟨61, _⟩ => ⟨S_, .f32⟩
  | .hbm, ⟨62, _⟩ => ⟨S2000000, .f32⟩
  | .hbm, ⟨63, _⟩ => ⟨S2000000, .f32⟩
  | .hbm, ⟨64, _⟩ => ⟨S2000000, .f32⟩
  | .hbm, ⟨65, _⟩ => ⟨S_, .f32⟩
  | .hbm, ⟨66, _⟩ => ⟨S2000000, .f32⟩
  | .hbm, ⟨67, _⟩ => ⟨S2000000, .f32⟩
  | .hbm, ⟨68, _⟩ => ⟨S_, .f32⟩
  | .hbm, ⟨69, _⟩ => ⟨S_, .f32⟩
  | .hbm, ⟨70, _⟩ => ⟨S2000000, .f32⟩
  | .hbm, ⟨71, _⟩ => ⟨S2000000, .f32⟩
  | .hbm, ⟨72, _⟩ => ⟨S2000000, .f32⟩
  | .hbm, ⟨73, _⟩ => ⟨S_, .f32⟩
  | .hbm, ⟨74, _⟩ => ⟨S2000000, .f32⟩
  | .hbm, ⟨75, _⟩ => ⟨S2000000, .f32⟩
  | .hbm, ⟨76, _⟩ => ⟨S_, .f32⟩
  | .hbm, ⟨77, _⟩ => ⟨S200000, .f32⟩
  | .hbm, ⟨78, _⟩ => ⟨S2000000x1, .i32⟩
  | .hbm, ⟨79, _⟩ => ⟨S200000, .f32⟩
  | .hbm, ⟨80, _⟩ => ⟨S_, .f32⟩
  | .hbm, ⟨81, _⟩ => ⟨S200000, .f32⟩
  | .hbm, ⟨82, _⟩ => ⟨S200000, .f32⟩
  | .hbm, ⟨83, _⟩ => ⟨S_, .i32⟩
  | .hbm, ⟨84, _⟩ => ⟨S2000000, .i32⟩
  | .hbm, ⟨85, _⟩ => ⟨S2000000, .i1⟩
  | .hbm, ⟨86, _⟩ => ⟨S_, .i32⟩
  | .hbm, ⟨87, _⟩ => ⟨S2000000, .i32⟩
  | .hbm, ⟨88, _⟩ => ⟨S2000000, .i32⟩
  | .hbm, ⟨89, _⟩ => ⟨S2000000, .i32⟩
  | .hbm, ⟨90, _⟩ => ⟨S2000000x1, .i32⟩
  | .hbm, ⟨91, _⟩ => ⟨S2000000, .f32⟩
  | .hbm, ⟨92, _⟩ => ⟨S2000000, .f32⟩
  | .hbm, ⟨93, _⟩ => ⟨S2000000, .f32⟩
  | .hbm, ⟨94, _⟩ => ⟨S2000000, .f32⟩
  | .hbm, ⟨95, _⟩ => ⟨S2000000, .f32⟩
  | .hbm, ⟨96, _⟩ => ⟨S2000000, .f32⟩
  | .hbm, ⟨97, _⟩ => ⟨S2000000, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | _, _ => ⟨S200000x24, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_5 : Ref sig .tc := ⟨.hbm, 37, rfl⟩
abbrev main_v26 : Ref sig .tc := ⟨.hbm, 38, rfl⟩
abbrev main_v27 : Ref sig .tc := ⟨.hbm, 39, rfl⟩
abbrev main_c_6 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c_7 : Ref sig .tc := ⟨.hbm, 46, rfl⟩
abbrev main_v33 : Ref sig .tc := ⟨.hbm, 47, rfl⟩
abbrev main_v34 : Ref sig .tc := ⟨.hbm, 48, rfl⟩
abbrev main_c_8 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_9 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_10 : Ref sig .tc := ⟨.hbm, 65, rfl⟩
abbrev main_v48 : Ref sig .tc := ⟨.hbm, 66, rfl⟩
abbrev main_v49 : Ref sig .tc := ⟨.hbm, 67, rfl⟩
abbrev main_cst_11 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_12 : Ref sig .tc := ⟨.hbm, 73, rfl⟩
abbrev main_call0_v0 : Ref sig .tc := ⟨.hbm, 74, rfl⟩
abbrev main_v54 : Ref sig .tc := ⟨.hbm, 75, rfl⟩
abbrev main_cst_13 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_14 : Ref sig .tc := ⟨.hbm, 80, rfl⟩
abbrev main_v58 : Ref sig .tc := ⟨.hbm, 81, rfl⟩
abbrev main_v59 : Ref sig .tc := ⟨.hbm, 82, rfl⟩
abbrev main_c_15 : Ref sig .tc := ⟨.hbm, 83, rfl⟩
abbrev main_v60 : Ref sig .tc := ⟨.hbm, 84, rfl⟩
abbrev main_v61 : Ref sig .tc := ⟨.hbm, 85, rfl⟩
abbrev main_c_16 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_17 : Ref sig .tc := ⟨.hbm, 98, rfl⟩
abbrev main_v73 : Ref sig .tc := ⟨.hbm, 99, rfl⟩
abbrev main_cst_18 : Ref sig .tc := ⟨.hbm, 100, rfl⟩
abbrev main_v74 : Ref sig .tc := ⟨.hbm, 101, rfl⟩
abbrev main_v75 : Ref sig .tc := ⟨.hbm, 102, rfl⟩

abbrev nD : Nat := 1
abbrev τ : Topo := Topo.v7x

variable {F : FTy → Type} [FloatOps F]

class Facts₀ : Prop where
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  bcast_S_S2000000 : S_.BroadcastsInDim S2000000 (![] : Fin 0 → Fin S2000000.rank)
  bcast_S2000000_S2000000x1_0 : S2000000.BroadcastsInDim S2000000x1 (![0] : Fin 1 → Fin S2000000x1.rank)
  reducesTo_S2000000x24_S2000000_d1 : S2000000x24.ReducesTo [1] S2000000
  h_S_ : 0 < S_.numel
  reducesTo_S2000000_S_d0 : S2000000.ReducesTo [0] S_
  bcast_S_S200000 : S_.BroadcastsInDim S200000 (![] : Fin 0 → Fin S200000.rank)
  gather_S200000_S2000000x1_S2000000_n_0_n_n_0_1_1_wf : GatherDims.WF S200000 S2000000x1 S2000000 [] [0] [] [0] [] 1 ![1]
  gather_S200000x24_S2000000x1_S2000000x24_1_0_n_n_0_1_124_wf : GatherDims.WF S200000x24 S2000000x1 S2000000x24 [1] [0] [] [0] [] 1 ![1, 24]
  scatter_S200000_S2000000x1_S2000000_n_0_0_1_wf : ScatterDims.WF S200000 S2000000x1 S2000000 [] [0] [0] 1

variable [Facts₀]

def gather_S200000_S2000000x1_S2000000_n_0_n_n_0_1_1 : GatherDims S200000 S2000000x1 S2000000 where
  offsetDims := []
  collapsedSliceDims := [0]
  operandBatchingDims := []
  startIndicesBatchingDims := []
  startIndexMap := [0]
  indexVectorDim := 1
  sliceSizes := ![1]
  wf := gather_S200000_S2000000x1_S2000000_n_0_n_n_0_1_1_wf
def gather_S200000x24_S2000000x1_S2000000x24_1_0_n_n_0_1_124 : GatherDims S200000x24 S2000000x1 S2000000x24 where
  offsetDims := [1]
  collapsedSliceDims := [0]
  operandBatchingDims := []
  startIndicesBatchingDims := []
  startIndexMap := [0]
  indexVectorDim := 1
  sliceSizes := ![1, 24]
  wf := gather_S200000x24_S2000000x1_S2000000x24_1_0_n_n_0_1_124_wf
def scatter_S200000_S2000000x1_S2000000_n_0_0_1 : ScatterDims S200000 S2000000x1 S2000000 where
  updateWindowDims := []
  insertedWindowDims := [0]
  scatterDimsToOperandDims := [0]
  indexVectorDim := 1
  wf := scatter_S200000_S2000000x1_S2000000_n_0_0_1_wf

class Facts : Prop extends Facts₀ where

variable [Facts]
-- ==== Proof.K.Region0.lean ====
/- The similarity kernel's half of the frame: pallas_call `cc0__sim_kernel` of @main, stated at the
   TensorCore's buffer contents `V` on entry to the region.

   At each of the 977 grid points the body reads five blocks — two blocks of gathered rows xa, xb (2048×24),
   their cluster labels ca, cb (2048×1, i32) and a validity column (2048×1) — and fills three 2048×1 columns:
   the similarity  exp(20 · exp(-κ·‖xa - xb‖) - 20)  row by row, κ the f32 nearest 8/9; that similarity times the 0/1
   indicator that the pair is NOT a same-cluster pair (labels equal and neither -1) times the validity; and the
   validity on the same-cluster pairs, zero elsewhere. Each column is written
   once, over its whole staging buffer. This file names what the body finds (`iblk0`), what it leaves
   (`out0_5`, `out0_6`, `out0_7`), proves the body's triple (`sound_kernel0`) and discharges the pipeline's body
   obligation for the proof data `dat0` (`body_obligation0`). -/
import proofs.«102367_j55516747268533_2_alg».proof.Proof.Gen.Kernel.Launch
import proofs.«102367_j55516747268533_2_alg».proof.Proof.Gen.Kernel.Skeleton
import proofs.«102367_j55516747268533_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`: the 2048 rows of its array that the point works on, read off the
    array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the rows xa): whatever proof data reads its array off `V` and has the body leave the block in
    place finds that block in the current staging buffer at every point, fetched there or kept from the point
    before (the window is uncut and live everywhere). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl)
      (fun t => by rw [hafter]; unfold Dat.blockOf iblk0; rw [hA]; try rfl) t d).trans
    (by unfold Dat.fetched Dat.blockOf iblk0; rw [hA]; try rfl)

/-- Input window 1 (the rows xb): whatever proof data reads its array off `V` and has the body leave the block in
    place finds that block in the current staging buffer at every point, fetched there or kept from the point
    before (the window is uncut and live everywhere). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl)
      (fun t => by rw [hafter]; unfold Dat.blockOf iblk0; rw [hA]; try rfl) t d).trans
    (by unfold Dat.fetched Dat.blockOf iblk0; rw [hA]; try rfl)

/-- Input window 2 (the labels ca): whatever proof data reads its array off `V` and has the body leave the block in
    place finds that block in the current staging buffer at every point, fetched there or kept from the point
    before (the window is uncut and live everywhere). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl)
      (fun t => by rw [hafter]; unfold Dat.blockOf iblk0; rw [hA]; try rfl) t d).trans
    (by unfold Dat.fetched Dat.blockOf iblk0; rw [hA]; try rfl)

/-- Input window 3 (the labels cb): whatever proof data reads its array off `V` and has the body leave the block in
    place finds that block in the current staging buffer at every point, fetched there or kept from the point
    before (the window is uncut and live everywhere). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl)
      (fun t => by rw [hafter]; unfold Dat.blockOf iblk0; rw [hA]; try rfl) t d).trans
    (by unfold Dat.fetched Dat.blockOf iblk0; rw [hA]; try rfl)

/-- Input window 4 (the validity column): whatever proof data reads its array off `V` and has the body leave the block in
    place finds that block in the current staging buffer at every point, fetched there or kept from the point
    before (the window is uncut and live everywhere). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl)
      (fun t => by rw [hafter]; unfold Dat.blockOf iblk0; rw [hA]; try rfl) t d).trans
    (by unfold Dat.fetched Dat.blockOf iblk0; rw [hA]; try rfl)

/-! ## The body's accesses: every load and store is of a whole staging buffer -/

/-- The whole 2048×24 buffer of a block of rows. -/
abbrev rRows : Rect S2048x24 := Rect.unit (s := S2048x24) ![0, 0] S2048x24.size inb_S2048x24_S2048x24_0_0
/-- The whole 2048×1 buffer of a column. -/
abbrev rCol : Rect S2048x1 := Rect.unit (s := S2048x1) ![0, 0] S2048x1.size inb_S2048x1_S2048x1_0_0

/-! ## What the body leaves in each output column -/

/-- Output window 5, the similarity column: row by row `exp (20 · exp (-κ · ‖xa - xb‖) - 20)`, κ the f32 nearest 8/9, the norm
    the square root of the sum of the 24 squared differences (`k0_pay2`); one store over the whole buffer. -/
def out0_5 (x0 x1 : Vec F S2048x24 .f32) : Vec F S2048x1 .f32 :=
  View.canon [⟨rCol, k0_pay2 (View.ld x0 rRows) (View.ld x1 rRows)⟩]

/-- Output window 6, the negatives' similarity: the similarity times the indicator `k0_pay4` of the two labels (0 where
    they are equal and neither is -1, 1 elsewhere) times the validity (`k0_pay5`), multiplied in that order
    (`k0_pay1`); one store over the whole buffer. -/
def out0_6 (x0 x1 : Vec F S2048x24 .f32) (x2 x3 : Vec F S2048x1 .i32) (x4 : Vec F S2048x1 .f32) : Vec F S2048x1 .f32 :=
  View.canon [⟨rCol, k0_pay1 (k0_pay2 (View.ld x0 rRows) (View.ld x1 rRows)) (k0_pay4 (View.ld x2 rCol) (View.ld x3 rCol)) (k0_pay5 (View.ld x4 rCol))⟩]

/-- Output window 7, the positives' validity: the validity where the two labels are equal and neither is -1, zero
    elsewhere (`k0_pay6`); one store over the whole buffer. -/
def out0_7 (x2 x3 : Vec F S2048x1 .i32) (x4 : Vec F S2048x1 .f32) : Vec F S2048x1 .f32 :=
  View.canon [⟨rCol, k0_pay6 (View.ld x2 rCol) (View.ld x3 rCol) (View.ld x4 rCol)⟩]

/-- A single store through `rCol` covers a column buffer, whatever it stores: the one piece tiles the shape. -/
theorem cover_col (p : Vec F S2048x1 .f32) (y : S2048x1.Idx) :
    ∃ pc ∈ ([⟨rCol, p⟩] : List (View.Piece (Elt F) S2048x1 .f32)), y ∈ pc.1.set :=
  View.cover_of_tiled [⟨rCol, p⟩] S2048x1.size (by rfl) y

/-! ## The body's triple -/

set_option maxHeartbeats 1000000 in
/-- The body at any grid point, on whole staging memrefs: with the five inputs' buffers at read contents `x0 … x4` and the
    three outputs' at anything, it runs to the continuation with the inputs' buffers as they were and the three columns at
    `out0_5`, `out0_6`, `out0_7` of the inputs. (The body loads each output buffer once before its store; the value
    read is not used.) -/
theorem sound_kernel0 (c : Dev nD) (E : Set ℕ) (i : grid0.Coords) (arg1 : Memref sig .tc .vmem S2048x24 .f32) (harg1 : arg1.IsWhole) (arg2 : Memref sig .tc .vmem S2048x24 .f32) (harg2 : arg2.IsWhole) (arg3 : Memref sig .tc .vmem S2048x1 .i32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole)
    (x0 x1 : Vec F S2048x24 .f32) (x2 x3 : Vec F S2048x1 .i32) (x4 : Vec F S2048x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out0_5 x0 x1) ∗ owns (c : Thread nD τ) arg7 fullShare (out0_6 x0 x1 x2 x3 x4)
            ∗ owns (c : Thread nD τ) arg8 fullShare (out0_7 x2 x3 x4)) -∗ K ⟨⟩))
      ⊢ wp frame (wpE (defs₀ (F := F)) Variants.none c none) E (cc0__sim_kernel i arg1 harg1 arg2 harg2 arg3 harg3 arg4 harg4 arg5 harg5 arg6 harg6 arg7 harg7 arg8 harg8) K := by
  simp only [cc0__sim_kernel_eq_skeleton]; unfold cc0__sim_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (cover_col _)
  isplitl [H7]
  · iexists _; isplitr
    swap; · iexact H7
    ipureintro
    try dsimp only
    exact View.read_writes_eq_canon _ _ _ (cover_col _)
  iexists _; isplitr
  swap; · iexact H8
  ipureintro
  try dsimp only
  exact View.read_writes_eq_canon _ _ _ (cover_col _)

/-! ## The pipeline's proof data -/

/-- The proof data of the similarity pipeline on core `c`: each window's array as the region finds it; after the body
    at point `t` the five inputs' buffers still at their blocks and the three columns at `out0_5`, `out0_6`, `out0_7` of
    those blocks; as invariant the untouched rest (the other scoped buffers and the generator register); full shares;
    nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t)
    | ⟨6, _⟩ => out0_6 (iblk0 V c 0 t) (iblk0 V c 1 t) (iblk0 V c 2 t) (iblk0 V c 3 t) (iblk0 V c 4 t)
    | ⟨7, _⟩ => out0_7 (iblk0 V c 2 t) (iblk0 V c 3 t) (iblk0 V c 4 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves in each window's buffer, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) := by dsimp only [dat0]
theorem after0_7 (c : Dev nD) (t : Fin cfg0.N) : (dat0 V c).after 7 t = out0_7 (iblk0 V c 2 t) (iblk0 V c 3 t) (iblk0 V c 4 t) := by dsimp only [dat0]

/-- What the body finds in each input's buffer: that window's block at the point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`: the invariant, the core's debts (none), and every window's current staging
    buffer at what the pipeline left there; -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the five inputs' buffers hold their blocks (`before0_0` … `before0_4`), so the body's triple
    applies; the invariant and the debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation for `dat0`, at every grid point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Region1Runs.lean ====
/- REGION 1 of @main — the loss kernel `cc1__loss_kernel` on its grid of 977 points — : what its three whole-body
   runs share. The kernel keeps a running pair (sum of the masked losses, count of the positive pairs) in a [1,2]
   scratch buffer across the grid: at the first point the pair is cleared; at every point each of its two entries is
   read, increased by the sum over the point's block (of the masked losses, of the mask) and written back; at the last
   point the pair is copied into the [1,2] output block, which no other point touches.
   Here: the two conditions of the body in closed form over the grid, where the output window is idle, the staging and
   scratch memrefs, the region's invariant with the scratch split off, and each input window's block at a point —
   all at a PARAMETER `V`, the TensorCore's buffer contents when the region is entered. -/
import proofs.«102367_j55516747268533_2_alg».proof.Proof.Gen.Kernel.Launch
import proofs.«102367_j55516747268533_2_alg».proof.Proof.Gen.Kernel.Skeleton
import proofs.«102367_j55516747268533_2_alg».proof.Proof.Gen.Kernel.Points
import Idealize.ShloMosaic.Lib.Pipeline.FrameBody
import Idealize.ShloMosaic.Lib.Ring
import Idealize.ShloMosaic.Lib.Tactic

-- a membership test in a rectangle of a long axis recurses once per coordinate
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: everything below is stated at this parameter
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the positive similarities) holds its block in its current staging buffer at every point, fetched
    there or not, for ANY proof data whose array is `V`'s and whose body leaves the block in place: the window is an
    input, never idle and uncut, so an unfetched buffer still holds the block of an index that has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same of input window 1 (the negative sums). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same of input window 2 (the mask of positive pairs). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions, in closed form over the grid -/

/-- "This is the first point": the body's first `scf.if`, under which the running pair is cleared — the chain of
    scalar comparisons the kernel computes from the grid coordinate. -/
abbrev cond1_0 (i : grid1.Coords) : Prop := (Scalar.cmpi .ne (Scalar.extui (Scalar.cmpi .eq (BitVec.ofNat 32 (i 0).val) 0#32)) 0#32) = 1#1
/-- It holds at point 0 and nowhere else: decided over the 977 points. -/
theorem hcond1_0 : ∀ t : Fin cfg1.N, cond1_0 (grid1.coords t) ↔ t.val = 0 :=
  (by decide +kernel : ∀ t : Fin grid1.N, cond1_0 (grid1.coords t) ↔ t.val = 0)

/-- "This is the last point": the body's second `scf.if`, under which the running pair is copied to the output. -/
abbrev cond1_1 (i : grid1.Coords) : Prop := k1_cond2 i = 1#1
/-- It holds at point 976 and nowhere else: decided over the 977 points. -/
theorem hcond1_1 : ∀ t : Fin cfg1.N, cond1_1 (grid1.coords t) ↔ t.val = 976 :=
  (by decide +kernel : ∀ t : Fin grid1.N, cond1_1 (grid1.coords t) ↔ t.val = 976)

/-! ## Where the windows are idle -/

/-- The three input windows are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
/-- Before the last point the output window is idle (the body stores nothing into it) -/
theorem idleAt1_3 : ∀ t : Fin cfg1.N, ¬cond1_1 (grid1.coords t) → cfg1.idle 3 (grid1.coords t) = true := by decide +kernel
/-- and the pipeline does not write its block back; -/
theorem noFlush1_3 : ∀ t : Fin cfg1.N, ¬cond1_1 (grid1.coords t) → (cfg1.win 3).flush t = false := by decide +kernel
/-- at the last point it is live: the body stores the pair into it. -/
theorem liveAt1_3 : ∀ t : Fin cfg1.N, cond1_1 (grid1.coords t) → cfg1.idle 3 (grid1.coords t) = false := by decide +kernel

/-! ## The memrefs the body is called with -/

/-- The output window's one staging buffer as a view: what the buffer holds is stated through it. -/
abbrev VO1_3 : View sig .tc .vmem S1x2 .f32 := (Memref.whole cc1_stg3_0 : Memref sig .tc .vmem S1x2 .f32).view
/-- Each window's current staging memref at point `t`, as the pipeline passes it to the body, and its wholeness. -/
abbrev ms1_0 (t : Fin cfg1.N) : Memref sig .tc .vmem S2048x1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x2 .f32 := win1_3.stage (cfg1.slots t 3)
abbrev hs1_3 (t : Fin cfg1.N) : (ms1_3 t).IsWhole := hstage1_3 ((cfg1.slots t 3).cast nbuf1_3)
/-- The scratch operand holding the running pair: a whole scoped buffer of the kernel's own, passed beside the windows, -/
abbrev scM1_0 : Memref sig .tc .vmem S1x2 .f32 := Memref.whole cc1_scratch0
/-- and as a view: what the scratch holds between points is stated through it. -/
abbrev VS1_0 : View sig .tc .vmem S1x2 .f32 := scM1_0.view

/-! ## The region's invariant, the scratch split off -/

/-- The core's scoped buffers that are neither a staging buffer of this region nor its scratch (the other region's
    staging buffers), each at some contents: carried through the region unopened. -/
abbrev Rest1 (c : Dev nD) : sProp 𝕄 :=
  Pipeline.scopedRestBut (Ix := Unit) (Name := ℕ) (U := UR sig nD τ) (Lvl := ℕ) (Val := Elt F) spec1 c [cc1_scratch0]

/-- What the launch hands the region and takes back — every scoped buffer that is no staging buffer at some contents,
    the generator register at some state — with the scratch named: the scratch memref owned at some contents, the
    other scoped buffers unopened, the register. -/
theorem PhiA1_eq (c : Dev nD) :
    (Pipeline.ΦA spec1 c : sProp 𝕄)
      = iprop(iprop((∃ d, owns (c : Thread nD τ) scM1_0 fullShare d) ∗ Rest1 (F := F) c) ∗ (∃ r, prngReg c r)) := by
  unfold Pipeline.ΦA
  rw [Pipeline.scopedRest_split_of_list spec1 c [cc1_scratch0] (by decide) (by decide)]
  simp only [scM1_0, owns_whole, bigSepL_singleton]; try rfl

end Cert.Kernel.Hand

end
-- ==== Proof.K.Region1RunA.lean ====
/- REGION 1 of @main, the loss kernel's body run whole in one of its three control cases: the first grid point.
   The body's separation-logic triple is found by symbolic execution of the kernel's skeleton of memory operations;
   what each buffer ends with, as a list of written pieces, is the witness of that execution. One module per
   control case. -/
import proofs.«102367_j55516747268533_2_alg».proof.Proof.K.Region1Runs

-- a membership test in a rectangle of a long axis recurses once per coordinate
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: everything below is stated at this parameter
variable (V : (c : Dev nD) → (b : Ref sig .tc) → Buf (Elt F) ((c : Thread nD τ).loc b))

-- the run's proof term is large
set_option maxHeartbeats 1000000 in
/-- THE FIRST POINT (the clearing taken, the copy-out not). On whole memrefs — the three inputs at their blocks `x0 x1 x2`,
    the output's buffer at contents `xi3` that the body must hand back untouched (the window is idle here), the scratch
    at anything — the body runs to the continuation holding the inputs and the output's buffer as they were and the
    scratch with the pieces `LS0` written: the cleared pair stored whole, then each of its two entries read back,
    increased by the block's sum and stored. The pieces (last first) are the witness the run finds. -/
noncomputable def kernelRun1_A (c : Dev nD) (i : grid1.Coords) (arg1 : Memref sig .tc .vmem S2048x1 .f32) (harg1 : arg1.IsWhole) (arg2 : Memref sig .tc .vmem S2048x1 .f32) (harg2 : arg2.IsWhole) (arg3 : Memref sig .tc .vmem S2048x1 .f32) (harg3 : arg3.IsWhole) (arg4 : Memref sig .tc .vmem S1x2 .f32) (harg4 : arg4.IsWhole) (arg5 : Memref sig .tc .vmem S1x2 .f32) (harg5 : arg5.IsWhole) (hc0 : cond1_0 i) (hc1 : ¬cond1_1 i)
    (x0 x1 x2 : Vec F S2048x1 .f32) :
    Σ' (L3 : List (View.Piece (Elt F) S1x2 .f32)), { LS0 : List (View.Piece (Elt F) S1x2 .f32) //
      ∀ (xi3 : Vec F S1x2 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc1__loss_kernel i arg1 harg1 arg2 harg2 arg3 harg3 arg4 harg4 arg5 harg5) K } := by
  refine ⟨[], ?_, fun xi3 E K => ?run⟩
  case run =>
    simp only [cc1__loss_kernel_eq_skeleton]; unfold cc1__loss_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

end Cert.Kernel.Hand

end
-- ==== Proof.K.Region1RunB.lean ====
/- REGION 1 of @main, the loss kernel's body run whole in one of its three control cases: a middle grid point.
   The body's separation-logic triple is found by symbolic execution of the kernel's skeleton of memory operations;
   what each buffer ends with, as a list of written pieces, is the witness of that execution. One module per
   control case. -/
import proofs.«102367_j55516747268533_2_alg».proof.Proof.K.Region1RunA

-- a membership test in a rectangle of a long axis recurses once per coordinate
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: everything below is stated at this parameter
variable (V : (c : Dev nD) → (b : Ref sig .tc) → Buf (Elt F) ((c : Thread nD τ).loc b))

-- the run's proof term is large
set_option maxHeartbeats 1000000 in
/-- A MIDDLE POINT (neither the clearing nor the copy-out taken). On whole memrefs — the three inputs at their blocks
    `x0 x1 x2`, the output's buffer at contents `xi3` that the body must hand back untouched (the window is idle here),
    the scratch at the pair `xs0` the point before left — the body runs to the continuation holding the inputs and the
    output's buffer as they were and the scratch with the pieces `LS0` written: each of the pair's two entries read,
    increased by the block's sum and stored. The pieces (last first) are the witness the run finds. -/
noncomputable def kernelRun1_B (c : Dev nD) (i : grid1.Coords) (arg1 : Memref sig .tc .vmem S2048x1 .f32) (harg1 : arg1.IsWhole) (arg2 : Memref sig .tc .vmem S2048x1 .f32) (harg2 : arg2.IsWhole) (arg3 : Memref sig .tc .vmem S2048x1 .f32) (harg3 : arg3.IsWhole) (arg4 : Memref sig .tc .vmem S1x2 .f32) (harg4 : arg4.IsWhole) (arg5 : Memref sig .tc .vmem S1x2 .f32) (harg5 : arg5.IsWhole) (hc0 : ¬cond1_0 i) (hc1 : ¬cond1_1 i)
    (x0 x1 x2 : Vec F S2048x1 .f32) (xs0 : Vec F S1x2 .f32) :
    Σ' (L3 : List (View.Piece (Elt F) S1x2 .f32)), { LS0 : List (View.Piece (Elt F) S1x2 .f32) //
      ∀ (xi3 : Vec F S1x2 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xs0
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc1__loss_kernel i arg1 harg1 arg2 harg2 arg3 harg3 arg4 harg4 arg5 harg5) K } := by
  refine ⟨[], ?_, fun xi3 E K => ?run⟩
  case run =>
    simp only [cc1__loss_kernel_eq_skeleton]; unfold cc1__loss_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

end Cert.Kernel.Hand

end
-- ==== Proof.K.Region1RunC.lean ====
/- REGION 1 of @main, the loss kernel's body run whole in one of its three control cases: the last grid point.
   The body's separation-logic triple is found by symbolic execution of the kernel's skeleton of memory operations;
   what each buffer ends with, as a list of written pieces, is the witness of that execution. One module per
   control case. -/
import proofs.«102367_j55516747268533_2_alg».proof.Proof.K.Region1RunB

-- a membership test in a rectangle of a long axis recurses once per coordinate
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: everything below is stated at this parameter
variable (V : (c : Dev nD) → (b : Ref sig .tc) → Buf (Elt F) ((c : Thread nD τ).loc b))

-- the run's proof term is large
set_option maxHeartbeats 1000000 in
/-- THE LAST POINT (the clearing not taken, the copy-out taken). On whole memrefs — the three inputs at their blocks
    `x0 x1 x2`, the output's buffer at anything, the scratch at the pair `xs0` the point before left — the body runs to
    the continuation holding the inputs as they were, the scratch with the pieces `LS0` written (each of the pair's two
    entries read, increased by the block's sum and stored) and the output's buffer with the pieces `L3` written: the
    whole pair as the scratch then holds it. The pieces (last first) are the witness the run finds. -/
noncomputable def kernelRun1_C (c : Dev nD) (i : grid1.Coords) (arg1 : Memref sig .tc .vmem S2048x1 .f32) (harg1 : arg1.IsWhole) (arg2 : Memref sig .tc .vmem S2048x1 .f32) (harg2 : arg2.IsWhole) (arg3 : Memref sig .tc .vmem S2048x1 .f32) (harg3 : arg3.IsWhole) (arg4 : Memref sig .tc .vmem S1x2 .f32) (harg4 : arg4.IsWhole) (arg5 : Memref sig .tc .vmem S1x2 .f32) (harg5 : arg5.IsWhole) (hc0 : ¬cond1_0 i) (hc1 : cond1_1 i)
    (x0 x1 x2 : Vec F S2048x1 .f32) (xs0 : Vec F S1x2 .f32) :
    Σ' (L3 : List (View.Piece (Elt F) S1x2 .f32)), { LS0 : List (View.Piece (Elt F) S1x2 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xs0
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0)) -∗ K ⟨⟩))
          ⊢ wp frame (wpE (defs₀ (F := F)) Variants.none c none) E (cc1__loss_kernel i arg1 harg1 arg2 harg2 arg3 harg3 arg4 harg4 arg5 harg5) K } := by
  refine ⟨?_, ?_, fun E K => ?run⟩
  case run =>
    simp only [cc1__loss_kernel_eq_skeleton]; unfold cc1__loss_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg1.eq_unread hf0; obtain rfl := harg2.eq_unread hf1; obtain rfl := harg3.eq_unread hf2; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact HS0

end Cert.Kernel.Hand

end
-- ==== Proof.K.Region1.lean ====
/- REGION 1 of @main — the loss kernel `cc1__loss_kernel` on its grid of 977 points — : its half of the frame, at a
   PARAMETER `V` (the TensorCore's buffer contents when the region is entered).
   The mathematics: the kernel folds the grid into a running pair (sum of the masked losses, count of the positive
   pairs), kept in a [1,2] scratch buffer. Point 0 clears the pair; every point adds its block's two sums to the pair's
   two entries; point 976 copies the pair to the [1,2] output block, which is written back to its array only then.
   So after point `n` the scratch holds a function of the input blocks at points 0 … n (`outsAt1`'s second component),
   and the output's staging buffer matters at the last point only (`outsAt1`'s first component).
   Here: what each control case leaves in the output's buffer and in the scratch (the pieces its run found, read back),
   the accumulation point by point (`outsAt1`) with its case equations, the region's invariant carrying the scratch at
   what the point before left (`PhiS1`), the pipeline's proof data (`dat1`), the body obligation, and the invariant's
   two ends (`hin1`, `hout1`). -/
import proofs.«102367_j55516747268533_2_alg».proof.Proof.K.Region1RunC

-- a membership test in a rectangle of a long axis recurses once per coordinate
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: everything below is stated at this parameter
variable (V : (c : Dev nD) → (b : Ref sig .tc) → Buf (Elt F) ((c : Thread nD τ).loc b))

/-! ## What each case leaves in the output's buffer and in the scratch -/

section Cases
omit V

/-- At the first point the body stores nothing into the output's buffer (the window is idle there and not written back):
    no pieces — an empty list nothing consults. -/
def out1_A_3 (c : Dev nD) (i : grid1.Coords) (arg1 : Memref sig .tc .vmem S2048x1 .f32) (harg1 : arg1.IsWhole) (arg2 : Memref sig .tc .vmem S2048x1 .f32) (harg2 : arg2.IsWhole) (arg3 : Memref sig .tc .vmem S2048x1 .f32) (harg3 : arg3.IsWhole) (arg4 : Memref sig .tc .vmem S1x2 .f32) (harg4 : arg4.IsWhole) (arg5 : Memref sig .tc .vmem S1x2 .f32) (harg5 : arg5.IsWhole) (hc0 : cond1_0 i) (hc1 : ¬cond1_1 i)
    (x0 x1 x2 : Vec F S2048x1 .f32) : Vec F S1x2 .f32 :=
  VO1_3.read (Elt F) (VO1_3.writes (Elt F) VO1_3.junk (kernelRun1_A c i arg1 harg1 arg2 harg2 arg3 harg3 arg4 harg4 arg5 harg5 hc0 hc1 x0 x1 x2).1)

/-- At the first point the stores into the scratch cover it: the two [1,1] entries of the pair, stored one after the other, tile
    the [1,2] buffer (the clearing store of the whole pair lies under them). -/
theorem scover1_A_0 (c : Dev nD) (i : grid1.Coords) (arg1 : Memref sig .tc .vmem S2048x1 .f32) (harg1 : arg1.IsWhole) (arg2 : Memref sig .tc .vmem S2048x1 .f32) (harg2 : arg2.IsWhole) (arg3 : Memref sig .tc .vmem S2048x1 .f32) (harg3 : arg3.IsWhole) (arg4 : Memref sig .tc .vmem S1x2 .f32) (harg4 : arg4.IsWhole) (arg5 : Memref sig .tc .vmem S1x2 .f32) (harg5 : arg5.IsWhole) (hc0 : cond1_0 i) (hc1 : ¬cond1_1 i)
    (x0 x1 x2 : Vec F S2048x1 .f32) (y : S1x2.Idx) :
    ∃ pc ∈ (kernelRun1_A c i arg1 harg1 arg2 harg2 arg3 harg3 arg4 harg4 arg5 harg5 hc0 hc1 x0 x1 x2).2.1, y ∈ pc.1.set :=
  View.cover_of_tiledL (kernelRun1_A c i arg1 harg1 arg2 harg2 arg3 harg3 arg4 harg4 arg5 harg5 hc0 hc1 x0 x1 x2).2.1 S1x1.size (by sl_kernel_rfl) y

/-- What the first point leaves in the scratch — the running pair after this point's two additions, from the cleared pair —: the run's pieces read back. -/
def sout1_A_0 (c : Dev nD) (i : grid1.Coords) (arg1 : Memref sig .tc .vmem S2048x1 .f32) (harg1 : arg1.IsWhole) (arg2 : Memref sig .tc .vmem S2048x1 .f32) (harg2 : arg2.IsWhole) (arg3 : Memref sig .tc .vmem S2048x1 .f32) (harg3 : arg3.IsWhole) (arg4 : Memref sig .tc .vmem S1x2 .f32) (harg4 : arg4.IsWhole) (arg5 : Memref sig .tc .vmem S1x2 .f32) (harg5 : arg5.IsWhole) (hc0 : cond1_0 i) (hc1 : ¬cond1_1 i)
    (x0 x1 x2 : Vec F S2048x1 .f32) : Vec F S1x2 .f32 :=
  VS1_0.read (Elt F) (VS1_0.writes (Elt F) VS1_0.junk (kernelRun1_A c i arg1 harg1 arg2 harg2 arg3 harg3 arg4 harg4 arg5 harg5 hc0 hc1 x0 x1 x2).2.1)

/-- At a middle point the body stores nothing into the output's buffer (the window is idle there and not written back):
    no pieces — an empty list nothing consults. -/
def out1_B_3 (c : Dev nD) (i : grid1.Coords) (arg1 : Memref sig .tc .vmem S2048x1 .f32) (harg1 : arg1.IsWhole) (arg2 : Memref sig .tc .vmem S2048x1 .f32) (harg2 : arg2.IsWhole) (arg3 : Memref sig .tc .vmem S2048x1 .f32) (harg3 : arg3.IsWhole) (arg4 : Memref sig .tc .vmem S1x2 .f32) (harg4 : arg4.IsWhole) (arg5 : Memref sig .tc .vmem S1x2 .f32) (harg5 : arg5.IsWhole) (hc0 : ¬cond1_0 i) (hc1 : ¬cond1_1 i)
    (x0 x1 x2 : Vec F S2048x1 .f32) (xs0 : Vec F S1x2 .f32) : Vec F S1x2 .f32 :=
  VO1_3.read (Elt F) (VO1_3.writes (Elt F) VO1_3.junk (kernelRun1_B c i arg1 harg1 arg2 harg2 arg3 harg3 arg4 harg4 arg5 harg5 hc0 hc1 x0 x1 x2 xs0).1)

/-- At a middle point the stores into the scratch cover it: the two [1,1] entries of the pair, stored one after the other, tile
    the [1,2] buffer. -/
theorem scover1_B_0 (c : Dev nD) (i : grid1.Coords) (arg1 : Memref sig .tc .vmem S2048x1 .f32) (harg1 : arg1.IsWhole) (arg2 : Memref sig .tc .vmem S2048x1 .f32) (harg2 : arg2.IsWhole) (arg3 : Memref sig .tc .vmem S2048x1 .f32) (harg3 : arg3.IsWhole) (arg4 : Memref sig .tc .vmem S1x2 .f32) (harg4 : arg4.IsWhole) (arg5 : Memref sig .tc .vmem S1x2 .f32) (harg5 : arg5.IsWhole) (hc0 : ¬cond1_0 i) (hc1 : ¬cond1_1 i)
    (x0 x1 x2 : Vec F S2048x1 .f32) (xs0 : Vec F S1x2 .f32) (y : S1x2.Idx) :
    ∃ pc ∈ (kernelRun1_B c i arg1 harg1 arg2 harg2 arg3 harg3 arg4 harg4 arg5 harg5 hc0 hc1 x0 x1 x2 xs0).2.1, y ∈ pc.1.set :=
  View.cover_of_tiledL (kernelRun1_B c i arg1 harg1 arg2 harg2 arg3 harg3 arg4 harg4 arg5 harg5 hc0 hc1 x0 x1 x2 xs0).2.1 S1x1.size (by sl_kernel_rfl) y

/-- What a middle point leaves in the scratch — the running pair after this point's two additions, from the pair `xs0` the point before left —: the run's pieces read back. -/
def sout1_B_0 (c : Dev nD) (i : grid1.Coords) (arg1 : Memref sig .tc .vmem S2048x1 .f32) (harg1 : arg1.IsWhole) (arg2 : Memref sig .tc .vmem S2048x1 .f32) (harg2 : arg2.IsWhole) (arg3 : Memref sig .tc .vmem S2048x1 .f32) (harg3 : arg3.IsWhole) (arg4 : Memref sig .tc .vmem S1x2 .f32) (harg4 : arg4.IsWhole) (arg5 : Memref sig .tc .vmem S1x2 .f32) (harg5 : arg5.IsWhole) (hc0 : ¬cond1_0 i) (hc1 : ¬cond1_1 i)
    (x0 x1 x2 : Vec F S2048x1 .f32) (xs0 : Vec F S1x2 .f32) : Vec F S1x2 .f32 :=
  VS1_0.read (Elt F) (VS1_0.writes (Elt F) VS1_0.junk (kernelRun1_B c i arg1 harg1 arg2 harg2 arg3 harg3 arg4 harg4 arg5 harg5 hc0 hc1 x0 x1 x2 xs0).2.1)

/-- At the last point the one store into the output's buffer is of the whole [1,2] block, so its piece covers it. -/
theorem cover1_C_3 (c : Dev nD) (i : grid1.Coords) (arg1 : Memref sig .tc .vmem S2048x1 .f32) (harg1 : arg1.IsWhole) (arg2 : Memref sig .tc .vmem S2048x1 .f32) (harg2 : arg2.IsWhole) (arg3 : Memref sig .tc .vmem S2048x1 .f32) (harg3 : arg3.IsWhole) (arg4 : Memref sig .tc .vmem S1x2 .f32) (harg4 : arg4.IsWhole) (arg5 : Memref sig .tc .vmem S1x2 .f32) (harg5 : arg5.IsWhole) (hc0 : ¬cond1_0 i) (hc1 : cond1_1 i)
    (x0 x1 x2 : Vec F S2048x1 .f32) (xs0 : Vec F S1x2 .f32) (y : S1x2.Idx) :
    ∃ pc ∈ (kernelRun1_C c i arg1 harg1 arg2 harg2 arg3 harg3 arg4 harg4 arg5 harg5 hc0 hc1 x0 x1 x2 xs0).1, y ∈ pc.1.set :=
  View.cover_of_tiledL (kernelRun1_C c i arg1 harg1 arg2 harg2 arg3 harg3 arg4 harg4 arg5 harg5 hc0 hc1 x0 x1 x2 xs0).1 S1x2.size (by sl_kernel_rfl) y

/-- What the last point leaves in the output's buffer: the running pair, as the scratch holds it after this point's
    two additions — the run's piece read back. -/
def out1_C_3 (c : Dev nD) (i : grid1.Coords) (arg1 : Memref sig .tc .vmem S2048x1 .f32) (harg1 : arg1.IsWhole) (arg2 : Memref sig .tc .vmem S2048x1 .f32) (harg2 : arg2.IsWhole) (arg3 : Memref sig .tc .vmem S2048x1 .f32) (harg3 : arg3.IsWhole) (arg4 : Memref sig .tc .vmem S1x2 .f32) (harg4 : arg4.IsWhole) (arg5 : Memref sig .tc .vmem S1x2 .f32) (harg5 : arg5.IsWhole) (hc0 : ¬cond1_0 i) (hc1 : cond1_1 i)
    (x0 x1 x2 : Vec F S2048x1 .f32) (xs0 : Vec F S1x2 .f32) : Vec F S1x2 .f32 :=
  VO1_3.read (Elt F) (VO1_3.writes (Elt F) VO1_3.junk (kernelRun1_C c i arg1 harg1 arg2 harg2 arg3 harg3 arg4 harg4 arg5 harg5 hc0 hc1 x0 x1 x2 xs0).1)

/-- At the last point the stores into the scratch cover it: the two [1,1] entries of the pair, stored one after the other, tile
    the [1,2] buffer. -/
theorem scover1_C_0 (c : Dev nD) (i : grid1.Coords) (arg1 : Memref sig .tc .vmem S2048x1 .f32) (harg1 : arg1.IsWhole) (arg2 : Memref sig .tc .vmem S2048x1 .f32) (harg2 : arg2.IsWhole) (arg3 : Memref sig .tc .vmem S2048x1 .f32) (harg3 : arg3.IsWhole) (arg4 : Memref sig .tc .vmem S1x2 .f32) (harg4 : arg4.IsWhole) (arg5 : Memref sig .tc .vmem S1x2 .f32) (harg5 : arg5.IsWhole) (hc0 : ¬cond1_0 i) (hc1 : cond1_1 i)
    (x0 x1 x2 : Vec F S2048x1 .f32) (xs0 : Vec F S1x2 .f32) (y : S1x2.Idx) :
    ∃ pc ∈ (kernelRun1_C c i arg1 harg1 arg2 harg2 arg3 harg3 arg4 harg4 arg5 harg5 hc0 hc1 x0 x1 x2 xs0).2.1, y ∈ pc.1.set :=
  View.cover_of_tiledL (kernelRun1_C c i arg1 harg1 arg2 harg2 arg3 harg3 arg4 harg4 arg5 harg5 hc0 hc1 x0 x1 x2 xs0).2.1 S1x1.size (by sl_kernel_rfl) y

/-- What the last point leaves in the scratch — the running pair after this point's two additions, from the pair `xs0` the point before left —: the run's pieces read back. -/
def sout1_C_0 (c : Dev nD) (i : grid1.Coords) (arg1 : Memref sig .tc .vmem S2048x1 .f32) (harg1 : arg1.IsWhole) (arg2 : Memref sig .tc .vmem S2048x1 .f32) (harg2 : arg2.IsWhole) (arg3 : Memref sig .tc .vmem S2048x1 .f32) (harg3 : arg3.IsWhole) (arg4 : Memref sig .tc .vmem S1x2 .f32) (harg4 : arg4.IsWhole) (arg5 : Memref sig .tc .vmem S1x2 .f32) (harg5 : arg5.IsWhole) (hc0 : ¬cond1_0 i) (hc1 : cond1_1 i)
    (x0 x1 x2 : Vec F S2048x1 .f32) (xs0 : Vec F S1x2 .f32) : Vec F S1x2 .f32 :=
  VS1_0.read (Elt F) (VS1_0.writes (Elt F) VS1_0.junk (kernelRun1_C c i arg1 harg1 arg2 harg2 arg3 harg3 arg4 harg4 arg5 harg5 hc0 hc1 x0 x1 x2 xs0).2.1)

end Cases

/-! ## Which case a point is in -/

section Which
omit V

/-- Point 0 clears the pair and does not copy it out; -/
theorem caseA_0 (t : Fin cfg1.N) (h : t.val = 0) : cond1_0 (grid1.coords t) := (hcond1_0 t).mpr h
theorem caseA_1 (t : Fin cfg1.N) (h : t.val = 0) : ¬cond1_1 (grid1.coords t) := fun hc => by
  have := (hcond1_1 t).mp hc; omega
/-- a later point does not clear it, -/
theorem caseBC_0 (t : Fin cfg1.N) (h : t.val ≠ 0) : ¬cond1_0 (grid1.coords t) := fun hc => h ((hcond1_0 t).mp hc)
/-- and copies it out exactly when it is point 976. -/
theorem caseB_1 (t : Fin cfg1.N) (h : t.val ≠ 976) : ¬cond1_1 (grid1.coords t) := fun hc => h ((hcond1_1 t).mp hc)
theorem caseC_1 (t : Fin cfg1.N) (h : t.val = 976) : cond1_1 (grid1.coords t) := (hcond1_1 t).mpr h

end Which

/-! ## What the output's buffer and the scratch hold after each point -/

/-- THE ACCUMULATION. After the body at position `n`: (the output window's staging buffer, the scratch). Point 0 is the
    clearing case on the point's input blocks; a later point is the middle case, or at 976 the copying case, on its
    input blocks and on the pair the point before left in the scratch. -/
def outsAt1 (c : Dev nD) : (n : ℕ) → n < cfg1.N → Vec F S1x2 .f32 × Vec F S1x2 .f32
  | 0, hn =>
    (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) (caseA_0 ⟨0, hn⟩ rfl) (caseA_1 ⟨0, hn⟩ rfl) (iblk1 V c 0 ⟨0, hn⟩) (iblk1 V c 1 ⟨0, hn⟩) (iblk1 V c 2 ⟨0, hn⟩),
     sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) (caseA_0 ⟨0, hn⟩ rfl) (caseA_1 ⟨0, hn⟩ rfl) (iblk1 V c 0 ⟨0, hn⟩) (iblk1 V c 1 ⟨0, hn⟩) (iblk1 V c 2 ⟨0, hn⟩))
  | n + 1, hn =>
    if h1 : n + 1 = 976 then
      (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (caseBC_0 ⟨n + 1, hn⟩ (Nat.succ_ne_zero n)) (caseC_1 ⟨n + 1, hn⟩ h1) (iblk1 V c 0 ⟨n + 1, hn⟩) (iblk1 V c 1 ⟨n + 1, hn⟩) (iblk1 V c 2 ⟨n + 1, hn⟩) (outsAt1 c n (Nat.lt_of_succ_lt hn)).2,
       sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (caseBC_0 ⟨n + 1, hn⟩ (Nat.succ_ne_zero n)) (caseC_1 ⟨n + 1, hn⟩ h1) (iblk1 V c 0 ⟨n + 1, hn⟩) (iblk1 V c 1 ⟨n + 1, hn⟩) (iblk1 V c 2 ⟨n + 1, hn⟩) (outsAt1 c n (Nat.lt_of_succ_lt hn)).2)
    else
      (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (caseBC_0 ⟨n + 1, hn⟩ (Nat.succ_ne_zero n)) (caseB_1 ⟨n + 1, hn⟩ h1) (iblk1 V c 0 ⟨n + 1, hn⟩) (iblk1 V c 1 ⟨n + 1, hn⟩) (iblk1 V c 2 ⟨n + 1, hn⟩) (outsAt1 c n (Nat.lt_of_succ_lt hn)).2,
       sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (caseBC_0 ⟨n + 1, hn⟩ (Nat.succ_ne_zero n)) (caseB_1 ⟨n + 1, hn⟩ h1) (iblk1 V c 0 ⟨n + 1, hn⟩) (iblk1 V c 1 ⟨n + 1, hn⟩) (iblk1 V c 2 ⟨n + 1, hn⟩) (outsAt1 c n (Nat.lt_of_succ_lt hn)).2)

/-- `outsAt1` at the first point: the clearing case's contents. -/
theorem outsAt1_A (c : Dev nD) (t : Fin cfg1.N) (h0 : t.val = 0) :
    outsAt1 V c t.val t.isLt =
      (out1_A_3 c (grid1.coords t) (ms1_0 t) (hs1_0 t) (ms1_1 t) (hs1_1 t) (ms1_2 t) (hs1_2 t) (ms1_3 t) (hs1_3 t) scM1_0 (Memref.isWhole_whole _) (caseA_0 t h0) (caseA_1 t h0) (iblk1 V c 0 t) (iblk1 V c 1 t) (iblk1 V c 2 t),
       sout1_A_0 c (grid1.coords t) (ms1_0 t) (hs1_0 t) (ms1_1 t) (hs1_1 t) (ms1_2 t) (hs1_2 t) (ms1_3 t) (hs1_3 t) scM1_0 (Memref.isWhole_whole _) (caseA_0 t h0) (caseA_1 t h0) (iblk1 V c 0 t) (iblk1 V c 1 t) (iblk1 V c 2 t)) := by
  obtain ⟨n, hn⟩ := t
  cases n with
  | zero => rfl
  | succ n => exact absurd h0 (Nat.succ_ne_zero n)

/-- `outsAt1` at a middle point: that case's contents, over the pair the point before left. -/
theorem outsAt1_B (c : Dev nD) (t : Fin cfg1.N) (h0 : t.val ≠ 0) (h1 : t.val ≠ 976) :
    outsAt1 V c t.val t.isLt =
      (out1_B_3 c (grid1.coords t) (ms1_0 t) (hs1_0 t) (ms1_1 t) (hs1_1 t) (ms1_2 t) (hs1_2 t) (ms1_3 t) (hs1_3 t) scM1_0 (Memref.isWhole_whole _) (caseBC_0 t h0) (caseB_1 t h1) (iblk1 V c 0 t) (iblk1 V c 1 t) (iblk1 V c 2 t) (outsAt1 V c (t.val - 1) (Nat.lt_of_le_of_lt (Nat.sub_le _ _) t.isLt)).2,
       sout1_B_0 c (grid1.coords t) (ms1_0 t) (hs1_0 t) (ms1_1 t) (hs1_1 t) (ms1_2 t) (hs1_2 t) (ms1_3 t) (hs1_3 t) scM1_0 (Memref.isWhole_whole _) (caseBC_0 t h0) (caseB_1 t h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact absurd rfl h0
  | succ n => exact (dif_neg h1).trans rfl

/-- `outsAt1` at the last point: the copying case's contents, over the pair the point before left. -/
theorem outsAt1_C (c : Dev nD) (t : Fin cfg1.N) (h0 : t.val ≠ 0) (h1 : t.val = 976) :
    outsAt1 V c t.val t.isLt =
      (out1_C_3 c (grid1.coords t) (ms1_0 t) (hs1_0 t) (ms1_1 t) (hs1_1 t) (ms1_2 t) (hs1_2 t) (ms1_3 t) (hs1_3 t) scM1_0 (Memref.isWhole_whole _) (caseBC_0 t h0) (caseC_1 t h1) (iblk1 V c 0 t) (iblk1 V c 1 t) (iblk1 V c 2 t) (outsAt1 V c (t.val - 1) (Nat.lt_of_le_of_lt (Nat.sub_le _ _) t.isLt)).2,
       sout1_C_0 c (grid1.coords t) (ms1_0 t) (hs1_0 t) (ms1_1 t) (hs1_1 t) (ms1_2 t) (hs1_2 t) (ms1_3 t) (hs1_3 t) scM1_0 (Memref.isWhole_whole _) (caseBC_0 t h0) (caseC_1 t h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact absurd rfl h0
  | succ n => exact (dif_pos h1).trans rfl

/-! ## The region's invariant: the scratch carried at what the point before left -/

/-- Before position `n`: before the first point what the launch hands over (every scoped buffer that is no staging buffer
    at some contents, the generator register at some state); afterwards the same with the scratch at the pair the point
    before left in it. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ Rest1 (F := F) c) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the scratch at that point's pair. -/
theorem PhiS1_succ (c : Dev nD) (n : ℕ) (hn : n < cfg1.N) :
    PhiS1 V c (n + 1) hn = iprop(iprop(owns (c : Thread nD τ) scM1_0 fullShare ((outsAt1 V c n hn).2) ∗ Rest1 (F := F) c) ∗ (∃ r, prngReg c r)) := rfl

/-- Before a point that is not the first: the scratch at the pair the point before left. -/
theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ Rest1 (F := F) c) ∗ (∃ r, prngReg c r)) := by
  cases n with
  | zero => exact absurd rfl hz
  | succ n => rfl

/-! ## The pipeline's proof data -/

/-- The proof data of the region's pipeline on core `c`: the arrays as the region finds them (`V`); after the body at
    point `t` each input's buffer at its block and the output's at `outsAt1`'s first component; the invariant `PhiS1`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (the library's precondition, the four windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' buffers hold their blocks; the point is the first, a middle one or the last, and
    that case's run applies: the invariant hands the body the scratch — at anything at the first point, at the pair the
    point before left afterwards — and takes it back at this point's pair (the run's pieces cover the scratch); before
    the last point the output's buffer goes through untouched (the window is idle and not written back), at the last
    point it is taken at anything and returned at the pair; the other scoped buffers, the generator register and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  by_cases h0 : t.val = 0
  · -- the first point: the pair is cleared, then increased
    rw [show (dat1 V c).leavesExact 0 t = owns (c : Thread nD τ) (ms1_0 t) fullShare ((dat1 V c).after 0 t) from by
          unfold Dat.leavesExact; rw [liveAt1_0 t], after1_0]
    rw [show (dat1 V c).leavesExact 1 t = owns (c : Thread nD τ) (ms1_1 t) fullShare ((dat1 V c).after 1 t) from by
          unfold Dat.leavesExact; rw [liveAt1_1 t], after1_1]
    rw [show (dat1 V c).leavesExact 2 t = owns (c : Thread nD τ) (ms1_2 t) fullShare ((dat1 V c).after 2 t) from by
          unfold Dat.leavesExact; rw [liveAt1_2 t], after1_2]
    rw [Dat.leavesExact_idle (dat1 V c) 3 t (idleAt1_3 t (caseA_1 t h0)) (noFlush1_3 t (caseA_1 t h0))]
    rw [outsAt1_A V c t h0]
    unfold sout1_A_0; (try dsimp only)
    rw [PhiS1_castSucc V c t, PhiS1_zero V c _ _ h0, PhiA1_eq]
    iintro ⟨⟨⟨HS0, HR⟩, Hg⟩, Ho, ⟨%d0, H0⟩, ⟨%d1, H1⟩, ⟨%d2, H2⟩, ⟨%d3, H3⟩⟩
    iapply ((kernelRun1_A c (grid1.coords t) _ _ _ _ _ _ _ _ _ _ (caseA_0 t h0) (caseA_1 t h0) (iblk1 V c 0 t) (iblk1 V c 1 t) (iblk1 V c 2 t)).2.2 _ Set.univ _)
    isplitl [H0]; · iexact H0
    isplitl [H1]; · iexact H1
    isplitl [H2]; · iexact H2
    isplitl [H3]; · iexact H3
    isplitl [HS0]; · iexact HS0
    iintro ⟨H0, H1, H2, H3, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover1_A_0 c _ _ _ _ _ _ _ _ _ _ _ _ _ _ _ _)
        iexact HR
      iexact Hg
    isplitl [Ho]; · iexact Ho
    isplitl [H0]; · iexact H0
    isplitl [H1]; · iexact H1
    isplitl [H2]; · iexact H2
    iexists _; iexact H3
  · by_cases h1 : t.val = 976
    · -- the last point: the pair is increased, then copied out
      rw [show (dat1 V c).leavesExact 0 t = owns (c : Thread nD τ) (ms1_0 t) fullShare ((dat1 V c).after 0 t) from by
            unfold Dat.leavesExact; rw [liveAt1_0 t], after1_0]
      rw [show (dat1 V c).leavesExact 1 t = owns (c : Thread nD τ) (ms1_1 t) fullShare ((dat1 V c).after 1 t) from by
            unfold Dat.leavesExact; rw [liveAt1_1 t], after1_1]
      rw [show (dat1 V c).leavesExact 2 t = owns (c : Thread nD τ) (ms1_2 t) fullShare ((dat1 V c).after 2 t) from by
            unfold Dat.leavesExact; rw [liveAt1_2 t], after1_2]
      rw [show (dat1 V c).leavesExact 3 t = owns (c : Thread nD τ) (ms1_3 t) fullShare ((dat1 V c).after 3 t) from by
            unfold Dat.leavesExact; rw [liveAt1_3 t (caseC_1 t h1)], after1_3]
      rw [outsAt1_C V c t h0 h1]
      unfold out1_C_3 sout1_C_0; (try dsimp only)
      rw [PhiS1_castSucc V c t, PhiS1_pos V c _ _ h0]
      iintro ⟨⟨⟨HS0, HR⟩, Hg⟩, Ho, ⟨%d0, H0⟩, ⟨%d1, H1⟩, ⟨%d2, H2⟩, ⟨%d3, H3⟩⟩
      iapply ((kernelRun1_C c (grid1.coords t) _ _ _ _ _ _ _ _ _ _ (caseBC_0 t h0) (caseC_1 t h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_C_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _)
    · -- a middle point: the pair is increased
      rw [show (dat1 V c).leavesExact 0 t = owns (c : Thread nD τ) (ms1_0 t) fullShare ((dat1 V c).after 0 t) from by
            unfold Dat.leavesExact; rw [liveAt1_0 t], after1_0]
      rw [show (dat1 V c).leavesExact 1 t = owns (c : Thread nD τ) (ms1_1 t) fullShare ((dat1 V c).after 1 t) from by
            unfold Dat.leavesExact; rw [liveAt1_1 t], after1_1]
      rw [show (dat1 V c).leavesExact 2 t = owns (c : Thread nD τ) (ms1_2 t) fullShare ((dat1 V c).after 2 t) from by
            unfold Dat.leavesExact; rw [liveAt1_2 t], after1_2]
      rw [Dat.leavesExact_idle (dat1 V c) 3 t (idleAt1_3 t (caseB_1 t h1)) (noFlush1_3 t (caseB_1 t h1))]
      rw [outsAt1_B V c t h0 h1]
      unfold sout1_B_0; (try dsimp only)
      rw [PhiS1_castSucc V c t, PhiS1_pos V c _ _ h0]
      iintro ⟨⟨⟨HS0, HR⟩, Hg⟩, Ho, ⟨%d0, H0⟩, ⟨%d1, H1⟩, ⟨%d2, H2⟩, ⟨%d3, H3⟩⟩
      iapply ((kernelRun1_B c (grid1.coords t) _ _ _ _ _ _ _ _ _ _ (caseBC_0 t h0) (caseB_1 t h1) (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_B_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant's two ends -/

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives back what the launch handed over: the pair's value is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, HR⟩, Hg⟩
  isplitl [HS0 HR]
  · isplitl [HS0]
    · iexists _; iexact HS0
    iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 977 := N_1; omega)

end Cert.Kernel.Hand

end
-- ==== Proof.K.Run.lean ====
/-
  The whole run of the kernel program as compiled (read at any float instance): the host stretch that gathers the pairs' rows, labels and padding mask;
  the first grid of 977 blocks (the pairwise similarity exponentials and masks); the host stretch that sums the negatives'
  exponentials per anchor and gathers the sums back; the second grid (the running pair of sums); the final quotient.

  Between two items every unscoped buffer of a core is held whole at a known valuation: the launch memory, then each host
  stretch applied (`StableHlo.after`), then at a grid's exit the grid's arrays at what its write-backs leave
  (`Dat.arrAt … N`) and every other buffer as entered.  The run below states that every weakly fair execution terminates
  with every unscoped buffer at the last of those valuations; the frame claim and the result's value are read off it.
-/
import proofs.«102367_j55516747268533_2_alg».proof.Proof.K.Region0
import proofs.«102367_j55516747268533_2_alg».proof.Proof.K.Region1
import proofs.«102367_j55516747268533_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m (c, b)
/-- After the first host stretch: the first grid's entry. -/
abbrev W1 : Dev nD → Valuation τ sig (Elt F) := fun c => StableHlo.after hostOps0 (W0 m c)
abbrev U1 : (c : Dev nD) → (b : Ref sig .tc) → Buf (Elt F) ((c : Thread nD τ).loc b) := fun c b => W1 m c b
/-- At the first grid's exit: its arrays at what the write-backs leave, the rest as entered. -/
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)

/-- After the second host stretch: the second grid's entry. -/
abbrev W3 : Dev nD → Valuation τ sig (Elt F) := fun c => StableHlo.after hostOps1 (W2 m c)
abbrev U3 : (c : Dev nD) → (b : Ref sig .tc) → Buf (Elt F) ((c : Thread nD τ).loc b) := fun c b => W3 m c b
/-- At the second grid's exit. -/
def W4 (c : Dev nD) : Valuation τ sig (Elt F) :=
  Pipeline.withArrays spec1 c (W3 m c) fun w => (dat1 (U3 m) c).arrAt w cfg1.N
theorem W4_arr (c : Dev nD) (w : Fin cfg1.W) :
    W4 m c (Proc.devRef .tc (Pipeline.arrRef spec1 w)) = (dat1 (U3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev U4 : (c : Dev nD) → (b : Ref sig .tc) → Buf (Elt F) ((c : Thread nD τ).loc b) := fun c b => W4 m c b
theorem hF1 (c : Dev nD) (w : Fin cfg1.W) : (dat1 (U3 m) c).arrAt w cfg1.N = U4 m c (Pipeline.arrRef spec1 w) :=
  (W4_arr m c w).symm
theorem hrest1 (c : Dev nD) : ∀ b, b ∉ Finset.univ.image (Pipeline.arrRef spec1) → U4 m c b = U3 m c b :=
  fun b hb => W4_of_ne m c b fun w e => hb (Finset.mem_image.mpr ⟨w, Finset.mem_univ _, e⟩)

/-- After the last host stretch: the end. -/
abbrev W5 : Dev nD → Valuation τ sig (Elt F) := fun c => StableHlo.after hostOps2 (W4 m c)

/-! ## No item writes an argument array -/

/-- An argument array is written by no host stretch and is no array of either grid, so the last valuation holds it as
    launched. -/
theorem W5_of_arg (c : Dev nD) (r : Ref sig .tc) (h0 : r ∉ hostOps0_W) (h1 : r ∉ hostOps1_W) (h2 : r ∉ hostOps2_W)
    (hw0 : ∀ w, Pipeline.arrRef spec0 w ≠ r) (hw1 : ∀ w, Pipeline.arrRef spec1 w ≠ r) :
    W5 m c (Proc.devRef .tc r) = m ((c : Thread nD τ).loc r) :=
  calc W5 m c (Proc.devRef .tc r)
    _ = W4 m c (Proc.devRef .tc r) := StableHlo.after_of_writes_sub hostOps2 _ hostOps2_writes h2
    _ = W3 m c (Proc.devRef .tc r) := W4_of_ne m c r hw1
    _ = W2 m c (Proc.devRef .tc r) := StableHlo.after_of_writes_sub hostOps1 _ hostOps1_writes h1
    _ = W1 m c (Proc.devRef .tc r) := W2_of_ne m c r hw0
    _ = W0 m c (Proc.devRef .tc r) := StableHlo.after_of_writes_sub hostOps0 _ hostOps0_writes h0
    _ = m ((c : Thread nD τ).loc r) := rfl

/-! ## The proof data family and the thread state -/

/-- Neither grid has a prefetched table. -/
abbrev adm : (p : Fin 2) → (pcfgs (F := F) p).Adm := fun p => (cfgs p).toPCfg_adm
/-- Each grid's proof data at its entry contents. -/
def pdats : (p : Fin 2) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U3 m) c
abbrev 𝒱₀ : Variants := Variants.none
/-- No core owes another anything. -/
abbrev L : GSem nD τ sig → Finset Unit := fun _ => ∅
abbrev lv : GSem nD τ sig → Unit → ℕ := fun _ _ => 0
/-- What rides beside the buffers: the core's generator register at some state and its empty debt. -/
abbrev R (c : Dev nD) : sProp 𝕄 := iprop((∃ r, prngReg c r) ∗ ∃ W, owes (c : Thread nD τ) (0 : CellTallies nD τ sig Unit) W)
/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debt. -/
abbrev Tₙ (c : Dev nD) : sProp 𝕄 := iprop(StableHlo.held (c : Thread nD τ) (Pipeline.ucRefs τ sig) (W5 m c) ∗ ∃ r, prngReg c r)

/-! ## The two grids as segments -/

set_option backward.isDefEq.respectTransparency.types false in
/-- The first grid: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second grid: entered from every unscoped buffer at `W3`, left at `W4`.  Its invariant carries the scratch pair
    of sums between points; at the first point it is made from the plain one (`hin1`) and after the last point it gives
    the plain one back (`hout1`). -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 1).pre c (fun _ => fullShare) (adm (F := F) 1).1
        ∗ Pipeline.scopedRest spec1 c) : sProp 𝕄) ⊢ Pipeline.ΦA spec1 c := by
      unfold Pipeline.ΦA
      iintro ⟨Hp, -, Hr⟩
      isplitl [Hr]; · iexact Hr
      iexact Hp
    exact h.trans (hin1 (U3 m) c)
  hout c := by
    rw [Pipeline.ownSems0_none]
    have h : Pipeline.ΦA spec1 c ⊢ (iprop((∃ r, prngReg c r) ∗ BI.emp ∗ Pipeline.scopedRest spec1 c) : sProp 𝕄) := by
      unfold Pipeline.ΦA
      iintro ⟨Hr, Hp⟩
      isplitl [Hp]; · iexact Hp
      isplitr; · iempintro
      iexact Hr
    exact (hout1 (U3 m) c).trans h
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U3 m c) (U4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

/-- The five items in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]

set_option backward.isDefEq.respectTransparency.types false in
/-- THE RUN: from any memory with zero counters every weakly fair execution terminates, nothing faulting, and every
    unscoped buffer of every core ends at the last valuation `W5`. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W5 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show (iprop(StableHlo.held (c : Thread nD τ) (Pipeline.ucRefs τ sig) (W5 m c) ∗ R c) : sProp 𝕄)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W5_of_arg m c main_arg0 (by decide) (by decide) (by decide) (by decide) (by decide)),
     (h c _ (mem_uc main_arg1 (by decide))).trans (W5_of_arg m c main_arg1 (by decide) (by decide) (by decide) (by decide) (by decide)),
     (h c _ (mem_uc main_arg2 (by decide))).trans (W5_of_arg m c main_arg2 (by decide) (by decide) (by decide) (by decide) (by decide)),
     (h c _ (mem_uc main_arg3 (by decide))).trans (W5_of_arg m c main_arg3 (by decide) (by decide) (by decide) (by decide) (by decide)),
     (h c _ (mem_uc main_arg4 (by decide))).trans (W5_of_arg m c main_arg4 (by decide) (by decide) (by decide) (by decide) (by decide))⟩)
    (run_all m ρ)

/-- The run with the result named: the result buffer ends at the last valuation's contents, every argument as launched. -/
theorem run_result : θ_run defs (onTc (τ := τ) (main (F := F))) ⟨m, fun _ => 0, ρ⟩ (fun r => ∀ c : Dev nD,
      r.2.mem ((c.tc : Thread nD τ).loc main_v61) = W5 m c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨h c _ (mem_uc main_v61 (by decide)),
     (h c _ (mem_uc main_arg0 (by decide))).trans (W5_of_arg m c main_arg0 (by decide) (by decide) (by decide) (by decide) (by decide)),
     (h c _ (mem_uc main_arg1 (by decide))).trans (W5_of_arg m c main_arg1 (by decide) (by decide) (by decide) (by decide) (by decide)),
     (h c _ (mem_uc main_arg2 (by decide))).trans (W5_of_arg m c main_arg2 (by decide) (by decide) (by decide) (by decide) (by decide)),
     (h c _ (mem_uc main_arg3 (by decide))).trans (W5_of_arg m c main_arg3 (by decide) (by decide) (by decide) (by decide) (by decide)),
     (h c _ (mem_uc main_arg4 (by decide))).trans (W5_of_arg m c main_arg4 (by decide) (by decide) (by decide) (by decide) (by decide))⟩)
    (run_all m ρ)

end Cert.Kernel.Hand

end
-- ==== Proof.KI.Region0.lean ====
/- The similarity kernel's half of the frame: pallas_call `cc0__sim_kernel` of @main, stated at the
   TensorCore's buffer contents `V` on entry to the region.

   At each of the 977 grid points the body reads five blocks — two blocks of gathered rows xa, xb (2048×24),
   their cluster labels ca, cb (2048×1, i32) and a validity column (2048×1) — and fills three 2048×1 columns:
   the similarity  exp(inv_tau · exp(-(8/9)·‖xa - xb‖) - inv_tau)  row by row; that similarity times the 0/1
   indicator that the pair is NOT a same-cluster pair (labels equal and neither -1) times the validity; and the
   validity on the same-cluster pairs, zero elsewhere. Each column is written
   once, over its whole staging buffer. This file names what the body finds (`iblk0`), what it leaves
   (`out0_5`, `out0_6`, `out0_7`), proves the body's triple (`sound_kernel0`) and discharges the pipeline's body
   obligation for the proof data `dat0` (`body_obligation0`). -/
import proofs.«102367_j55516747268533_2_alg».proof.Proof.Gen.KernelIdeal.Launch
import proofs.«102367_j55516747268533_2_alg».proof.Proof.Gen.KernelIdeal.Skeleton
import proofs.«102367_j55516747268533_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`: the 2048 rows of its array that the point works on, read off the
    array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the rows xa): whatever proof data reads its array off `V` and has the body leave the block in
    place finds that block in the current staging buffer at every point, fetched there or kept from the point
    before (the window is uncut and live everywhere). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl)
      (fun t => by rw [hafter]; unfold Dat.blockOf iblk0; rw [hA]; try rfl) t d).trans
    (by unfold Dat.fetched Dat.blockOf iblk0; rw [hA]; try rfl)

/-- Input window 1 (the rows xb): whatever proof data reads its array off `V` and has the body leave the block in
    place finds that block in the current staging buffer at every point, fetched there or kept from the point
    before (the window is uncut and live everywhere). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl)
      (fun t => by rw [hafter]; unfold Dat.blockOf iblk0; rw [hA]; try rfl) t d).trans
    (by unfold Dat.fetched Dat.blockOf iblk0; rw [hA]; try rfl)

/-- Input window 2 (the labels ca): whatever proof data reads its array off `V` and has the body leave the block in
    place finds that block in the current staging buffer at every point, fetched there or kept from the point
    before (the window is uncut and live everywhere). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl)
      (fun t => by rw [hafter]; unfold Dat.blockOf iblk0; rw [hA]; try rfl) t d).trans
    (by unfold Dat.fetched Dat.blockOf iblk0; rw [hA]; try rfl)

/-- Input window 3 (the labels cb): whatever proof data reads its array off `V` and has the body leave the block in
    place finds that block in the current staging buffer at every point, fetched there or kept from the point
    before (the window is uncut and live everywhere). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl)
      (fun t => by rw [hafter]; unfold Dat.blockOf iblk0; rw [hA]; try rfl) t d).trans
    (by unfold Dat.fetched Dat.blockOf iblk0; rw [hA]; try rfl)

/-- Input window 4 (the validity column): whatever proof data reads its array off `V` and has the body leave the block in
    place finds that block in the current staging buffer at every point, fetched there or kept from the point
    before (the window is uncut and live everywhere). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl)
      (fun t => by rw [hafter]; unfold Dat.blockOf iblk0; rw [hA]; try rfl) t d).trans
    (by unfold Dat.fetched Dat.blockOf iblk0; rw [hA]; try rfl)

/-! ## The body's accesses: every load and store is of a whole staging buffer -/

/-- The whole 2048×24 buffer of a block of rows. -/
abbrev rRows : Rect S2048x24 := Rect.unit (s := S2048x24) ![0, 0] S2048x24.size inb_S2048x24_S2048x24_0_0
/-- The whole 2048×1 buffer of a column. -/
abbrev rCol : Rect S2048x1 := Rect.unit (s := S2048x1) ![0, 0] S2048x1.size inb_S2048x1_S2048x1_0_0

/-! ## What the body leaves in each output column -/

/-- Output window 5, the similarity column: row by row `exp (inv_tau · exp (-(8/9) · ‖xa - xb‖) - inv_tau)`, the norm
    the square root of the sum of the 24 squared differences (`k0_pay2`); one store over the whole buffer. -/
def out0_5 (x0 x1 : Vec F S2048x24 .f32) : Vec F S2048x1 .f32 :=
  View.canon [⟨rCol, k0_pay2 (View.ld x0 rRows) (View.ld x1 rRows)⟩]

/-- Output window 6, the negatives' similarity: the similarity times the indicator `k0_pay4` of the two labels (0 where
    they are equal and neither is -1, 1 elsewhere) times the validity (`k0_pay5`), multiplied in that order
    (`k0_pay1`); one store over the whole buffer. -/
def out0_6 (x0 x1 : Vec F S2048x24 .f32) (x2 x3 : Vec F S2048x1 .i32) (x4 : Vec F S2048x1 .f32) : Vec F S2048x1 .f32 :=
  View.canon [⟨rCol, k0_pay1 (k0_pay2 (View.ld x0 rRows) (View.ld x1 rRows)) (k0_pay4 (View.ld x2 rCol) (View.ld x3 rCol)) (k0_pay5 (View.ld x4 rCol))⟩]

/-- Output window 7, the positives' validity: the validity where the two labels are equal and neither is -1, zero
    elsewhere (`k0_pay6`); one store over the whole buffer. -/
def out0_7 (x2 x3 : Vec F S2048x1 .i32) (x4 : Vec F S2048x1 .f32) : Vec F S2048x1 .f32 :=
  View.canon [⟨rCol, k0_pay6 (View.ld x2 rCol) (View.ld x3 rCol) (View.ld x4 rCol)⟩]

/-- A single store through `rCol` covers a column buffer, whatever it stores: the one piece tiles the shape. -/
theorem cover_col (p : Vec F S2048x1 .f32) (y : S2048x1.Idx) :
    ∃ pc ∈ ([⟨rCol, p⟩] : List (View.Piece (Elt F) S2048x1 .f32)), y ∈ pc.1.set :=
  View.cover_of_tiled [⟨rCol, p⟩] S2048x1.size (by rfl) y

/-! ## The body's triple -/

set_option maxHeartbeats 1000000 in
/-- The body at any grid point, on whole staging memrefs: with the five inputs' buffers at read contents `x0 … x4` and the
    three outputs' at anything, it runs to the continuation with the inputs' buffers as they were and the three columns at
    `out0_5`, `out0_6`, `out0_7` of the inputs. (The body loads each output buffer once before its store; the value
    read is not used.) -/
theorem sound_kernel0 (c : Dev nD) (E : Set ℕ) (i : grid0.Coords) (arg1 : Memref sig .tc .vmem S2048x24 .f32) (harg1 : arg1.IsWhole) (arg2 : Memref sig .tc .vmem S2048x24 .f32) (harg2 : arg2.IsWhole) (arg3 : Memref sig .tc .vmem S2048x1 .i32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole)
    (x0 x1 : Vec F S2048x24 .f32) (x2 x3 : Vec F S2048x1 .i32) (x4 : Vec F S2048x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out0_5 x0 x1) ∗ owns (c : Thread nD τ) arg7 fullShare (out0_6 x0 x1 x2 x3 x4)
            ∗ owns (c : Thread nD τ) arg8 fullShare (out0_7 x2 x3 x4)) -∗ K ⟨⟩))
      ⊢ wp frame (wpE (defs₀ (F := F)) Variants.none c none) E (cc0__sim_kernel i arg1 harg1 arg2 harg2 arg3 harg3 arg4 harg4 arg5 harg5 arg6 harg6 arg7 harg7 arg8 harg8) K := by
  simp only [cc0__sim_kernel_eq_skeleton]; unfold cc0__sim_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (cover_col _)
  isplitl [H7]
  · iexists _; isplitr
    swap; · iexact H7
    ipureintro
    try dsimp only
    exact View.read_writes_eq_canon _ _ _ (cover_col _)
  iexists _; isplitr
  swap; · iexact H8
  ipureintro
  try dsimp only
  exact View.read_writes_eq_canon _ _ _ (cover_col _)

/-! ## The pipeline's proof data -/

/-- The proof data of the similarity pipeline on core `c`: each window's array as the region finds it; after the body
    at point `t` the five inputs' buffers still at their blocks and the three columns at `out0_5`, `out0_6`, `out0_7` of
    those blocks; as invariant the untouched rest (the other scoped buffers and the generator register); full shares;
    nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t)
    | ⟨6, _⟩ => out0_6 (iblk0 V c 0 t) (iblk0 V c 1 t) (iblk0 V c 2 t) (iblk0 V c 3 t) (iblk0 V c 4 t)
    | ⟨7, _⟩ => out0_7 (iblk0 V c 2 t) (iblk0 V c 3 t) (iblk0 V c 4 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves in each window's buffer, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) := by dsimp only [dat0]
theorem after0_7 (c : Dev nD) (t : Fin cfg0.N) : (dat0 V c).after 7 t = out0_7 (iblk0 V c 2 t) (iblk0 V c 3 t) (iblk0 V c 4 t) := by dsimp only [dat0]

/-- What the body finds in each input's buffer: that window's block at the point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`: the invariant, the core's debts (none), and every window's current staging
    buffer at what the pipeline left there; -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the five inputs' buffers hold their blocks (`before0_0` … `before0_4`), so the body's triple
    applies; the invariant and the debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation for `dat0`, at every grid point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1Runs.lean ====
/- REGION 1 of @main — the loss kernel `cc1__loss_kernel` on its grid of 977 points — : what its three whole-body
   runs share. The kernel keeps a running pair (sum of the masked losses, count of the positive pairs) in a [1,2]
   scratch buffer across the grid: at the first point the pair is cleared; at every point each of its two entries is
   read, increased by the sum over the point's block (of the masked losses, of the mask) and written back; at the last
   point the pair is copied into the [1,2] output block, which no other point touches.
   Here: the two conditions of the body in closed form over the grid, where the output window is idle, the staging and
   scratch memrefs, the region's invariant with the scratch split off, and each input window's block at a point —
   all at a PARAMETER `V`, the TensorCore's buffer contents when the region is entered. -/
import proofs.«102367_j55516747268533_2_alg».proof.Proof.Gen.KernelIdeal.Launch
import proofs.«102367_j55516747268533_2_alg».proof.Proof.Gen.KernelIdeal.Skeleton
import proofs.«102367_j55516747268533_2_alg».proof.Proof.Gen.KernelIdeal.Points
import Idealize.ShloMosaic.Lib.Pipeline.FrameBody
import Idealize.ShloMosaic.Lib.Ring
import Idealize.ShloMosaic.Lib.Tactic

-- a membership test in a rectangle of a long axis recurses once per coordinate
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered: everything below is stated at this parameter
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the positive similarities) holds its block in its current staging buffer at every point, fetched
    there or not, for ANY proof data whose array is `V`'s and whose body leaves the block in place: the window is an
    input, never idle and uncut, so an unfetched buffer still holds the block of an index that has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same of input window 1 (the negative sums). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same of input window 2 (the mask of positive pairs). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions, in closed form over the grid -/

/-- "This is the first point": the body's first `scf.if`, under which the running pair is cleared — the chain of
    scalar comparisons the kernel computes from the grid coordinate. -/
abbrev cond1_0 (i : grid1.Coords) : Prop := (Scalar.cmpi .ne (Scalar.extui (Scalar.cmpi .eq (BitVec.ofNat 32 (i 0).val) 0#32)) 0#32) = 1#1
/-- It holds at point 0 and nowhere else: decided over the 977 points. -/
theorem hcond1_0 : ∀ t : Fin cfg1.N, cond1_0 (grid1.coords t) ↔ t.val = 0 :=
  (by decide +kernel : ∀ t : Fin grid1.N, cond1_0 (grid1.coords t) ↔ t.val = 0)

/-- "This is the last point": the body's second `scf.if`, under which the running pair is copied to the output. -/
abbrev cond1_1 (i : grid1.Coords) : Prop := k1_cond2 i = 1#1
/-- It holds at point 976 and nowhere else: decided over the 977 points. -/
theorem hcond1_1 : ∀ t : Fin cfg1.N, cond1_1 (grid1.coords t) ↔ t.val = 976 :=
  (by decide +kernel : ∀ t : Fin grid1.N, cond1_1 (grid1.coords t) ↔ t.val = 976)

/-! ## Where the windows are idle -/

/-- The three input windows are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
/-- Before the last point the output window is idle (the body stores nothing into it) -/
theorem idleAt1_3 : ∀ t : Fin cfg1.N, ¬cond1_1 (grid1.coords t) → cfg1.idle 3 (grid1.coords t) = true := by decide +kernel
/-- and the pipeline does not write its block back; -/
theorem noFlush1_3 : ∀ t : Fin cfg1.N, ¬cond1_1 (grid1.coords t) → (cfg1.win 3).flush t = false := by decide +kernel
/-- at the last point it is live: the body stores the pair into it. -/
theorem liveAt1_3 : ∀ t : Fin cfg1.N, cond1_1 (grid1.coords t) → cfg1.idle 3 (grid1.coords t) = false := by decide +kernel

/-! ## The memrefs the body is called with -/

/-- The output window's one staging buffer as a view: what the buffer holds is stated through it. -/
abbrev VO1_3 : View sig .tc .vmem S1x2 .f32 := (Memref.whole cc1_stg3_0 : Memref sig .tc .vmem S1x2 .f32).view
/-- Each window's current staging memref at point `t`, as the pipeline passes it to the body, and its wholeness. -/
abbrev ms1_0 (t : Fin cfg1.N) : Memref sig .tc .vmem S2048x1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x2 .f32 := win1_3.stage (cfg1.slots t 3)
abbrev hs1_3 (t : Fin cfg1.N) : (ms1_3 t).IsWhole := hstage1_3 ((cfg1.slots t 3).cast nbuf1_3)
/-- The scratch operand holding the running pair: a whole scoped buffer of the kernel's own, passed beside the windows, -/
abbrev scM1_0 : Memref sig .tc .vmem S1x2 .f32 := Memref.whole cc1_scratch0
/-- and as a view: what the scratch holds between points is stated through it. -/
abbrev VS1_0 : View sig .tc .vmem S1x2 .f32 := scM1_0.view

/-! ## The region's invariant, the scratch split off -/

/-- The core's scoped buffers that are neither a staging buffer of this region nor its scratch (the other region's
    staging buffers), each at some contents: carried through the region unopened. -/
abbrev Rest1 (c : Dev nD) : sProp 𝕄 :=
  Pipeline.scopedRestBut (Ix := Unit) (Name := ℕ) (U := UR sig nD τ) (Lvl := ℕ) (Val := Elt F) spec1 c [cc1_scratch0]

/-- What the launch hands the region and takes back — every scoped buffer that is no staging buffer at some contents,
    the generator register at some state — with the scratch named: the scratch memref owned at some contents, the
    other scoped buffers unopened, the register. -/
theorem PhiA1_eq (c : Dev nD) :
    (Pipeline.ΦA spec1 c : sProp 𝕄)
      = iprop(iprop((∃ d, owns (c : Thread nD τ) scM1_0 fullShare d) ∗ Rest1 (F := F) c) ∗ (∃ r, prngReg c r)) := by
  unfold Pipeline.ΦA
  rw [Pipeline.scopedRest_split_of_list spec1 c [cc1_scratch0] (by decide) (by decide)]
  simp only [scM1_0, owns_whole, bigSepL_singleton]; try rfl

end Cert.KernelIdeal.Hand

end
-- ==== Proof.KI.Region1RunA.lean ====
/- REGION 1 of @main, the loss kernel's body run whole in one of its three control cases: the first grid point.
   The body's separation-logic triple is found by symbolic execution of the kernel's skeleton of memory operations;
   what each buffer ends with, as a list of written pieces, is the witness of that execution. One module per
   control case. -/
import proofs.«102367_j55516747268533_2_alg».proof.Proof.KI.Region1Runs

-- a membership test in a rectangle of a long axis recurses once per coordinate
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered: everything below is stated at this parameter
variable (V : (c : Dev nD) → (b : Ref sig .tc) → Buf (Elt F) ((c : Thread nD τ).loc b))

-- the run's proof term is large
set_option maxHeartbeats 1000000 in
/-- THE FIRST POINT (the clearing taken, the copy-out not). On whole memrefs — the three inputs at their blocks `x0 x1 x2`,
    the output's buffer at contents `xi3` that the body must hand back untouched (the window is idle here), the scratch
    at anything — the body runs to the continuation holding the inputs and the output's buffer as they were and the
    scratch with the pieces `LS0` written: the cleared pair stored whole, then each of its two entries read back,
    increased by the block's sum and stored. The pieces (last first) are the witness the run finds. -/
noncomputable def kernelRun1_A (c : Dev nD) (i : grid1.Coords) (arg1 : Memref sig .tc .vmem S2048x1 .f32) (harg1 : arg1.IsWhole) (arg2 : Memref sig .tc .vmem S2048x1 .f32) (harg2 : arg2.IsWhole) (arg3 : Memref sig .tc .vmem S2048x1 .f32) (harg3 : arg3.IsWhole) (arg4 : Memref sig .tc .vmem S1x2 .f32) (harg4 : arg4.IsWhole) (arg5 : Memref sig .tc .vmem S1x2 .f32) (harg5 : arg5.IsWhole) (hc0 : cond1_0 i) (hc1 : ¬cond1_1 i)
    (x0 x1 x2 : Vec F S2048x1 .f32) :
    Σ' (L3 : List (View.Piece (Elt F) S1x2 .f32)), { LS0 : List (View.Piece (Elt F) S1x2 .f32) //
      ∀ (xi3 : Vec F S1x2 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc1__loss_kernel i arg1 harg1 arg2 harg2 arg3 harg3 arg4 harg4 arg5 harg5) K } := by
  refine ⟨[], ?_, fun xi3 E K => ?run⟩
  case run =>
    simp only [cc1__loss_kernel_eq_skeleton]; unfold cc1__loss_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

end Cert.KernelIdeal.Hand

end
-- ==== Proof.KI.Region1RunB.lean ====
/- REGION 1 of @main, the loss kernel's body run whole in one of its three control cases: a middle grid point.
   The body's separation-logic triple is found by symbolic execution of the kernel's skeleton of memory operations;
   what each buffer ends with, as a list of written pieces, is the witness of that execution. One module per
   control case. -/
import proofs.«102367_j55516747268533_2_alg».proof.Proof.KI.Region1RunA

-- a membership test in a rectangle of a long axis recurses once per coordinate
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered: everything below is stated at this parameter
variable (V : (c : Dev nD) → (b : Ref sig .tc) → Buf (Elt F) ((c : Thread nD τ).loc b))

-- the run's proof term is large
set_option maxHeartbeats 1000000 in
/-- A MIDDLE POINT (neither the clearing nor the copy-out taken). On whole memrefs — the three inputs at their blocks
    `x0 x1 x2`, the output's buffer at contents `xi3` that the body must hand back untouched (the window is idle here),
    the scratch at the pair `xs0` the point before left — the body runs to the continuation holding the inputs and the
    output's buffer as they were and the scratch with the pieces `LS0` written: each of the pair's two entries read,
    increased by the block's sum and stored. The pieces (last first) are the witness the run finds. -/
noncomputable def kernelRun1_B (c : Dev nD) (i : grid1.Coords) (arg1 : Memref sig .tc .vmem S2048x1 .f32) (harg1 : arg1.IsWhole) (arg2 : Memref sig .tc .vmem S2048x1 .f32) (harg2 : arg2.IsWhole) (arg3 : Memref sig .tc .vmem S2048x1 .f32) (harg3 : arg3.IsWhole) (arg4 : Memref sig .tc .vmem S1x2 .f32) (harg4 : arg4.IsWhole) (arg5 : Memref sig .tc .vmem S1x2 .f32) (harg5 : arg5.IsWhole) (hc0 : ¬cond1_0 i) (hc1 : ¬cond1_1 i)
    (x0 x1 x2 : Vec F S2048x1 .f32) (xs0 : Vec F S1x2 .f32) :
    Σ' (L3 : List (View.Piece (Elt F) S1x2 .f32)), { LS0 : List (View.Piece (Elt F) S1x2 .f32) //
      ∀ (xi3 : Vec F S1x2 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xs0
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc1__loss_kernel i arg1 harg1 arg2 harg2 arg3 harg3 arg4 harg4 arg5 harg5) K } := by
  refine ⟨[], ?_, fun xi3 E K => ?run⟩
  case run =>
    simp only [cc1__loss_kernel_eq_skeleton]; unfold cc1__loss_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

end Cert.KernelIdeal.Hand

end
-- ==== Proof.KI.Region1RunC.lean ====
/- REGION 1 of @main, the loss kernel's body run whole in one of its three control cases: the last grid point.
   The body's separation-logic triple is found by symbolic execution of the kernel's skeleton of memory operations;
   what each buffer ends with, as a list of written pieces, is the witness of that execution. One module per
   control case. -/
import proofs.«102367_j55516747268533_2_alg».proof.Proof.KI.Region1RunB

-- a membership test in a rectangle of a long axis recurses once per coordinate
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered: everything below is stated at this parameter
variable (V : (c : Dev nD) → (b : Ref sig .tc) → Buf (Elt F) ((c : Thread nD τ).loc b))

-- the run's proof term is large
set_option maxHeartbeats 1000000 in
/-- THE LAST POINT (the clearing not taken, the copy-out taken). On whole memrefs — the three inputs at their blocks
    `x0 x1 x2`, the output's buffer at anything, the scratch at the pair `xs0` the point before left — the body runs to
    the continuation holding the inputs as they were, the scratch with the pieces `LS0` written (each of the pair's two
    entries read, increased by the block's sum and stored) and the output's buffer with the pieces `L3` written: the
    whole pair as the scratch then holds it. The pieces (last first) are the witness the run finds. -/
noncomputable def kernelRun1_C (c : Dev nD) (i : grid1.Coords) (arg1 : Memref sig .tc .vmem S2048x1 .f32) (harg1 : arg1.IsWhole) (arg2 : Memref sig .tc .vmem S2048x1 .f32) (harg2 : arg2.IsWhole) (arg3 : Memref sig .tc .vmem S2048x1 .f32) (harg3 : arg3.IsWhole) (arg4 : Memref sig .tc .vmem S1x2 .f32) (harg4 : arg4.IsWhole) (arg5 : Memref sig .tc .vmem S1x2 .f32) (harg5 : arg5.IsWhole) (hc0 : ¬cond1_0 i) (hc1 : cond1_1 i)
    (x0 x1 x2 : Vec F S2048x1 .f32) (xs0 : Vec F S1x2 .f32) :
    Σ' (L3 : List (View.Piece (Elt F) S1x2 .f32)), { LS0 : List (View.Piece (Elt F) S1x2 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xs0
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0)) -∗ K ⟨⟩))
          ⊢ wp frame (wpE (defs₀ (F := F)) Variants.none c none) E (cc1__loss_kernel i arg1 harg1 arg2 harg2 arg3 harg3 arg4 harg4 arg5 harg5) K } := by
  refine ⟨?_, ?_, fun E K => ?run⟩
  case run =>
    simp only [cc1__loss_kernel_eq_skeleton]; unfold cc1__loss_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg1.eq_unread hf0; obtain rfl := harg2.eq_unread hf1; obtain rfl := harg3.eq_unread hf2; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact HS0

end Cert.KernelIdeal.Hand

end
-- ==== Proof.KI.Region1.lean ====
/- REGION 1 of @main — the loss kernel `cc1__loss_kernel` on its grid of 977 points — : its half of the frame, at a
   PARAMETER `V` (the TensorCore's buffer contents when the region is entered).
   The mathematics: the kernel folds the grid into a running pair (sum of the masked losses, count of the positive
   pairs), kept in a [1,2] scratch buffer. Point 0 clears the pair; every point adds its block's two sums to the pair's
   two entries; point 976 copies the pair to the [1,2] output block, which is written back to its array only then.
   So after point `n` the scratch holds a function of the input blocks at points 0 … n (`outsAt1`'s second component),
   and the output's staging buffer matters at the last point only (`outsAt1`'s first component).
   Here: what each control case leaves in the output's buffer and in the scratch (the pieces its run found, read back),
   the accumulation point by point (`outsAt1`) with its case equations, the region's invariant carrying the scratch at
   what the point before left (`PhiS1`), the pipeline's proof data (`dat1`), the body obligation, and the invariant's
   two ends (`hin1`, `hout1`). -/
import proofs.«102367_j55516747268533_2_alg».proof.Proof.KI.Region1RunC

-- a membership test in a rectangle of a long axis recurses once per coordinate
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered: everything below is stated at this parameter
variable (V : (c : Dev nD) → (b : Ref sig .tc) → Buf (Elt F) ((c : Thread nD τ).loc b))

/-! ## What each case leaves in the output's buffer and in the scratch -/

section Cases
omit V

/-- At the first point the body stores nothing into the output's buffer (the window is idle there and not written back):
    no pieces — an empty list nothing consults. -/
def out1_A_3 (c : Dev nD) (i : grid1.Coords) (arg1 : Memref sig .tc .vmem S2048x1 .f32) (harg1 : arg1.IsWhole) (arg2 : Memref sig .tc .vmem S2048x1 .f32) (harg2 : arg2.IsWhole) (arg3 : Memref sig .tc .vmem S2048x1 .f32) (harg3 : arg3.IsWhole) (arg4 : Memref sig .tc .vmem S1x2 .f32) (harg4 : arg4.IsWhole) (arg5 : Memref sig .tc .vmem S1x2 .f32) (harg5 : arg5.IsWhole) (hc0 : cond1_0 i) (hc1 : ¬cond1_1 i)
    (x0 x1 x2 : Vec F S2048x1 .f32) : Vec F S1x2 .f32 :=
  VO1_3.read (Elt F) (VO1_3.writes (Elt F) VO1_3.junk (kernelRun1_A c i arg1 harg1 arg2 harg2 arg3 harg3 arg4 harg4 arg5 harg5 hc0 hc1 x0 x1 x2).1)

/-- At the first point the stores into the scratch cover it: the two [1,1] entries of the pair, stored one after the other, tile
    the [1,2] buffer (the clearing store of the whole pair lies under them). -/
theorem scover1_A_0 (c : Dev nD) (i : grid1.Coords) (arg1 : Memref sig .tc .vmem S2048x1 .f32) (harg1 : arg1.IsWhole) (arg2 : Memref sig .tc .vmem S2048x1 .f32) (harg2 : arg2.IsWhole) (arg3 : Memref sig .tc .vmem S2048x1 .f32) (harg3 : arg3.IsWhole) (arg4 : Memref sig .tc .vmem S1x2 .f32) (harg4 : arg4.IsWhole) (arg5 : Memref sig .tc .vmem S1x2 .f32) (harg5 : arg5.IsWhole) (hc0 : cond1_0 i) (hc1 : ¬cond1_1 i)
    (x0 x1 x2 : Vec F S2048x1 .f32) (y : S1x2.Idx) :
    ∃ pc ∈ (kernelRun1_A c i arg1 harg1 arg2 harg2 arg3 harg3 arg4 harg4 arg5 harg5 hc0 hc1 x0 x1 x2).2.1, y ∈ pc.1.set :=
  View.cover_of_tiledL (kernelRun1_A c i arg1 harg1 arg2 harg2 arg3 harg3 arg4 harg4 arg5 harg5 hc0 hc1 x0 x1 x2).2.1 S1x1.size (by sl_kernel_rfl) y

/-- What the first point leaves in the scratch — the running pair after this point's two additions, from the cleared pair —: the run's pieces read back. -/
def sout1_A_0 (c : Dev nD) (i : grid1.Coords) (arg1 : Memref sig .tc .vmem S2048x1 .f32) (harg1 : arg1.IsWhole) (arg2 : Memref sig .tc .vmem S2048x1 .f32) (harg2 : arg2.IsWhole) (arg3 : Memref sig .tc .vmem S2048x1 .f32) (harg3 : arg3.IsWhole) (arg4 : Memref sig .tc .vmem S1x2 .f32) (harg4 : arg4.IsWhole) (arg5 : Memref sig .tc .vmem S1x2 .f32) (harg5 : arg5.IsWhole) (hc0 : cond1_0 i) (hc1 : ¬cond1_1 i)
    (x0 x1 x2 : Vec F S2048x1 .f32) : Vec F S1x2 .f32 :=
  VS1_0.read (Elt F) (VS1_0.writes (Elt F) VS1_0.junk (kernelRun1_A c i arg1 harg1 arg2 harg2 arg3 harg3 arg4 harg4 arg5 harg5 hc0 hc1 x0 x1 x2).2.1)

/-- At a middle point the body stores nothing into the output's buffer (the window is idle there and not written back):
    no pieces — an empty list nothing consults. -/
def out1_B_3 (c : Dev nD) (i : grid1.Coords) (arg1 : Memref sig .tc .vmem S2048x1 .f32) (harg1 : arg1.IsWhole) (arg2 : Memref sig .tc .vmem S2048x1 .f32) (harg2 : arg2.IsWhole) (arg3 : Memref sig .tc .vmem S2048x1 .f32) (harg3 : arg3.IsWhole) (arg4 : Memref sig .tc .vmem S1x2 .f32) (harg4 : arg4.IsWhole) (arg5 : Memref sig .tc .vmem S1x2 .f32) (harg5 : arg5.IsWhole) (hc0 : ¬cond1_0 i) (hc1 : ¬cond1_1 i)
    (x0 x1 x2 : Vec F S2048x1 .f32) (xs0 : Vec F S1x2 .f32) : Vec F S1x2 .f32 :=
  VO1_3.read (Elt F) (VO1_3.writes (Elt F) VO1_3.junk (kernelRun1_B c i arg1 harg1 arg2 harg2 arg3 harg3 arg4 harg4 arg5 harg5 hc0 hc1 x0 x1 x2 xs0).1)

/-- At a middle point the stores into the scratch cover it: the two [1,1] entries of the pair, stored one after the other, tile
    the [1,2] buffer. -/
theorem scover1_B_0 (c : Dev nD) (i : grid1.Coords) (arg1 : Memref sig .tc .vmem S2048x1 .f32) (harg1 : arg1.IsWhole) (arg2 : Memref sig .tc .vmem S2048x1 .f32) (harg2 : arg2.IsWhole) (arg3 : Memref sig .tc .vmem S2048x1 .f32) (harg3 : arg3.IsWhole) (arg4 : Memref sig .tc .vmem S1x2 .f32) (harg4 : arg4.IsWhole) (arg5 : Memref sig .tc .vmem S1x2 .f32) (harg5 : arg5.IsWhole) (hc0 : ¬cond1_0 i) (hc1 : ¬cond1_1 i)
    (x0 x1 x2 : Vec F S2048x1 .f32) (xs0 : Vec F S1x2 .f32) (y : S1x2.Idx) :
    ∃ pc ∈ (kernelRun1_B c i arg1 harg1 arg2 harg2 arg3 harg3 arg4 harg4 arg5 harg5 hc0 hc1 x0 x1 x2 xs0).2.1, y ∈ pc.1.set :=
  View.cover_of_tiledL (kernelRun1_B c i arg1 harg1 arg2 harg2 arg3 harg3 arg4 harg4 arg5 harg5 hc0 hc1 x0 x1 x2 xs0).2.1 S1x1.size (by sl_kernel_rfl) y

/-- What a middle point leaves in the scratch — the running pair after this point's two additions, from the pair `xs0` the point before left —: the run's pieces read back. -/
def sout1_B_0 (c : Dev nD) (i : grid1.Coords) (arg1 : Memref sig .tc .vmem S2048x1 .f32) (harg1 : arg1.IsWhole) (arg2 : Memref sig .tc .vmem S2048x1 .f32) (harg2 : arg2.IsWhole) (arg3 : Memref sig .tc .vmem S2048x1 .f32) (harg3 : arg3.IsWhole) (arg4 : Memref sig .tc .vmem S1x2 .f32) (harg4 : arg4.IsWhole) (arg5 : Memref sig .tc .vmem S1x2 .f32) (harg5 : arg5.IsWhole) (hc0 : ¬cond1_0 i) (hc1 : ¬cond1_1 i)
    (x0 x1 x2 : Vec F S2048x1 .f32) (xs0 : Vec F S1x2 .f32) : Vec F S1x2 .f32 :=
  VS1_0.read (Elt F) (VS1_0.writes (Elt F) VS1_0.junk (kernelRun1_B c i arg1 harg1 arg2 harg2 arg3 harg3 arg4 harg4 arg5 harg5 hc0 hc1 x0 x1 x2 xs0).2.1)

/-- At the last point the one store into the output's buffer is of the whole [1,2] block, so its piece covers it. -/
theorem cover1_C_3 (c : Dev nD) (i : grid1.Coords) (arg1 : Memref sig .tc .vmem S2048x1 .f32) (harg1 : arg1.IsWhole) (arg2 : Memref sig .tc .vmem S2048x1 .f32) (harg2 : arg2.IsWhole) (arg3 : Memref sig .tc .vmem S2048x1 .f32) (harg3 : arg3.IsWhole) (arg4 : Memref sig .tc .vmem S1x2 .f32) (harg4 : arg4.IsWhole) (arg5 : Memref sig .tc .vmem S1x2 .f32) (harg5 : arg5.IsWhole) (hc0 : ¬cond1_0 i) (hc1 : cond1_1 i)
    (x0 x1 x2 : Vec F S2048x1 .f32) (xs0 : Vec F S1x2 .f32) (y : S1x2.Idx) :
    ∃ pc ∈ (kernelRun1_C c i arg1 harg1 arg2 harg2 arg3 harg3 arg4 harg4 arg5 harg5 hc0 hc1 x0 x1 x2 xs0).1, y ∈ pc.1.set :=
  View.cover_of_tiledL (kernelRun1_C c i arg1 harg1 arg2 harg2 arg3 harg3 arg4 harg4 arg5 harg5 hc0 hc1 x0 x1 x2 xs0).1 S1x2.size (by sl_kernel_rfl) y

/-- What the last point leaves in the output's buffer: the running pair, as the scratch holds it after this point's
    two additions — the run's piece read back. -/
def out1_C_3 (c : Dev nD) (i : grid1.Coords) (arg1 : Memref sig .tc .vmem S2048x1 .f32) (harg1 : arg1.IsWhole) (arg2 : Memref sig .tc .vmem S2048x1 .f32) (harg2 : arg2.IsWhole) (arg3 : Memref sig .tc .vmem S2048x1 .f32) (harg3 : arg3.IsWhole) (arg4 : Memref sig .tc .vmem S1x2 .f32) (harg4 : arg4.IsWhole) (arg5 : Memref sig .tc .vmem S1x2 .f32) (harg5 : arg5.IsWhole) (hc0 : ¬cond1_0 i) (hc1 : cond1_1 i)
    (x0 x1 x2 : Vec F S2048x1 .f32) (xs0 : Vec F S1x2 .f32) : Vec F S1x2 .f32 :=
  VO1_3.read (Elt F) (VO1_3.writes (Elt F) VO1_3.junk (kernelRun1_C c i arg1 harg1 arg2 harg2 arg3 harg3 arg4 harg4 arg5 harg5 hc0 hc1 x0 x1 x2 xs0).1)

/-- At the last point the stores into the scratch cover it: the two [1,1] entries of the pair, stored one after the other, tile
    the [1,2] buffer. -/
theorem scover1_C_0 (c : Dev nD) (i : grid1.Coords) (arg1 : Memref sig .tc .vmem S2048x1 .f32) (harg1 : arg1.IsWhole) (arg2 : Memref sig .tc .vmem S2048x1 .f32) (harg2 : arg2.IsWhole) (arg3 : Memref sig .tc .vmem S2048x1 .f32) (harg3 : arg3.IsWhole) (arg4 : Memref sig .tc .vmem S1x2 .f32) (harg4 : arg4.IsWhole) (arg5 : Memref sig .tc .vmem S1x2 .f32) (harg5 : arg5.IsWhole) (hc0 : ¬cond1_0 i) (hc1 : cond1_1 i)
    (x0 x1 x2 : Vec F S2048x1 .f32) (xs0 : Vec F S1x2 .f32) (y : S1x2.Idx) :
    ∃ pc ∈ (kernelRun1_C c i arg1 harg1 arg2 harg2 arg3 harg3 arg4 harg4 arg5 harg5 hc0 hc1 x0 x1 x2 xs0).2.1, y ∈ pc.1.set :=
  View.cover_of_tiledL (kernelRun1_C c i arg1 harg1 arg2 harg2 arg3 harg3 arg4 harg4 arg5 harg5 hc0 hc1 x0 x1 x2 xs0).2.1 S1x1.size (by sl_kernel_rfl) y

/-- What the last point leaves in the scratch — the running pair after this point's two additions, from the pair `xs0` the point before left —: the run's pieces read back. -/
def sout1_C_0 (c : Dev nD) (i : grid1.Coords) (arg1 : Memref sig .tc .vmem S2048x1 .f32) (harg1 : arg1.IsWhole) (arg2 : Memref sig .tc .vmem S2048x1 .f32) (harg2 : arg2.IsWhole) (arg3 : Memref sig .tc .vmem S2048x1 .f32) (harg3 : arg3.IsWhole) (arg4 : Memref sig .tc .vmem S1x2 .f32) (harg4 : arg4.IsWhole) (arg5 : Memref sig .tc .vmem S1x2 .f32) (harg5 : arg5.IsWhole) (hc0 : ¬cond1_0 i) (hc1 : cond1_1 i)
    (x0 x1 x2 : Vec F S2048x1 .f32) (xs0 : Vec F S1x2 .f32) : Vec F S1x2 .f32 :=
  VS1_0.read (Elt F) (VS1_0.writes (Elt F) VS1_0.junk (kernelRun1_C c i arg1 harg1 arg2 harg2 arg3 harg3 arg4 harg4 arg5 harg5 hc0 hc1 x0 x1 x2 xs0).2.1)

end Cases

/-! ## Which case a point is in -/

section Which
omit V

/-- Point 0 clears the pair and does not copy it out; -/
theorem caseA_0 (t : Fin cfg1.N) (h : t.val = 0) : cond1_0 (grid1.coords t) := (hcond1_0 t).mpr h
theorem caseA_1 (t : Fin cfg1.N) (h : t.val = 0) : ¬cond1_1 (grid1.coords t) := fun hc => by
  have := (hcond1_1 t).mp hc; omega
/-- a later point does not clear it, -/
theorem caseBC_0 (t : Fin cfg1.N) (h : t.val ≠ 0) : ¬cond1_0 (grid1.coords t) := fun hc => h ((hcond1_0 t).mp hc)
/-- and copies it out exactly when it is point 976. -/
theorem caseB_1 (t : Fin cfg1.N) (h : t.val ≠ 976) : ¬cond1_1 (grid1.coords t) := fun hc => h ((hcond1_1 t).mp hc)
theorem caseC_1 (t : Fin cfg1.N) (h : t.val = 976) : cond1_1 (grid1.coords t) := (hcond1_1 t).mpr h

end Which

/-! ## What the output's buffer and the scratch hold after each point -/

/-- THE ACCUMULATION. After the body at position `n`: (the output window's staging buffer, the scratch). Point 0 is the
    clearing case on the point's input blocks; a later point is the middle case, or at 976 the copying case, on its
    input blocks and on the pair the point before left in the scratch. -/
def outsAt1 (c : Dev nD) : (n : ℕ) → n < cfg1.N → Vec F S1x2 .f32 × Vec F S1x2 .f32
  | 0, hn =>
    (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) (caseA_0 ⟨0, hn⟩ rfl) (caseA_1 ⟨0, hn⟩ rfl) (iblk1 V c 0 ⟨0, hn⟩) (iblk1 V c 1 ⟨0, hn⟩) (iblk1 V c 2 ⟨0, hn⟩),
     sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) (caseA_0 ⟨0, hn⟩ rfl) (caseA_1 ⟨0, hn⟩ rfl) (iblk1 V c 0 ⟨0, hn⟩) (iblk1 V c 1 ⟨0, hn⟩) (iblk1 V c 2 ⟨0, hn⟩))
  | n + 1, hn =>
    if h1 : n + 1 = 976 then
      (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (caseBC_0 ⟨n + 1, hn⟩ (Nat.succ_ne_zero n)) (caseC_1 ⟨n + 1, hn⟩ h1) (iblk1 V c 0 ⟨n + 1, hn⟩) (iblk1 V c 1 ⟨n + 1, hn⟩) (iblk1 V c 2 ⟨n + 1, hn⟩) (outsAt1 c n (Nat.lt_of_succ_lt hn)).2,
       sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (caseBC_0 ⟨n + 1, hn⟩ (Nat.succ_ne_zero n)) (caseC_1 ⟨n + 1, hn⟩ h1) (iblk1 V c 0 ⟨n + 1, hn⟩) (iblk1 V c 1 ⟨n + 1, hn⟩) (iblk1 V c 2 ⟨n + 1, hn⟩) (outsAt1 c n (Nat.lt_of_succ_lt hn)).2)
    else
      (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (caseBC_0 ⟨n + 1, hn⟩ (Nat.succ_ne_zero n)) (caseB_1 ⟨n + 1, hn⟩ h1) (iblk1 V c 0 ⟨n + 1, hn⟩) (iblk1 V c 1 ⟨n + 1, hn⟩) (iblk1 V c 2 ⟨n + 1, hn⟩) (outsAt1 c n (Nat.lt_of_succ_lt hn)).2,
       sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (caseBC_0 ⟨n + 1, hn⟩ (Nat.succ_ne_zero n)) (caseB_1 ⟨n + 1, hn⟩ h1) (iblk1 V c 0 ⟨n + 1, hn⟩) (iblk1 V c 1 ⟨n + 1, hn⟩) (iblk1 V c 2 ⟨n + 1, hn⟩) (outsAt1 c n (Nat.lt_of_succ_lt hn)).2)

/-- `outsAt1` at the first point: the clearing case's contents. -/
theorem outsAt1_A (c : Dev nD) (t : Fin cfg1.N) (h0 : t.val = 0) :
    outsAt1 V c t.val t.isLt =
      (out1_A_3 c (grid1.coords t) (ms1_0 t) (hs1_0 t) (ms1_1 t) (hs1_1 t) (ms1_2 t) (hs1_2 t) (ms1_3 t) (hs1_3 t) scM1_0 (Memref.isWhole_whole _) (caseA_0 t h0) (caseA_1 t h0) (iblk1 V c 0 t) (iblk1 V c 1 t) (iblk1 V c 2 t),
       sout1_A_0 c (grid1.coords t) (ms1_0 t) (hs1_0 t) (ms1_1 t) (hs1_1 t) (ms1_2 t) (hs1_2 t) (ms1_3 t) (hs1_3 t) scM1_0 (Memref.isWhole_whole _) (caseA_0 t h0) (caseA_1 t h0) (iblk1 V c 0 t) (iblk1 V c 1 t) (iblk1 V c 2 t)) := by
  obtain ⟨n, hn⟩ := t
  cases n with
  | zero => rfl
  | succ n => exact absurd h0 (Nat.succ_ne_zero n)

/-- `outsAt1` at a middle point: that case's contents, over the pair the point before left. -/
theorem outsAt1_B (c : Dev nD) (t : Fin cfg1.N) (h0 : t.val ≠ 0) (h1 : t.val ≠ 976) :
    outsAt1 V c t.val t.isLt =
      (out1_B_3 c (grid1.coords t) (ms1_0 t) (hs1_0 t) (ms1_1 t) (hs1_1 t) (ms1_2 t) (hs1_2 t) (ms1_3 t) (hs1_3 t) scM1_0 (Memref.isWhole_whole _) (caseBC_0 t h0) (caseB_1 t h1) (iblk1 V c 0 t) (iblk1 V c 1 t) (iblk1 V c 2 t) (outsAt1 V c (t.val - 1) (Nat.lt_of_le_of_lt (Nat.sub_le _ _) t.isLt)).2,
       sout1_B_0 c (grid1.coords t) (ms1_0 t) (hs1_0 t) (ms1_1 t) (hs1_1 t) (ms1_2 t) (hs1_2 t) (ms1_3 t) (hs1_3 t) scM1_0 (Memref.isWhole_whole _) (caseBC_0 t h0) (caseB_1 t h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact absurd rfl h0
  | succ n => exact (dif_neg h1).trans rfl

/-- `outsAt1` at the last point: the copying case's contents, over the pair the point before left. -/
theorem outsAt1_C (c : Dev nD) (t : Fin cfg1.N) (h0 : t.val ≠ 0) (h1 : t.val = 976) :
    outsAt1 V c t.val t.isLt =
      (out1_C_3 c (grid1.coords t) (ms1_0 t) (hs1_0 t) (ms1_1 t) (hs1_1 t) (ms1_2 t) (hs1_2 t) (ms1_3 t) (hs1_3 t) scM1_0 (Memref.isWhole_whole _) (caseBC_0 t h0) (caseC_1 t h1) (iblk1 V c 0 t) (iblk1 V c 1 t) (iblk1 V c 2 t) (outsAt1 V c (t.val - 1) (Nat.lt_of_le_of_lt (Nat.sub_le _ _) t.isLt)).2,
       sout1_C_0 c (grid1.coords t) (ms1_0 t) (hs1_0 t) (ms1_1 t) (hs1_1 t) (ms1_2 t) (hs1_2 t) (ms1_3 t) (hs1_3 t) scM1_0 (Memref.isWhole_whole _) (caseBC_0 t h0) (caseC_1 t h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact absurd rfl h0
  | succ n => exact (dif_pos h1).trans rfl

/-! ## The region's invariant: the scratch carried at what the point before left -/

/-- Before position `n`: before the first point what the launch hands over (every scoped buffer that is no staging buffer
    at some contents, the generator register at some state); afterwards the same with the scratch at the pair the point
    before left in it. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ Rest1 (F := F) c) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the scratch at that point's pair. -/
theorem PhiS1_succ (c : Dev nD) (n : ℕ) (hn : n < cfg1.N) :
    PhiS1 V c (n + 1) hn = iprop(iprop(owns (c : Thread nD τ) scM1_0 fullShare ((outsAt1 V c n hn).2) ∗ Rest1 (F := F) c) ∗ (∃ r, prngReg c r)) := rfl

/-- Before a point that is not the first: the scratch at the pair the point before left. -/
theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ Rest1 (F := F) c) ∗ (∃ r, prngReg c r)) := by
  cases n with
  | zero => exact absurd rfl hz
  | succ n => rfl

/-! ## The pipeline's proof data -/

/-- The proof data of the region's pipeline on core `c`: the arrays as the region finds them (`V`); after the body at
    point `t` each input's buffer at its block and the output's at `outsAt1`'s first component; the invariant `PhiS1`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (the library's precondition, the four windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' buffers hold their blocks; the point is the first, a middle one or the last, and
    that case's run applies: the invariant hands the body the scratch — at anything at the first point, at the pair the
    point before left afterwards — and takes it back at this point's pair (the run's pieces cover the scratch); before
    the last point the output's buffer goes through untouched (the window is idle and not written back), at the last
    point it is taken at anything and returned at the pair; the other scoped buffers, the generator register and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  by_cases h0 : t.val = 0
  · -- the first point: the pair is cleared, then increased
    rw [show (dat1 V c).leavesExact 0 t = owns (c : Thread nD τ) (ms1_0 t) fullShare ((dat1 V c).after 0 t) from by
          unfold Dat.leavesExact; rw [liveAt1_0 t], after1_0]
    rw [show (dat1 V c).leavesExact 1 t = owns (c : Thread nD τ) (ms1_1 t) fullShare ((dat1 V c).after 1 t) from by
          unfold Dat.leavesExact; rw [liveAt1_1 t], after1_1]
    rw [show (dat1 V c).leavesExact 2 t = owns (c : Thread nD τ) (ms1_2 t) fullShare ((dat1 V c).after 2 t) from by
          unfold Dat.leavesExact; rw [liveAt1_2 t], after1_2]
    rw [Dat.leavesExact_idle (dat1 V c) 3 t (idleAt1_3 t (caseA_1 t h0)) (noFlush1_3 t (caseA_1 t h0))]
    rw [outsAt1_A V c t h0]
    unfold sout1_A_0; (try dsimp only)
    rw [PhiS1_castSucc V c t, PhiS1_zero V c _ _ h0, PhiA1_eq]
    iintro ⟨⟨⟨HS0, HR⟩, Hg⟩, Ho, ⟨%d0, H0⟩, ⟨%d1, H1⟩, ⟨%d2, H2⟩, ⟨%d3, H3⟩⟩
    iapply ((kernelRun1_A c (grid1.coords t) _ _ _ _ _ _ _ _ _ _ (caseA_0 t h0) (caseA_1 t h0) (iblk1 V c 0 t) (iblk1 V c 1 t) (iblk1 V c 2 t)).2.2 _ Set.univ _)
    isplitl [H0]; · iexact H0
    isplitl [H1]; · iexact H1
    isplitl [H2]; · iexact H2
    isplitl [H3]; · iexact H3
    isplitl [HS0]; · iexact HS0
    iintro ⟨H0, H1, H2, H3, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover1_A_0 c _ _ _ _ _ _ _ _ _ _ _ _ _ _ _ _)
        iexact HR
      iexact Hg
    isplitl [Ho]; · iexact Ho
    isplitl [H0]; · iexact H0
    isplitl [H1]; · iexact H1
    isplitl [H2]; · iexact H2
    iexists _; iexact H3
  · by_cases h1 : t.val = 976
    · -- the last point: the pair is increased, then copied out
      rw [show (dat1 V c).leavesExact 0 t = owns (c : Thread nD τ) (ms1_0 t) fullShare ((dat1 V c).after 0 t) from by
            unfold Dat.leavesExact; rw [liveAt1_0 t], after1_0]
      rw [show (dat1 V c).leavesExact 1 t = owns (c : Thread nD τ) (ms1_1 t) fullShare ((dat1 V c).after 1 t) from by
            unfold Dat.leavesExact; rw [liveAt1_1 t], after1_1]
      rw [show (dat1 V c).leavesExact 2 t = owns (c : Thread nD τ) (ms1_2 t) fullShare ((dat1 V c).after 2 t) from by
            unfold Dat.leavesExact; rw [liveAt1_2 t], after1_2]
      rw [show (dat1 V c).leavesExact 3 t = owns (c : Thread nD τ) (ms1_3 t) fullShare ((dat1 V c).after 3 t) from by
            unfold Dat.leavesExact; rw [liveAt1_3 t (caseC_1 t h1)], after1_3]
      rw [outsAt1_C V c t h0 h1]
      unfold out1_C_3 sout1_C_0; (try dsimp only)
      rw [PhiS1_castSucc V c t, PhiS1_pos V c _ _ h0]
      iintro ⟨⟨⟨HS0, HR⟩, Hg⟩, Ho, ⟨%d0, H0⟩, ⟨%d1, H1⟩, ⟨%d2, H2⟩, ⟨%d3, H3⟩⟩
      iapply ((kernelRun1_C c (grid1.coords t) _ _ _ _ _ _ _ _ _ _ (caseBC_0 t h0) (caseC_1 t h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_C_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _)
    · -- a middle point: the pair is increased
      rw [show (dat1 V c).leavesExact 0 t = owns (c : Thread nD τ) (ms1_0 t) fullShare ((dat1 V c).after 0 t) from by
            unfold Dat.leavesExact; rw [liveAt1_0 t], after1_0]
      rw [show (dat1 V c).leavesExact 1 t = owns (c : Thread nD τ) (ms1_1 t) fullShare ((dat1 V c).after 1 t) from by
            unfold Dat.leavesExact; rw [liveAt1_1 t], after1_1]
      rw [show (dat1 V c).leavesExact 2 t = owns (c : Thread nD τ) (ms1_2 t) fullShare ((dat1 V c).after 2 t) from by
            unfold Dat.leavesExact; rw [liveAt1_2 t], after1_2]
      rw [Dat.leavesExact_idle (dat1 V c) 3 t (idleAt1_3 t (caseB_1 t h1)) (noFlush1_3 t (caseB_1 t h1))]
      rw [outsAt1_B V c t h0 h1]
      unfold sout1_B_0; (try dsimp only)
      rw [PhiS1_castSucc V c t, PhiS1_pos V c _ _ h0]
      iintro ⟨⟨⟨HS0, HR⟩, Hg⟩, Ho, ⟨%d0, H0⟩, ⟨%d1, H1⟩, ⟨%d2, H2⟩, ⟨%d3, H3⟩⟩
      iapply ((kernelRun1_B c (grid1.coords t) _ _ _ _ _ _ _ _ _ _ (caseBC_0 t h0) (caseB_1 t h1) (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_B_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant's two ends -/

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives back what the launch handed over: the pair's value is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, HR⟩, Hg⟩
  isplitl [HS0 HR]
  · isplitl [HS0]
    · iexists _; iexact HS0
    iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 977 := N_1; omega)

end Cert.KernelIdeal.Hand

end
-- ==== Proof.KI.Run.lean ====
/-
  The whole run of the idealized kernel program: the host stretch that gathers the pairs' rows, labels and padding mask;
  the first grid of 977 blocks (the pairwise similarity exponentials and masks); the host stretch that sums the negatives'
  exponentials per anchor and gathers the sums back; the second grid (the running pair of sums); the final quotient.

  Between two items every unscoped buffer of a core is held whole at a known valuation: the launch memory, then each host
  stretch applied (`StableHlo.after`), then at a grid's exit the grid's arrays at what its write-backs leave
  (`Dat.arrAt … N`) and every other buffer as entered.  The run below states that every weakly fair execution terminates
  with every unscoped buffer at the last of those valuations; the frame claim and the result's value are read off it.
-/
import proofs.«102367_j55516747268533_2_alg».proof.Proof.KI.Region0
import proofs.«102367_j55516747268533_2_alg».proof.Proof.KI.Region1
import proofs.«102367_j55516747268533_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m (c, b)
/-- After the first host stretch: the first grid's entry. -/
abbrev W1 : Dev nD → Valuation τ sig (Elt F) := fun c => StableHlo.after hostOps0 (W0 m c)
abbrev U1 : (c : Dev nD) → (b : Ref sig .tc) → Buf (Elt F) ((c : Thread nD τ).loc b) := fun c b => W1 m c b
/-- At the first grid's exit: its arrays at what the write-backs leave, the rest as entered. -/
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)

/-- After the second host stretch: the second grid's entry. -/
abbrev W3 : Dev nD → Valuation τ sig (Elt F) := fun c => StableHlo.after hostOps1 (W2 m c)
abbrev U3 : (c : Dev nD) → (b : Ref sig .tc) → Buf (Elt F) ((c : Thread nD τ).loc b) := fun c b => W3 m c b
/-- At the second grid's exit. -/
def W4 (c : Dev nD) : Valuation τ sig (Elt F) :=
  Pipeline.withArrays spec1 c (W3 m c) fun w => (dat1 (U3 m) c).arrAt w cfg1.N
theorem W4_arr (c : Dev nD) (w : Fin cfg1.W) :
    W4 m c (Proc.devRef .tc (Pipeline.arrRef spec1 w)) = (dat1 (U3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev U4 : (c : Dev nD) → (b : Ref sig .tc) → Buf (Elt F) ((c : Thread nD τ).loc b) := fun c b => W4 m c b
theorem hF1 (c : Dev nD) (w : Fin cfg1.W) : (dat1 (U3 m) c).arrAt w cfg1.N = U4 m c (Pipeline.arrRef spec1 w) :=
  (W4_arr m c w).symm
theorem hrest1 (c : Dev nD) : ∀ b, b ∉ Finset.univ.image (Pipeline.arrRef spec1) → U4 m c b = U3 m c b :=
  fun b hb => W4_of_ne m c b fun w e => hb (Finset.mem_image.mpr ⟨w, Finset.mem_univ _, e⟩)

/-- After the last host stretch: the end. -/
abbrev W5 : Dev nD → Valuation τ sig (Elt F) := fun c => StableHlo.after hostOps2 (W4 m c)

/-! ## No item writes an argument array -/

/-- An argument array is written by no host stretch and is no array of either grid, so the last valuation holds it as
    launched. -/
theorem W5_of_arg (c : Dev nD) (r : Ref sig .tc) (h0 : r ∉ hostOps0_W) (h1 : r ∉ hostOps1_W) (h2 : r ∉ hostOps2_W)
    (hw0 : ∀ w, Pipeline.arrRef spec0 w ≠ r) (hw1 : ∀ w, Pipeline.arrRef spec1 w ≠ r) :
    W5 m c (Proc.devRef .tc r) = m ((c : Thread nD τ).loc r) :=
  calc W5 m c (Proc.devRef .tc r)
    _ = W4 m c (Proc.devRef .tc r) := StableHlo.after_of_writes_sub hostOps2 _ hostOps2_writes h2
    _ = W3 m c (Proc.devRef .tc r) := W4_of_ne m c r hw1
    _ = W2 m c (Proc.devRef .tc r) := StableHlo.after_of_writes_sub hostOps1 _ hostOps1_writes h1
    _ = W1 m c (Proc.devRef .tc r) := W2_of_ne m c r hw0
    _ = W0 m c (Proc.devRef .tc r) := StableHlo.after_of_writes_sub hostOps0 _ hostOps0_writes h0
    _ = m ((c : Thread nD τ).loc r) := rfl

/-! ## The proof data family and the thread state -/

/-- Neither grid has a prefetched table. -/
abbrev adm : (p : Fin 2) → (pcfgs (F := F) p).Adm := fun p => (cfgs p).toPCfg_adm
/-- Each grid's proof data at its entry contents. -/
def pdats : (p : Fin 2) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U3 m) c
abbrev 𝒱₀ : Variants := Variants.none
/-- No core owes another anything. -/
abbrev L : GSem nD τ sig → Finset Unit := fun _ => ∅
abbrev lv : GSem nD τ sig → Unit → ℕ := fun _ _ => 0
/-- What rides beside the buffers: the core's generator register at some state and its empty debt. -/
abbrev R (c : Dev nD) : sProp 𝕄 := iprop((∃ r, prngReg c r) ∗ ∃ W, owes (c : Thread nD τ) (0 : CellTallies nD τ sig Unit) W)
/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debt. -/
abbrev Tₙ (c : Dev nD) : sProp 𝕄 := iprop(StableHlo.held (c : Thread nD τ) (Pipeline.ucRefs τ sig) (W5 m c) ∗ ∃ r, prngReg c r)

/-! ## The two grids as segments -/

set_option backward.isDefEq.respectTransparency.types false in
/-- The first grid: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second grid: entered from every unscoped buffer at `W3`, left at `W4`.  Its invariant carries the scratch pair
    of sums between points; at the first point it is made from the plain one (`hin1`) and after the last point it gives
    the plain one back (`hout1`). -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 1).pre c (fun _ => fullShare) (adm (F := F) 1).1
        ∗ Pipeline.scopedRest spec1 c) : sProp 𝕄) ⊢ Pipeline.ΦA spec1 c := by
      unfold Pipeline.ΦA
      iintro ⟨Hp, -, Hr⟩
      isplitl [Hr]; · iexact Hr
      iexact Hp
    exact h.trans (hin1 (U3 m) c)
  hout c := by
    rw [Pipeline.ownSems0_none]
    have h : Pipeline.ΦA spec1 c ⊢ (iprop((∃ r, prngReg c r) ∗ BI.emp ∗ Pipeline.scopedRest spec1 c) : sProp 𝕄) := by
      unfold Pipeline.ΦA
      iintro ⟨Hr, Hp⟩
      isplitl [Hp]; · iexact Hp
      isplitr; · iempintro
      iexact Hr
    exact (hout1 (U3 m) c).trans h
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U3 m c) (U4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

/-- The five items in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]

set_option backward.isDefEq.respectTransparency.types false in
/-- THE RUN: from any memory with zero counters every weakly fair execution terminates, nothing faulting, and every
    unscoped buffer of every core ends at the last valuation `W5`. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W5 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show (iprop(StableHlo.held (c : Thread nD τ) (Pipeline.ucRefs τ sig) (W5 m c) ∗ R c) : sProp 𝕄)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W5_of_arg m c main_arg0 (by decide) (by decide) (by decide) (by decide) (by decide)),
     (h c _ (mem_uc main_arg1 (by decide))).trans (W5_of_arg m c main_arg1 (by decide) (by decide) (by decide) (by decide) (by decide)),
     (h c _ (mem_uc main_arg2 (by decide))).trans (W5_of_arg m c main_arg2 (by decide) (by decide) (by decide) (by decide) (by decide)),
     (h c _ (mem_uc main_arg3 (by decide))).trans (W5_of_arg m c main_arg3 (by decide) (by decide) (by decide) (by decide) (by decide)),
     (h c _ (mem_uc main_arg4 (by decide))).trans (W5_of_arg m c main_arg4 (by decide) (by decide) (by decide) (by decide) (by decide))⟩)
    (run_all m ρ)

/-- The run with the result named: the result buffer ends at the last valuation's contents, every argument as launched. -/
theorem run_result : θ_run defs (onTc (τ := τ) (main (F := F))) ⟨m, fun _ => 0, ρ⟩ (fun r => ∀ c : Dev nD,
      r.2.mem ((c.tc : Thread nD τ).loc main_v61) = W5 m c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨h c _ (mem_uc main_v61 (by decide)),
     (h c _ (mem_uc main_arg0 (by decide))).trans (W5_of_arg m c main_arg0 (by decide) (by decide) (by decide) (by decide) (by decide)),
     (h c _ (mem_uc main_arg1 (by decide))).trans (W5_of_arg m c main_arg1 (by decide) (by decide) (by decide) (by decide) (by decide)),
     (h c _ (mem_uc main_arg2 (by decide))).trans (W5_of_arg m c main_arg2 (by decide) (by decide) (by decide) (by decide) (by decide)),
     (h c _ (mem_uc main_arg3 (by decide))).trans (W5_of_arg m c main_arg3 (by decide) (by decide) (by decide) (by decide) (by decide)),
     (h c _ (mem_uc main_arg4 (by decide))).trans (W5_of_arg m c main_arg4 (by decide) (by decide) (by decide) (by decide) (by decide))⟩)
    (run_all m ρ)

end Cert.KernelIdeal.Hand

end
-- ==== Proof.KI.Host2.lean ====
/-
  The last host stretch of the kernel program, read at its one result: the two entries of the [1, 2] array the second
  pallas_call leaves are sliced out, reshaped to scalars and divided; over the extended reals the result is the
  quotient of entry (0, 0) by entry (0, 1).
-/
import proofs.«102367_j55516747268533_2_alg».proof.Proof.Gen.KernelIdeal.Launch
import Idealize.ShloMosaic.Lib.StableHlo.Run
import Idealize.ShloMosaic.Lib.Pipeline.Value
import Idealize.ShloMosaic.Lib.ValueIdx
import Idealize.ShloMosaic.Lib.IdealHost

noncomputable section

namespace Cert.KernelIdeal.HostValue

open Cert.KernelIdeal Cert.KernelIdeal.Gen
open Idealize.ShloMosaic Idealize.ShloMosaic.TcCoe Idealize.ShloMosaic.ValueIdx Idealize.ShloMosaic.StableHlo

/-- Entry `(0, k)` of a [1, 2] array, sliced out as a [1, 1] array and reshaped to a scalar. -/
theorem slice_scalar_apply {α : Type} (o : S1x2.Idx → α) (k : Fin 2) (hs : S1x2.Slices ![0, k.val] S1x1) (hc : S1x1.ShapeCasts S_) :
    shapeCast S_ (extractStridedSlice S1x1 ![0, k.val] o hs) hc ix0 = o (ix2 0 k) := by
  generalize hy : extractStridedSlice S1x1 ![0, k.val] o hs = y
  refine (shapeCast_apply y hc ix0 (ix2 0 0) ?_).trans ?_
  · rw [Shape.rowMajor_val_two]; rfl
  · subst hy
    refine extractStridedSlice_apply ![0, k.val] o hs (ix2 0 0) (ix2 0 k) (fun a => ?_)
    match a with
    | ⟨0, _⟩ => rfl
    | ⟨1, _⟩ => show k.val = k.val + 0; omega

/-- The result of @main: entry (0, 0) of the second pallas_call's output divided by its entry (0, 1). -/
theorem host2_result (W : Valuation τ sig (Elt Ideal)) :
    (StableHlo.after (hostOps2 (F := Ideal)) W (Proc.devRef .tc main_v61) : S_.Idx → EReal) ix0
      = Ideal.div ((W (Proc.devRef .tc main_v56) : S1x2.Idx → EReal) (ix2 0 0))
          ((W (Proc.devRef .tc main_v56) : S1x2.Idx → EReal) (ix2 0 1)) := by
  have e : (StableHlo.after (hostOps2 (F := Ideal)) W (Proc.devRef .tc main_v61) : S_.Idx → EReal)
      = Host.divf (F := Ideal) (φ := .f32)
          (shapeCast (α := EReal) S_ (extractStridedSlice (α := EReal) (s := S1x2) S1x1 ![0, 0] (W (Proc.devRef .tc main_v56)) Facts₀.slices_S1x2_S1x1_0_0) Facts₀.shapeCasts_S1x1_S_)
          (shapeCast (α := EReal) S_ (extractStridedSlice (α := EReal) (s := S1x2) S1x1 ![0, 1] (W (Proc.devRef .tc main_v56)) Facts₀.slices_S1x2_S1x1_0_1) Facts₀.shapeCasts_S1x1_S_) := by
    dsimp only [hostOps2]; after_results; rfl
  rw [e]
  generalize (W (Proc.devRef .tc main_v56) : S1x2.Idx → EReal) = o
  rw [hostDivf_apply]
  exact congrArg₂ Ideal.div (slice_scalar_apply o 0 _ _) (slice_scalar_apply o 1 _ _)

end Cert.KernelIdeal.HostValue

end
-- ==== Proof.LibLaneSum.lean ====
/-
  A float sum along ONE axis of a vector, read over the extended reals at an index given by coordinates: it is the
  finite sum over that axis's coordinate of the source at the index with the coordinate put back. Three forms:
  along the last axis of a matrix `[a, b]` (each row's sum), along the last axis of a rank-3 array `[a, c, b]`
  (each row's sum, slab by slab), and along the first axis of a matrix `[a, b]` (each column's sum). Each is the
  general one-axis law with the re-inserted index written by coordinates.
-/
import Idealize.ShloMosaic.PureOps.Ideal.Laws
import Idealize.ShloMosaic.Lib.ValueIdx

namespace Cert.LaneSum

open Idealize.ShloMosaic Idealize.ShloMosaic.ValueIdx

variable {φ : FTy}

/-- The sum of row `i` of a matrix: over the column coordinate. -/
theorem sum_last2 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ d : Fin b, src (ix2 i d) := by
  refine (Ideal.multiReduction_add_single src acc h hφ hacc (ix1 i)).trans ?_
  refine Finset.sum_congr rfl fun d _ => ?_
  exact congrArg src (funext fun ax => Fin.ext (by match ax with | ⟨0, _⟩ => rfl | ⟨1, _⟩ => rfl))

/-- The sum of row `(i, j)` of a rank-3 array: over the last coordinate. -/
theorem sum_last3 {a c b : ℕ} (src : FVec Ideal ⟨3, ![a, c, b]⟩ φ) (acc : BitVec φ.bits)
    (h : (⟨3, ![a, c, b]⟩ : Shape).Reduces [2] ⟨2, ![a, c]⟩) (hφ : FKind.Formats φ) (hacc : acc = FKind.add.neutral φ hφ)
    (i : Fin a) (j : Fin c) :
    multiReduction .add [2] ⟨2, ![a, c]⟩ src acc h hφ hacc (ix2 i j) = ∑ d : Fin b, src (ix3 i j d) := by
  refine (Ideal.multiReduction_add_single src acc h hφ hacc (ix2 i j)).trans ?_
  refine Finset.sum_congr rfl fun d _ => ?_
  exact congrArg src (funext fun ax => Fin.ext (by match ax with | ⟨0, _⟩ => rfl | ⟨1, _⟩ => rfl | ⟨2, _⟩ => rfl))

/-- The sum of column `j` of a matrix: over the row coordinate. -/
theorem sum_first2 {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (j : Fin b) :
    multiReduction .add [0] ⟨1, ![b]⟩ src acc h hφ hacc (ix1 j) = ∑ i : Fin a, src (ix2 i j) := by
  refine (Ideal.multiReduction_add_single src acc h hφ hacc (ix1 j)).trans ?_
  refine Finset.sum_congr rfl fun i _ => ?_
  exact congrArg src (funext fun ax => Fin.ext (by match ax with | ⟨0, _⟩ => rfl | ⟨1, _⟩ => rfl))

end Cert.LaneSum
-- ==== Proof.LibColumn.lean ====
/-
  Two layout operations read at an index given by coordinates, for a column kept after a sum along the rows'
  entries (`keepdims`): a vector `[a]` cast to the column `[a, 1]`, and a column `[a, 1]` broadcast along a new
  second axis to `[a, b]`. Both are instances of the general law for a layout operation read at an index, with the
  coordinates' arithmetic done.
-/
import Idealize.ShloMosaic.Lib.Pipeline.Value
import Idealize.ShloMosaic.Lib.ValueIdx

namespace Cert.GraphConv.Column

open Idealize.ShloMosaic Idealize.ShloMosaic.ValueIdx

variable {α : Type}

/-- A vector `[a]` cast to the column `[a, 1]` reads, at `(i, u)`, the operand at `i`, whatever the unit
    coordinate `u`: both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.GraphConv.Column
-- ==== Proof.KI.Payload.lean ====
/- The two kernel bodies' arithmetic read at one index, over the extended reals.

   First body (per pair of rows r of a 2048-row block): the squared Euclidean distance of the two 24-entry rows,
   its square root d, then exp(exp(-d · 8/9) · c - c) with c the named inverse temperature; the 0/1 indicator
   of a same-cluster pair (labels equal, neither equal to -1); and the masked products stored in the three
   output columns. Second body: per row the ratio e / (e + dn), minus its logarithm, times the mask, summed over
   the 2048 rows of the block and added to a running value; and the mask's own sum added to a second one. -/
import proofs.«102367_j55516747268533_2_alg».proof.Proof.Gen.KernelIdeal.Skeleton
import proofs.«102367_j55516747268533_2_alg».proof.Proof.LibLaneSum
import proofs.«102367_j55516747268533_2_alg».proof.Proof.LibColumn
import Idealize.ShloMosaic.Lib.ValueIdx
import Idealize.ShloMosaic.Lib.Pipeline.Value
import Idealize.ShloMosaic.PureOps.Ideal.Laws
import Idealize.ShloMosaic.Lib.IdealHost

set_option maxRecDepth 16384

noncomputable section

namespace Cert.KernelIdeal.PayloadValue

open Cert.KernelIdeal Cert.KernelIdeal.Gen
open Idealize.ShloMosaic Idealize.ShloMosaic.ValueIdx

/-- The named inverse temperature, as an extended real. -/
abbrev cT : EReal := ((268435456 / 13421773 : ℝ) : EReal)

/-- The named constant 8/9 at the extended reals, by the table of named constants. -/
theorem c_8_9_eq : Named.named (F := Ideal) κ "c_8_9" (φ := .f32) 0x3F638E39#32 = ((8 / 9 : ℝ) : EReal) :=
  IdealRules.named_const.ideal_named_scalar _ _ _ _ rfl

/-- The named inverse temperature at the extended reals, by the table of named constants. -/
theorem inv_tau_eq : Named.named (F := Ideal) κ "inv_tau" (φ := .f32) 0x41A00000#32 = cT :=
  IdealRules.named_const.ideal_named_scalar _ _ _ _ rfl

/-- The f32 word of zero is the extended real 0. -/
theorem zero_eq : (Scalar.ofBits (F := Ideal) .f32 0x00000000#32) = (0 : EReal) := Ideal.ofBits_zero_f32

/-- The f32 word of one is the extended real 1. -/
theorem one_eq : (Scalar.ofBits (F := Ideal) .f32 0x3F800000#32) = (1 : EReal) := Ideal.ofBits_one_f32

/-- A row's lane sum kept as a column: row r of the column is the sum of the 24 entries of row r. -/
theorem lane_col (src : FVec Ideal S2048x24 .f32) (hφ : FKind.Formats FTy.f32)
    (hacc : (0x00000000#32 : BitVec FTy.f32.bits) = FKind.add.neutral .f32 hφ) (r : Fin 2048) (u : Fin 1) :
    shapeCast S2048x1 (multiReduction .add [1] S2048 src 0x00000000#32 reduces_S2048x24_S2048 hφ hacc)
      shapeCasts_S2048_S2048x1 (ix2 r u) = ∑ d : Fin 24, src (ix2 r d) :=
  (Cert.GraphConv.Column.shapeCast_a_a1_apply _ _ r u).trans (Cert.LaneSum.sum_last2 src _ _ hφ hacc r)

/-- Row r of the first body's similarity column. -/
theorem pay_exp (xa xb : Vec Ideal S2048x24 .f32) (r : Fin 2048) :
    k0_pay2 (F := Ideal) xa xb (ix2 r 0) =
      Ideal.exp (Ideal.exp ((0 - Ideal.sqrt (∑ d : Fin 24, (xa (ix2 r d) - xb (ix2 r d)) * (xa (ix2 r d) - xb (ix2 r d))))
        * ((8 / 9 : ℝ) : EReal)) * cT - cT) := by
  unfold k0_pay2
  refine (congrArg (fun t : EReal => Ideal.exp (Ideal.exp ((Scalar.ofBits (F := Ideal) .f32 0x00000000#32 - Ideal.sqrt t)
        * Named.named (F := Ideal) κ "c_8_9" (φ := .f32) 0x3F638E39#32) * Named.named (F := Ideal) κ "inv_tau" (φ := .f32) 0x41A00000#32
        - Named.named (F := Ideal) κ "inv_tau" (φ := .f32) 0x41A00000#32)) (lane_col _ _ _ r 0)).trans ?_
  rw [zero_eq, c_8_9_eq, inv_tau_eq]
  refine congrArg (fun t => Ideal.exp (Ideal.exp ((0 - Ideal.sqrt t) * ((8 / 9 : ℝ) : EReal)) * cT - cT)) ?_
  refine Finset.sum_congr rfl fun d _ => ?_
  rw [shapeCast_self, shapeCast_self]
  rfl

/-- Row r of the same-cluster indicator: the labels are equal and neither is -1. -/
theorem pay_pos (ca cb : Vec Ideal S2048x1 .i32) (r : Fin 2048) :
    k0_pay3 (F := Ideal) ca cb (ix2 r 0) =
      IntOp.andi (IntOp.cmpi .eq (ca (ix2 r 0)) (cb (ix2 r 0)))
        (IntOp.andi (IntOp.cmpi .ne (ca (ix2 r 0)) 4294967295#32) (IntOp.cmpi .ne (cb (ix2 r 0)) 4294967295#32)) := by
  unfold k0_pay3
  rw [shapeCast_self, shapeCast_self]
  rfl

/-- Row r of the complementary 0/1 column: 0 on a same-cluster pair, 1 elsewhere. -/
theorem pay_negf (ca cb : Vec Ideal S2048x1 .i32) (r : Fin 2048) :
    k0_pay4 (F := Ideal) ca cb (ix2 r 0) = Scalar.select (k0_pay3 (F := Ideal) ca cb (ix2 r 0)) (0 : EReal) 1 := by
  unfold k0_pay4
  show Scalar.select _ (Scalar.ofBits (F := Ideal) .f32 0x00000000#32) (Scalar.ofBits (F := Ideal) .f32 0x3F800000#32) = _
  rw [zero_eq, one_eq]

/-- The validity column is read as it is. -/
theorem pay_valid (v : Vec Ideal S2048x1 .f32) (r : Fin 2048) : k0_pay5 (F := Ideal) v (ix2 r 0) = v (ix2 r 0) := by
  unfold k0_pay5
  rw [shapeCast_self]

/-- Row r of the third column: the validity on a same-cluster pair, 0 elsewhere. -/
theorem pay_posf (ca cb : Vec Ideal S2048x1 .i32) (v : Vec Ideal S2048x1 .f32) (r : Fin 2048) :
    k0_pay6 (F := Ideal) ca cb v (ix2 r 0) = Scalar.select (k0_pay3 (F := Ideal) ca cb (ix2 r 0)) (v (ix2 r 0)) (0 : EReal) := by
  unfold k0_pay6
  show Scalar.select _ (k0_pay5 (F := Ideal) v (ix2 r 0)) (Scalar.ofBits (F := Ideal) .f32 0x00000000#32) = _
  rw [zero_eq, pay_valid]

/-- Row r of the second column: the product of the three columns' entries. -/
theorem pay_negexp (e n v : FVec Ideal S2048x1 .f32) (r : Fin 2048) :
    k0_pay1 (F := Ideal) e n v (ix2 r 0) = e (ix2 r 0) * n (ix2 r 0) * v (ix2 r 0) := rfl

/-- A column's sum kept as a 1×1 array: its entry is the sum over the 2048 rows. -/
theorem row_sum_col (src : FVec Ideal S2048x1 .f32) (hφ : FKind.Formats FTy.f32)
    (hacc : (0x00000000#32 : BitVec FTy.f32.bits) = FKind.add.neutral .f32 hφ) (u v : Fin 1) :
    shapeCast S1x1 (multiReduction .add [0] S1 src 0x00000000#32 reduces_S2048x1_S1 hφ hacc)
      shapeCasts_S1_S1x1 (ix2 u v) = ∑ r : Fin 2048, src (ix2 r u) :=
  (Cert.GraphConv.Column.shapeCast_a_a1_apply _ _ u v).trans (Cert.LaneSum.sum_first2 src _ _ hφ hacc u)

/-- The second body clears its two running values to 0. -/
theorem pay_clear : k1_pay1 (F := Ideal) = fun _ => (0 : EReal) := by
  funext i
  unfold k1_pay1
  refine (congrFun (shapeCast_self _ _) i).trans ?_
  exact zero_eq

/-- The running loss after a block: the value before plus the block's sum of -log(e / (e + dn)) on the masked rows. -/
theorem pay_loss (e dn pf : Vec Ideal S2048x1 .f32) (acc : Vec Ideal S1x1 .f32) :
    k1_pay3 (F := Ideal) e dn pf acc (ix2 0 0) =
      acc (ix2 0 0) + ∑ r : Fin 2048,
        (0 - Ideal.log (Ideal.div (e (ix2 r 0)) (e (ix2 r 0) + dn (ix2 r 0)))) * pf (ix2 r 0) := by
  unfold k1_pay3
  refine (congrFun (shapeCast_self _ _) _).trans ?_
  refine (congrArg (fun t : EReal => acc (ix2 0 0) + t) (row_sum_col _ _ _ 0 0)).trans ?_
  refine congrArg (fun t : EReal => acc (ix2 0 0) + t) (Finset.sum_congr rfl fun r _ => ?_)
  unfold k1_pay2
  rw [shapeCast_self, shapeCast_self, shapeCast_self]
  show (Scalar.ofBits (F := Ideal) .f32 0x00000000#32 - Ideal.log (Ideal.div (e (ix2 r 0)) (e (ix2 r 0) + dn (ix2 r 0))))
    * pf (ix2 r 0) = _
  rw [zero_eq]

/-- The running count after a block: the value before plus the block's sum of the mask. -/
theorem pay_count (pf : Vec Ideal S2048x1 .f32) (acc : Vec Ideal S1x1 .f32) :
    k1_pay4 (F := Ideal) pf acc (ix2 0 0) = acc (ix2 0 0) + ∑ r : Fin 2048, pf (ix2 r 0) := by
  unfold k1_pay4
  refine (congrFun (shapeCast_self _ _) _).trans ?_
  refine (congrArg (fun t : EReal => acc (ix2 0 0) + t) (row_sum_col _ _ _ 0 0)).trans ?_
  refine congrArg (fun t : EReal => acc (ix2 0 0) + t) (Finset.sum_congr rfl fun r _ => ?_)
  unfold k1_pay2
  rw [shapeCast_self]

end Cert.KernelIdeal.PayloadValue

end
-- ==== Proof.KI.Arrays1Pieces.lean ====
/- What each control case of the loss kernel's body leaves in the running pair, over the extended reals.
   The pair lives in a [1,2] scratch buffer: entry (0,0) is the running sum of the masked losses, entry (0,1) the
   running count of the masked rows. A point adds to the first entry the block's sum of -log(e / (e + dn)) · pf over its
   2048 rows and to the second the block's sum of pf; the first point starts from the cleared pair (0, 0); the last
   point copies the pair it has just computed into the output's buffer. -/
import proofs.«102367_j55516747268533_2_alg».proof.Proof.KI.Region1
import proofs.«102367_j55516747268533_2_alg».proof.Proof.KI.Payload
import Idealize.ShloMosaic.Lib.Pipeline.Value
import Idealize.ShloMosaic.Lib.ValueIdx
import Idealize.ShloMosaic.Lib.Tactic

set_option maxRecDepth 16384

noncomputable section

namespace Cert.KernelIdeal.ArrayValue

open Idealize.ShloMosaic Idealize.ShloMosaic.TcCoe Idealize.ShloMosaic.ValueIdx Idealize.SL.Sem Idealize.ShloMosaic.Tactic
open Cert.KernelIdeal Cert.KernelIdeal.Gen Cert.KernelIdeal.Hand Cert.KernelIdeal.PayloadValue

/-- A block's sum of the masked losses: over its 2048 rows, -log(e / (e + dn)) times the mask. -/
def lossSum (e dn pf : Vec Ideal S2048x1 .f32) : EReal :=
  ∑ r : Fin 2048, (0 - Ideal.log (Ideal.div (e (ix2 r 0)) (e (ix2 r 0) + dn (ix2 r 0)))) * pf (ix2 r 0)

/-- A block's sum of the mask. -/
def cntSum (pf : Vec Ideal S2048x1 .f32) : EReal := ∑ r : Fin 2048, pf (ix2 r 0)

/-- Zero offsets of a matrix, spelt as a literal pair. -/
theorem hz2 : (![0, 0] : Fin 2 → Nat) = fun _ => 0 := funext fun a => by fin_cases a <;> rfl

/-- The one index of the [1,1] rectangle at column 1 of the pair is the pair's index (0,1); -/
theorem emb01 (inb) : (Rect.unit (s := S1x2) ![0, 1] S1x1.size inb).emb (ix2 0 0) = ix2 0 1 :=
  funext fun a => Fin.ext (by match a with | ⟨0, _⟩ => rfl | ⟨1, _⟩ => rfl)

/-- that of the rectangle at column 0 is the index (0,0), -/
theorem emb00 (inb) : (Rect.unit (s := S1x2) ![0, 0] S1x1.size inb).emb (ix2 0 0) = ix2 0 0 :=
  funext fun a => Fin.ext (by match a with | ⟨0, _⟩ => rfl | ⟨1, _⟩ => rfl)

/-- which the rectangle at column 1 does not hold. -/
theorem not_mem01 (inb) : ix2 (0 : Fin 1) (0 : Fin 2) ∉ (Rect.unit (s := S1x2) ![0, 1] S1x1.size inb).set := fun h =>
  absurd (Rect.mem_set_unit.mp h 1).1 (by decide)

/-- Two [1,1] stores, at column 0 and then at column 1, over anything: the pair reads the first store's value at
    column 0 and the second's at column 1. -/
theorem canon_pair (inb1 inb0) (w1 w0 : S1x1.Idx → EReal) (L : List (View.Piece (Elt Ideal) S1x2 .f32)) :
    View.canon ((⟨Rect.unit (s := S1x2) ![0, 1] S1x1.size inb1, w1⟩ : View.Piece (Elt Ideal) S1x2 .f32) :: (⟨Rect.unit (s := S1x2) ![0, 0] S1x1.size inb0, w0⟩ : View.Piece (Elt Ideal) S1x2 .f32) :: L)
      = fun j : S1x2.Idx => if (j 1).val = 0 then w0 (ix2 0 0) else w1 (ix2 0 0) := by
  funext j
  obtain ⟨p, q, rfl⟩ : ∃ (p : Fin 1) (q : Fin 2), j = ix2 p q := ⟨j 0, j 1, eq_ix2 j⟩
  obtain rfl : p = 0 := Subsingleton.elim _ _
  match q with
  | ⟨0, _⟩ =>
    refine (View.canon_cons_of_not_mem _ _ (not_mem01 inb1)).trans ?_
    refine (congrArg _ (emb00 inb0).symm).trans ?_
    exact View.canon_cons_emb (Rect.unit (s := S1x2) ![0, 0] S1x1.size inb0) w0 L _
  | ⟨1, _⟩ =>
    refine (congrArg _ (emb01 inb1).symm).trans ?_
    exact View.canon_cons_emb (Val := Elt Ideal) (e := .f32) (Rect.unit (s := S1x2) ![0, 1] S1x1.size inb1) w1 _ _

/-- A whole-block load of an input's buffer holding the block x reads x. -/
theorem in_eq (arg : Memref sig .tc .vmem S2048x1 .f32) (harg : arg.IsWhole) (x : Vec Ideal S2048x1 .f32) (inb) :
    View.readAt (Elt Ideal) arg.view (Rect.unit (s := S2048x1) ![0, 0] S2048x1.size inb).toLoadRect (harg.unread x) = x := by
  rw [View.readAt_eq_ld, harg.read_unread, View.ld_unit_zero (S := S2048x1) hz2]

/-- A load of entry (0,0) of the scratch holding the pair xs reads that entry; -/
theorem sc_eq0 (arg5 : Memref sig .tc .vmem S1x2 .f32) (harg5 : arg5.IsWhole) (xs : Vec Ideal S1x2 .f32) (inb) :
    View.readAt (Elt Ideal) arg5.view (Rect.unit (s := S1x2) ![0, 0] S1x1.size inb).toLoadRect (harg5.unread xs) (ix2 0 0)
      = xs (ix2 0 0) := by
  rw [View.readAt_eq_ld, harg5.read_unread]
  exact congrArg xs (emb00 inb)

/-- a load of entry (0,1) likewise. -/
theorem sc_eq1 (arg5 : Memref sig .tc .vmem S1x2 .f32) (harg5 : arg5.IsWhole) (xs : Vec Ideal S1x2 .f32) (inb) :
    View.readAt (Elt Ideal) arg5.view (Rect.unit (s := S1x2) ![0, 1] S1x1.size inb).toLoadRect (harg5.unread xs) (ix2 0 0)
      = xs (ix2 0 1) := by
  rw [View.readAt_eq_ld, harg5.read_unread]
  exact congrArg xs (emb01 inb)

/-- Any load of the scratch after the clearing store alone reads zeros; -/
theorem clr0 (v : View sig .tc .vmem S1x2 .f32) (inbW) (B : LoadRect S1x2) :
    v.readCov [(⟨Rect.unit (s := S1x2) ![0, 0] S1x2.size inbW, k1_pay1 (F := Ideal)⟩ : View.Piece (Elt Ideal) S1x2 .f32)] B
      = fun _ => (0 : EReal) := by
  rw [View.readCov_eq_canon', View.canon_unit_zero hz2, pay_clear]

/-- so does a load of entry (0,1) after the clearing store and a store to entry (0,0). -/
theorem clr1 (v : View sig .tc .vmem S1x2 .f32) (inbW inb0 inb1) (w : S1x1.Idx → EReal) :
    v.readCov [(⟨Rect.unit (s := S1x2) ![0, 0] S1x1.size inb0, w⟩ : View.Piece (Elt Ideal) S1x2 .f32),
        (⟨Rect.unit (s := S1x2) ![0, 0] S1x2.size inbW, k1_pay1 (F := Ideal)⟩ : View.Piece (Elt Ideal) S1x2 .f32)]
        (Rect.unit (s := S1x2) ![0, 1] S1x1.size inb1).toLoadRect
      = fun _ => (0 : EReal) := by
  have hd : Disjoint (Rect.unit (s := S1x2) ![0, 0] S1x1.size inb0).set (Rect.unit (s := S1x2) ![0, 1] S1x1.size inb1).set :=
    Rect.unit_disjoint 1 (.inl (by decide))
  exact (View.readCov_cons_of_disjoint v _ _ _ hd).trans (clr0 v inbW _)

/-- The first entry's payload: the entry before plus the block's sum of masked losses. -/
theorem pay_loss' (e dn pf : Vec Ideal S2048x1 .f32) (acc : Vec Ideal S1x1 .f32) :
    k1_pay3 (F := Ideal) e dn pf acc (ix2 0 0) = acc (ix2 0 0) + lossSum e dn pf := pay_loss e dn pf acc

/-- The second entry's payload: the entry before plus the block's sum of the mask. -/
theorem pay_count' (pf : Vec Ideal S2048x1 .f32) (acc : Vec Ideal S1x1 .f32) :
    k1_pay4 (F := Ideal) pf acc (ix2 0 0) = acc (ix2 0 0) + cntSum pf := pay_count pf acc

/-- The first point: from the cleared pair, the block's two sums. -/
theorem scratchA (c : Dev nD) (i : grid1.Coords) (arg1 : Memref sig .tc .vmem S2048x1 .f32) (harg1 : arg1.IsWhole) (arg2 : Memref sig .tc .vmem S2048x1 .f32) (harg2 : arg2.IsWhole) (arg3 : Memref sig .tc .vmem S2048x1 .f32) (harg3 : arg3.IsWhole) (arg4 : Memref sig .tc .vmem S1x2 .f32) (harg4 : arg4.IsWhole) (arg5 : Memref sig .tc .vmem S1x2 .f32) (harg5 : arg5.IsWhole) (hc0 : cond1_0 i) (hc1 : ¬cond1_1 i)
    (x0 x1 x2 : Vec Ideal S2048x1 .f32) :
    sout1_A_0 (F := Ideal) c i arg1 harg1 arg2 harg2 arg3 harg3 arg4 harg4 arg5 harg5 hc0 hc1 x0 x1 x2 =
      fun j => if (j 1).val = 0 then 0 + lossSum x0 x1 x2 else 0 + cntSum x2 := by
  unfold sout1_A_0
  rw [View.read_writes_eq_canon _ _ _ (scover1_A_0 c i arg1 harg1 arg2 harg2 arg3 harg3 arg4 harg4 arg5 harg5 hc0 hc1 x0 x1 x2)]
  unfold kernelRun1_A
  dsimp only
  try sl_unfold_words
  refine (canon_pair _ _ _ _ _).trans ?_
  funext j
  by_cases hj : (j 1).val = 0
  · rw [if_pos hj, if_pos hj]
    refine (pay_loss' _ _ _ _).trans ?_
    rw [in_eq arg1 harg1 x0, in_eq arg2 harg2 x1, in_eq arg3 harg3 x2]
    exact congrArg (fun t : EReal => t + lossSum x0 x1 x2) (congrFun (clr0 arg5.view _ _) _)
  · rw [if_neg hj, if_neg hj]
    refine (pay_count' _ _).trans ?_
    rw [in_eq arg3 harg3 x2]
    exact congrArg (fun t : EReal => t + cntSum x2) (congrFun (clr1 arg5.view _ _ _ _) _)

/-- A middle point: each entry of the pair the point before left, increased by the block's sum. -/
theorem scratchB (c : Dev nD) (i : grid1.Coords) (arg1 : Memref sig .tc .vmem S2048x1 .f32) (harg1 : arg1.IsWhole) (arg2 : Memref sig .tc .vmem S2048x1 .f32) (harg2 : arg2.IsWhole) (arg3 : Memref sig .tc .vmem S2048x1 .f32) (harg3 : arg3.IsWhole) (arg4 : Memref sig .tc .vmem S1x2 .f32) (harg4 : arg4.IsWhole) (arg5 : Memref sig .tc .vmem S1x2 .f32) (harg5 : arg5.IsWhole) (hc0 : ¬cond1_0 i) (hc1 : ¬cond1_1 i)
    (x0 x1 x2 : Vec Ideal S2048x1 .f32) (xs0 : Vec Ideal S1x2 .f32) :
    sout1_B_0 (F := Ideal) c i arg1 harg1 arg2 harg2 arg3 harg3 arg4 harg4 arg5 harg5 hc0 hc1 x0 x1 x2 xs0 =
      fun j => if (j 1).val = 0 then xs0 (ix2 0 0) + lossSum x0 x1 x2 else xs0 (ix2 0 1) + cntSum x2 := by
  unfold sout1_B_0
  rw [View.read_writes_eq_canon _ _ _ (scover1_B_0 c i arg1 harg1 arg2 harg2 arg3 harg3 arg4 harg4 arg5 harg5 hc0 hc1 x0 x1 x2 xs0)]
  unfold kernelRun1_B
  dsimp only
  try sl_unfold_words
  refine (canon_pair _ _ _ _ _).trans ?_
  funext j
  by_cases hj : (j 1).val = 0
  · rw [if_pos hj, if_pos hj]
    refine (pay_loss' _ _ _ _).trans ?_
    rw [in_eq arg1 harg1 x0, in_eq arg2 harg2 x1, in_eq arg3 harg3 x2]
    exact congrArg (fun t : EReal => t + lossSum x0 x1 x2) (sc_eq0 arg5 harg5 xs0 _)
  · rw [if_neg hj, if_neg hj]
    refine (pay_count' _ _).trans ?_
    rw [in_eq arg3 harg3 x2]
    exact congrArg (fun t : EReal => t + cntSum x2) (sc_eq1 arg5 harg5 xs0 _)

/-- The last point leaves the same in the scratch as a middle point would. -/
theorem scratchC (c : Dev nD) (i : grid1.Coords) (arg1 : Memref sig .tc .vmem S2048x1 .f32) (harg1 : arg1.IsWhole) (arg2 : Memref sig .tc .vmem S2048x1 .f32) (harg2 : arg2.IsWhole) (arg3 : Memref sig .tc .vmem S2048x1 .f32) (harg3 : arg3.IsWhole) (arg4 : Memref sig .tc .vmem S1x2 .f32) (harg4 : arg4.IsWhole) (arg5 : Memref sig .tc .vmem S1x2 .f32) (harg5 : arg5.IsWhole) (hc0 : ¬cond1_0 i) (hc1 : cond1_1 i)
    (x0 x1 x2 : Vec Ideal S2048x1 .f32) (xs0 : Vec Ideal S1x2 .f32) :
    sout1_C_0 (F := Ideal) c i arg1 harg1 arg2 harg2 arg3 harg3 arg4 harg4 arg5 harg5 hc0 hc1 x0 x1 x2 xs0 =
      fun j => if (j 1).val = 0 then xs0 (ix2 0 0) + lossSum x0 x1 x2 else xs0 (ix2 0 1) + cntSum x2 := by
  unfold sout1_C_0
  rw [View.read_writes_eq_canon _ _ _ (scover1_C_0 c i arg1 harg1 arg2 harg2 arg3 harg3 arg4 harg4 arg5 harg5 hc0 hc1 x0 x1 x2 xs0)]
  unfold kernelRun1_C
  dsimp only
  try sl_unfold_words
  refine (canon_pair _ _ _ _ _).trans ?_
  funext j
  by_cases hj : (j 1).val = 0
  · rw [if_pos hj, if_pos hj]
    refine (pay_loss' _ _ _ _).trans ?_
    rw [in_eq arg1 harg1 x0, in_eq arg2 harg2 x1, in_eq arg3 harg3 x2]
    exact congrArg (fun t : EReal => t + lossSum x0 x1 x2) (sc_eq0 arg5 harg5 xs0 _)
  · rw [if_neg hj, if_neg hj]
    refine (pay_count' _ _).trans ?_
    rw [in_eq arg3 harg3 x2]
    exact congrArg (fun t : EReal => t + cntSum x2) (sc_eq1 arg5 harg5 xs0 _)

/-- The last point copies the pair it has just computed into the output's buffer. -/
theorem outC (c : Dev nD) (i : grid1.Coords) (arg1 : Memref sig .tc .vmem S2048x1 .f32) (harg1 : arg1.IsWhole) (arg2 : Memref sig .tc .vmem S2048x1 .f32) (harg2 : arg2.IsWhole) (arg3 : Memref sig .tc .vmem S2048x1 .f32) (harg3 : arg3.IsWhole) (arg4 : Memref sig .tc .vmem S1x2 .f32) (harg4 : arg4.IsWhole) (arg5 : Memref sig .tc .vmem S1x2 .f32) (harg5 : arg5.IsWhole) (hc0 : ¬cond1_0 i) (hc1 : cond1_1 i)
    (x0 x1 x2 : Vec Ideal S2048x1 .f32) (xs0 : Vec Ideal S1x2 .f32) :
    out1_C_3 (F := Ideal) c i arg1 harg1 arg2 harg2 arg3 harg3 arg4 harg4 arg5 harg5 hc0 hc1 x0 x1 x2 xs0 =
      sout1_C_0 (F := Ideal) c i arg1 harg1 arg2 harg2 arg3 harg3 arg4 harg4 arg5 harg5 hc0 hc1 x0 x1 x2 xs0 := by
  refine Eq.trans ?_ (scratchC c i arg1 harg1 arg2 harg2 arg3 harg3 arg4 harg4 arg5 harg5 hc0 hc1 x0 x1 x2 xs0).symm
  unfold out1_C_3
  rw [View.read_writes_eq_canon _ _ _ (cover1_C_3 c i arg1 harg1 arg2 harg2 arg3 harg3 arg4 harg4 arg5 harg5 hc0 hc1 x0 x1 x2 xs0)]
  unfold kernelRun1_C
  dsimp only
  try sl_unfold_words
  refine (View.canon_unit_zero (S := S1x2) hz2 _ _).trans ?_
  refine (View.readCov_eq_canon' _ _ _).trans ?_
  refine (View.ld_unit_zero (S := S1x2) hz2 _ (View.canon _)).trans ?_
  refine (canon_pair _ _ _ _ _).trans ?_
  funext j
  by_cases hj : (j 1).val = 0
  · rw [if_pos hj, if_pos hj]
    refine (pay_loss' _ _ _ _).trans ?_
    rw [in_eq arg1 harg1 x0, in_eq arg2 harg2 x1, in_eq arg3 harg3 x2]
    exact congrArg (fun t : EReal => t + lossSum x0 x1 x2) (sc_eq0 arg5 harg5 xs0 _)
  · rw [if_neg hj, if_neg hj]
    refine (pay_count' _ _).trans ?_
    rw [in_eq arg3 harg3 x2]
    exact congrArg (fun t : EReal => t + cntSum x2) (sc_eq1 arg5 harg5 xs0 _)

end Cert.KernelIdeal.ArrayValue

end
-- ==== Proof.LibBlockSums.lean ====
/-
  Two laws of finite sums in an additive commutative monoid (no finiteness of the values is needed, so they
  hold in the extended reals as they stand): a sum over n·b indices is the sum over the n blocks of the sums
  within each block, and an accumulator that adds one term per step holds the partial sum.
-/
import Idealize.ShloMosaic.PureOps.Ideal
import Mathlib.Algebra.BigOperators.Fin
import Mathlib.Logic.Equiv.Fin.Basic

open scoped BigOperators

namespace Cert.BlockSums

/-- The `j`-th index of block `t`, among `n` blocks of `b` indices each, is below `n * b`. -/
theorem blk_lt {n b : ℕ} (t : Fin n) (j : Fin b) : t.val * b + j.val < n * b :=
  calc t.val * b + j.val < t.val * b + b := Nat.add_lt_add_left j.isLt _
    _ = (t.val + 1) * b := (Nat.succ_mul _ _).symm
    _ ≤ n * b := Nat.mul_le_mul_right b t.isLt

/-- a sum over n·b indices is the sum over n blocks of the sums over each block's b indices -/
theorem sum_blocks {M : Type*} [AddCommMonoid M] (n b : ℕ) (f : Fin (n * b) → M) :
    ∑ i : Fin (n * b), f i = ∑ t : Fin n, ∑ j : Fin b, f ⟨t.val * b + j.val, blk_lt t j⟩ := by
  rw [← Equiv.sum_comp (finProdFinEquiv (m := n) (n := b)) f, Fintype.sum_prod_type]
  refine Finset.sum_congr rfl fun t _ => Finset.sum_congr rfl fun j _ => ?_
  refine congrArg f (Fin.ext ?_)
  show j.val + b * t.val = t.val * b + j.val
  rw [Nat.mul_comm, Nat.add_comm]

/-- 4096 indices are 8 blocks of 512. -/
theorem sum_blocks_4096 {M : Type*} [AddCommMonoid M] (f : Fin 4096 → M) :
    ∑ i : Fin 4096, f i = ∑ t : Fin 8, ∑ j : Fin 512, f ⟨t.val * 512 + j.val, by
      have := t.isLt; have := j.isLt; omega⟩ :=
  sum_blocks 8 512 f

/-- 16384 indices are 16 blocks of 1024. -/
theorem sum_blocks_16384 {M : Type*} [AddCommMonoid M] (f : Fin 16384 → M) :
    ∑ k : Fin 16384, f k = ∑ t : Fin 16, ∑ j : Fin 1024, f ⟨t.val * 1024 + j.val, by
      have := t.isLt; have := j.isLt; omega⟩ :=
  sum_blocks 16 1024 f

/-- an accumulator that starts at zero-plus-first-block and adds one block per step holds the sum of the blocks so far -/
theorem acc_eq_sum {M : Type*} [AddCommMonoid M] (p : ℕ → M) (acc : ℕ → M) (h0 : acc 0 = 0 + p 0)
    (hs : ∀ n, acc (n + 1) = acc n + p (n + 1)) (n : ℕ) :
    acc n = ∑ k ∈ Finset.range (n + 1), p k := by
  induction n with
  | zero => rw [h0, zero_add, Finset.sum_range_one]
  | succ n ih => rw [Finset.sum_range_succ _ (n + 1), hs, ih]

/-- after the last step the accumulator holds the sum of all the blocks -/
theorem acc_last {M : Type*} [AddCommMonoid M] (N : ℕ) (p : ℕ → M) (acc : ℕ → M) (h0 : acc 0 = 0 + p 0)
    (hs : ∀ n, acc (n + 1) = acc n + p (n + 1)) :
    acc N = ∑ t : Fin (N + 1), p t.val := by
  rw [acc_eq_sum p acc h0 hs N, Finset.sum_range]

end Cert.BlockSums
-- ==== Proof.KI.Arrays1.lean ====
/-
  The second grid's output array after the run.

  The loss kernel folds its grid of 977 points into a running pair kept in a [1,2] scratch buffer: entry (0,0) the sum
  of the masked losses, entry (0,1) the count of the masked rows.  Point t reads rows 2048·t … 2048·t + 2047 of its three
  input arrays (the exponentials e, the clipped per-anchor sums dn, the mask pf), adds the block's sum of
  -log (e / (e + dn)) · pf to the first entry and the block's sum of pf to the second; the first point starts from
  the cleared pair and the last point copies the pair to the [1,2] output array, which no other point writes.
  977 blocks of 2048 rows are the 2000896 rows of the arrays, so the output array ends at
  (Σ_q -log (e q / (e q + dn q)) · pf q,  Σ_q pf q) over all rows q.
-/
import proofs.«102367_j55516747268533_2_alg».proof.Proof.KI.Arrays1Pieces
import proofs.«102367_j55516747268533_2_alg».proof.Proof.LibBlockSums
import Idealize.ShloMosaic.Lib.Pipeline.Value
import Idealize.ShloMosaic.Lib.ValueIdx

set_option maxRecDepth 16384

noncomputable section

namespace Cert.KernelIdeal.ArrayValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

-- the TensorCore's buffer contents when the grid is entered
variable (V : (c : Dev nD) → (b : Ref sig .tc) → Buf (Elt Ideal) ((c : Thread nD τ).loc b))

/-! ## The three arrays the grid reads, row by row -/

/-- Row `q` of the exponentials' array, of the clipped per-anchor sums' array and of the mask's array. -/
def rowE (c : Dev nD) (q : Fin 2000896) : EReal := (V c main_v41_0 : S2000896x1.Idx → EReal) (ix2 q 0)
def rowDn (c : Dev nD) (q : Fin 2000896) : EReal := (V c main_v55 : S2000896x1.Idx → EReal) (ix2 q 0)
def rowPf (c : Dev nD) (q : Fin 2000896) : EReal := (V c main_v41_2 : S2000896x1.Idx → EReal) (ix2 q 0)

/-- Row `q`'s masked loss: `-log (e / (e + dn)) · pf`. -/
def rowLoss (c : Dev nD) (q : Fin 2000896) : EReal :=
  (0 - Ideal.log (Ideal.div (rowE V c q) (rowE V c q + rowDn V c q))) * rowPf V c q

/-! ## The blocks a point reads -/

/-- Each input window of the second grid moves one block of 2048 rows per point and never along the column; the output
    window's block index is (0, 0) at every point. -/
theorem idx_facts1 : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0) :=
  (by decide +kernel : ∀ t : Fin grid1.N, _)

/-- Row `r` of block `t` is row `2048 t + r` of the arrays. -/
theorem row_lt1 (t : Fin cfg1.N) (r : Fin 2048) : t.val * 2048 + r.val < 2000896 := by
  have hN : cfg1.N = 977 := N_1
  have := t.isLt
  have := r.isLt
  omega

/-- Window 0's block at point `t`, row by row: rows `2048 t …` of the exponentials' array. -/
theorem iblk1_0_apply (c : Dev nD) (t : Fin cfg1.N) (r : Fin 2048) :
    (iblk1 V c 0 t : Vec Ideal S2048x1 .f32) (ix2 r 0) = rowE V c ⟨t.val * 2048 + r.val, row_lt1 t r⟩ := by
  obtain ⟨⟨e0, e1⟩, -, -, -⟩ := idx_facts1 t
  unfold iblk1
  rw [View.read_apply]
  show (V c main_v41_0 : S2000896x1.Idx → EReal) _ = (V c main_v41_0 : S2000896x1.Idx → EReal) _
  refine congrArg (V c main_v41_0 : S2000896x1.Idx → EReal) (funext fun a => Fin.ext ?_)
  match a with
  | ⟨0, _⟩ => show win1_0.index t (0 : Fin 2) * 2048 + 1 * r.val = t.val * 2048 + r.val; rw [e0]; omega
  | ⟨1, _⟩ => show win1_0.index t (1 : Fin 2) * 1 + 1 * 0 = 0; rw [e1]

/-- Window 1's block at point `t`, row by row: rows `2048 t …` of the per-anchor sums' array. -/
theorem iblk1_1_apply (c : Dev nD) (t : Fin cfg1.N) (r : Fin 2048) :
    (iblk1 V c 1 t : Vec Ideal S2048x1 .f32) (ix2 r 0) = rowDn V c ⟨t.val * 2048 + r.val, row_lt1 t r⟩ := by
  obtain ⟨-, ⟨e0, e1⟩, -, -⟩ := idx_facts1 t
  unfold iblk1
  rw [View.read_apply]
  show (V c main_v55 : S2000896x1.Idx → EReal) _ = (V c main_v55 : S2000896x1.Idx → EReal) _
  refine congrArg (V c main_v55 : S2000896x1.Idx → EReal) (funext fun a => Fin.ext ?_)
  match a with
  | ⟨0, _⟩ => show win1_1.index t (0 : Fin 2) * 2048 + 1 * r.val = t.val * 2048 + r.val; rw [e0]; omega
  | ⟨1, _⟩ => show win1_1.index t (1 : Fin 2) * 1 + 1 * 0 = 0; rw [e1]

/-- Window 2's block at point `t`, row by row: rows `2048 t …` of the mask's array. -/
theorem iblk1_2_apply (c : Dev nD) (t : Fin cfg1.N) (r : Fin 2048) :
    (iblk1 V c 2 t : Vec Ideal S2048x1 .f32) (ix2 r 0) = rowPf V c ⟨t.val * 2048 + r.val, row_lt1 t r⟩ := by
  obtain ⟨-, -, ⟨e0, e1⟩, -⟩ := idx_facts1 t
  unfold iblk1
  rw [View.read_apply]
  show (V c main_v41_2 : S2000896x1.Idx → EReal) _ = (V c main_v41_2 : S2000896x1.Idx → EReal) _
  refine congrArg (V c main_v41_2 : S2000896x1.Idx → EReal) (funext fun a => Fin.ext ?_)
  match a with
  | ⟨0, _⟩ => show win1_2.index t (0 : Fin 2) * 2048 + 1 * r.val = t.val * 2048 + r.val; rw [e0]; omega
  | ⟨1, _⟩ => show win1_2.index t (1 : Fin 2) * 1 + 1 * 0 = 0; rw [e1]

/-! ## A block's two sums -/

/-- The masked losses of point `t`'s block sum to those of rows `2048 t … 2048 t + 2047`. -/
theorem lossSum_blk (c : Dev nD) (t : Fin cfg1.N) :
    lossSum (iblk1 V c 0 t) (iblk1 V c 1 t) (iblk1 V c 2 t)
      = ∑ r : Fin 2048, rowLoss V c ⟨t.val * 2048 + r.val, row_lt1 t r⟩ := by
  unfold lossSum rowLoss
  refine Finset.sum_congr rfl fun r _ => ?_
  rw [iblk1_0_apply, iblk1_1_apply, iblk1_2_apply]

/-- The mask of point `t`'s block sums to that of rows `2048 t … 2048 t + 2047`. -/
theorem cntSum_blk (c : Dev nD) (t : Fin cfg1.N) :
    cntSum (iblk1 V c 2 t) = ∑ r : Fin 2048, rowPf V c ⟨t.val * 2048 + r.val, row_lt1 t r⟩ := by
  unfold cntSum
  refine Finset.sum_congr rfl fun r _ => ?_
  rw [iblk1_2_apply]

/-! ## The running pair after each point -/

/-- The two block sums as functions of the point's position (`0` past the grid). -/
def blkLoss (c : Dev nD) (k : ℕ) : EReal :=
  if h : k < cfg1.N then lossSum (iblk1 V c 0 ⟨k, h⟩) (iblk1 V c 1 ⟨k, h⟩) (iblk1 V c 2 ⟨k, h⟩) else 0
def blkCnt (c : Dev nD) (k : ℕ) : EReal :=
  if h : k < cfg1.N then cntSum (iblk1 V c 2 ⟨k, h⟩) else 0

/-- After point `n` the scratch holds the sums of the block sums of points `0 … n`: the first point adds its block's
    sums to the cleared pair, every later point to the pair the point before left. -/
theorem scratch_after (c : Dev nD) : ∀ (n : ℕ) (hn : n < cfg1.N),
    (outsAt1 (F := Ideal) V c n hn).2
      = fun j => if (j 1).val = 0 then ∑ k ∈ Finset.range (n + 1), blkLoss V c k
          else ∑ k ∈ Finset.range (n + 1), blkCnt V c k := by
  intro n
  induction n with
  | zero =>
    intro hn
    rw [outsAt1]
    dsimp only
    rw [scratchA]
    funext j
    simp only [zero_add, Finset.sum_range_one, blkLoss, blkCnt, dif_pos hn]
  | succ n ih =>
    intro hn
    have hn' : n + 1 < cfg1.N := hn
    by_cases h1 : n + 1 = 976
    · rw [outsAt1, dif_pos h1]
      dsimp only
      rw [scratchC, ih]
      funext j
      rw [Finset.sum_range_succ _ (n + 1), Finset.sum_range_succ _ (n + 1)]
      simp only [blkLoss, blkCnt, dif_pos hn']
      rfl
    · rw [outsAt1, dif_neg h1]
      dsimp only
      rw [scratchB, ih]
      funext j
      rw [Finset.sum_range_succ _ (n + 1), Finset.sum_range_succ _ (n + 1)]
      simp only [blkLoss, blkCnt, dif_pos hn']
      rfl

/-! ## 977 blocks of 2048 rows are the 2000896 rows -/

/-- The 977 blocks' sums of the masked losses add up to the sum over all rows. -/
theorem sum_blkLoss (c : Dev nD) :
    ∑ k ∈ Finset.range (976 + 1), blkLoss V c k = ∑ q : Fin 2000896, rowLoss V c q := by
  have hN : cfg1.N = 977 := N_1
  show ∑ k ∈ Finset.range 977, blkLoss V c k = _
  rw [Finset.sum_range]
  refine Eq.trans ?_ (Cert.BlockSums.sum_blocks (M := EReal) 977 2048 (fun q : Fin (977 * 2048) => rowLoss V c q)).symm
  refine Finset.sum_congr rfl fun t _ => ?_
  have ht : t.val < cfg1.N := by rw [hN]; exact t.isLt
  unfold blkLoss
  rw [dif_pos ht]
  exact lossSum_blk V c ⟨t.val, ht⟩

/-- The 977 blocks' sums of the mask add up to the sum over all rows. -/
theorem sum_blkCnt (c : Dev nD) :
    ∑ k ∈ Finset.range (976 + 1), blkCnt V c k = ∑ q : Fin 2000896, rowPf V c q := by
  have hN : cfg1.N = 977 := N_1
  show ∑ k ∈ Finset.range 977, blkCnt V c k = _
  rw [Finset.sum_range]
  refine Eq.trans ?_ (Cert.BlockSums.sum_blocks (M := EReal) 977 2048 (fun q : Fin (977 * 2048) => rowPf V c q)).symm
  refine Finset.sum_congr rfl fun t _ => ?_
  have ht : t.val < cfg1.N := by rw [hN]; exact t.isLt
  unfold blkCnt
  rw [dif_pos ht]
  exact cntSum_blk V c ⟨t.val, ht⟩

/-! ## The output array after the run -/

/-- The pair the run ends at: the masked losses summed over all rows, and the mask summed over all rows. -/
def result3 (c : Dev nD) : S1x2.Idx → EReal :=
  fun i => if (i 1).val = 0 then ∑ q : Fin 2000896, rowLoss V c q else ∑ q : Fin 2000896, rowPf V c q

/-- What the output's staging buffer holds after the last point: the pair just computed, which is the pair of the sums
    over all 977 blocks. -/
theorem after_last (c : Dev nD) (t : Fin cfg1.N) (h0 : t.val ≠ 0) (h1 : t.val = 976) :
    (outsAt1 (F := Ideal) V c t.val t.isLt).1 = result3 V c := by
  have e2 := scratch_after V c t.val t.isLt
  rw [outsAt1_C V c t h0 h1] at e2 ⊢
  dsimp only at e2 ⊢
  rw [outC, e2, h1]
  unfold result3
  funext j
  rw [sum_blkLoss, sum_blkCnt]

/-- The one write-back, at point 976, writes that pair: the output window's block is the whole [1,2] array. -/
theorem flushed3 (c : Dev nD) (t : Fin cfg1.N) (hf : (cfg1.win 3).flush t = true) :
    (dat1 (F := Ideal) V c).flushed 3 t = ((cfg1.win 3).blk t).view.read (Elt Ideal) (result3 V c) := by
  have hN : cfg1.N = 977 := N_1
  have h1 : t.val = 976 := by have := (flush1_3 t).mp hf; have := t.isLt; omega
  have h0 : t.val ≠ 0 := by omega
  show (cfg1.win 3).cut (grid1.coords t) ((dat1 V c).after 3 t) = _
  rw [after1_3, after_last V c t h0 h1]
  obtain ⟨-, -, -, ⟨e0, e1⟩⟩ := idx_facts1 t
  have hz' : (fun a => win1_3.index t a * main_v56.ty.shape.size a) = fun _ => 0 := funext fun a => by
    match a with
    | ⟨0, _⟩ => show win1_3.index t (0 : Fin 2) * 1 = 0; rw [e0]
    | ⟨1, _⟩ => show win1_3.index t (1 : Fin 2) * 2 = 0; rw [e1]
  exact (Memref.read_access_unit_zero (Elt Ideal) main_v56 hz' (fun a => by rw [congrFun hz' a]; simp) (result3 V c)).symm

/-- THE OUTPUT ARRAY AFTER THE RUN: entry (0,0) the masked losses summed over all 2000896 rows, entry (0,1) the mask
    summed over all rows (point 976's block covers the array). -/
theorem final3 (c : Dev nD) : (dat1 (F := Ideal) V c).arrAt 3 cfg1.N = result3 V c :=
  (dat1 V c).arrAt_eq_of_cover 3 (result3 V c) (flushed3 V c) fun i => by
    have hN : cfg1.N = 977 := N_1
    have h976 : 976 < cfg1.N := by rw [hN]; omega
    refine ⟨⟨976, h976⟩, (flush1_3 ⟨976, h976⟩).mpr rfl, ?_⟩
    show i ∈ ((View.whole main_v56).slice (win1_3.rect ⟨976, h976⟩)).set
    rw [View.set_slice_whole, Rect.mem_set_unit]
    obtain ⟨-, -, -, ⟨e0, e1⟩⟩ := idx_facts1 ⟨976, h976⟩
    have hi0 : (i 0).val < 1 := (i 0).isLt
    have hi1 : (i 1).val < 2 := (i 1).isLt
    intro a
    match a with
    | ⟨0, _⟩ => show win1_3.index _ (0 : Fin 2) * 1 ≤ (i 0).val ∧ (i 0).val < win1_3.index _ (0 : Fin 2) * 1 + 1; rw [e0]; omega
    | ⟨1, _⟩ => show win1_3.index _ (1 : Fin 2) * 2 ≤ (i 1).val ∧ (i 1).val < win1_3.index _ (1 : Fin 2) * 2 + 2; rw [e1]; omega

/-- The output array's two entries. -/
theorem final3_loss (c : Dev nD) :
    ((dat1 (F := Ideal) V c).arrAt 3 cfg1.N : S1x2.Idx → EReal) (ix2 0 0) = ∑ q : Fin 2000896, rowLoss V c q := by
  rw [final3]; rfl

theorem final3_count (c : Dev nD) :
    ((dat1 (F := Ideal) V c).arrAt 3 cfg1.N : S1x2.Idx → EReal) (ix2 0 1) = ∑ q : Fin 2000896, rowPf V c q := by
  rw [final3]; rfl

end Cert.KernelIdeal.ArrayValue

end
-- ==== Proof.KI.Arrays0.lean ====
/- The similarity kernel's three output columns after its 977 grid points, as whole-array functions of the
   TensorCore's buffer contents `V` on entry to the region, over the extended reals.

   Row q of the 2000896 rows is handled by grid point q / 2048 as row q % 2048 of that point's blocks, and no
   window moves along the columns; so each output array ends, at row q, holding the body's arithmetic on row q
   of the five input arrays:  the similarity  exp (exp (-(8/9) · ‖xa_q - xb_q‖) · c - c)  (c the inverse
   temperature), that similarity times the 0/1 indicator that (ca_q, cb_q) is not a same-cluster pair times the
   validity, and the validity on the same-cluster pairs (0 elsewhere). -/
import proofs.«102367_j55516747268533_2_alg».proof.Proof.KI.Region0
import proofs.«102367_j55516747268533_2_alg».proof.Proof.KI.Payload
import Idealize.ShloMosaic.Lib.Pipeline.Value
import Idealize.ShloMosaic.Lib.ValueIdx

set_option maxRecDepth 16384

noncomputable section

namespace Cert.KernelIdeal.ArrayValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand Cert.KernelIdeal.PayloadValue

-- the TensorCore's buffer contents when the region is entered
variable (V : (c : Dev nD) → (b : Ref sig .tc) → Buf (Elt Ideal) ((c : Thread nD τ).loc b))

/-! ## Row q of the five input arrays -/

/-- Entry d of row q of the first gathered rows. -/
abbrev xa (c : Dev nD) (q : Fin 2000896) (d : Fin 24) : EReal := (V c main_v16 : S2000896x24.Idx → EReal) (ix2 q d)
/-- Entry d of row q of the second gathered rows. -/
abbrev xb (c : Dev nD) (q : Fin 2000896) (d : Fin 24) : EReal := (V c main_v23 : S2000896x24.Idx → EReal) (ix2 q d)
/-- The first row's cluster label. -/
abbrev ca (c : Dev nD) (q : Fin 2000896) : BitVec 32 := (V c main_v31 : S2000896x1.Idx → BitVec 32) (ix2 q 0)
/-- The second row's cluster label. -/
abbrev cb (c : Dev nD) (q : Fin 2000896) : BitVec 32 := (V c main_v39 : S2000896x1.Idx → BitVec 32) (ix2 q 0)
/-- The pair's validity. -/
abbrev vd (c : Dev nD) (q : Fin 2000896) : EReal := (V c main_v40 : S2000896x1.Idx → EReal) (ix2 q 0)

/-! ## Row q of the three output arrays -/

/-- The similarity of pair q: exp (exp (-(8/9) · d) · c - c), d the Euclidean distance of its two rows. -/
def rowExp (c : Dev nD) (q : Fin 2000896) : EReal :=
  Ideal.exp (Ideal.exp ((0 - Ideal.sqrt (∑ d : Fin 24, (xa V c q d - xb V c q d) * (xa V c q d - xb V c q d)))
    * ((8 / 9 : ℝ) : EReal)) * cT - cT)

/-- Whether pair q is a same-cluster pair: the labels are equal and neither is -1. -/
def rowPosBit (c : Dev nD) (q : Fin 2000896) : BitVec 1 :=
  IntOp.andi (IntOp.cmpi .eq (ca V c q) (cb V c q))
    (IntOp.andi (IntOp.cmpi .ne (ca V c q) 4294967295#32) (IntOp.cmpi .ne (cb V c q) 4294967295#32))

/-- The similarity of pair q kept where it is NOT a same-cluster pair, times its validity. -/
def rowNegExp (c : Dev nD) (q : Fin 2000896) : EReal :=
  rowExp V c q * Scalar.select (rowPosBit V c q) (0 : EReal) 1 * vd V c q

/-- The validity of pair q where it is a same-cluster pair, 0 elsewhere. -/
def rowPosF (c : Dev nD) (q : Fin 2000896) : EReal :=
  Scalar.select (rowPosBit V c q) (vd V c q) (0 : EReal)

/-! ## Where a point's blocks sit in their arrays -/

/-- The zero offsets of a whole-buffer access, as a constant function. -/
theorem hz : (![0, 0] : Fin 2 → Nat) = fun _ => 0 := funext fun a => by fin_cases a <;> rfl

/-- Every window of the grid moves one block of 2048 rows per point and never along the columns (decided over the
    977 points). -/
theorem idx_facts0 : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0) :=
  (by decide +kernel : ∀ t : Fin grid0.N, _)

/-- Row r of point t's block is a row of the array: 977 blocks of 2048 rows fill its 2000896 rows. -/
theorem row_lt (t : Fin cfg0.N) (r : Fin 2048) : t.val * 2048 + r.val < 2000896 := by
  have ht : t.val < 977 := Nat.lt_of_lt_of_eq t.isLt N_0
  have hr := r.isLt
  omega

/-- The array's row that row r of point t's block is. -/
abbrev rowOf (t : Fin cfg0.N) (r : Fin 2048) : Fin 2000896 := ⟨t.val * 2048 + r.val, row_lt t r⟩

/-- Row r of point t's block of window 0 is row t · 2048 + r of its array. -/
theorem blk0_read (c : Dev nD) (t : Fin cfg0.N) (r : Fin 2048) (d : Fin 24) :
    iblk0 V c 0 t (ix2 r d) = xa V c (rowOf t r) d := by
  show (V c main_v16 : S2000896x24.Idx → EReal) (((cfg0.win 0).blk t).view.emb (ix2 r d)) = (V c main_v16 : S2000896x24.Idx → EReal) (ix2 (rowOf t r) d)
  refine congrArg _ (funext fun a => Fin.ext ?_)
  obtain ⟨⟨e0, e1⟩, -, -, -, -, -, -, -⟩ := idx_facts0 t
  match a with
  | ⟨0, _⟩ => show win0_0.index t (0 : Fin 2) * 2048 + 1 * r.val = t.val * 2048 + r.val; rw [e0]; omega
  | ⟨1, _⟩ => show win0_0.index t (1 : Fin 2) * 24 + 1 * d.val = d.val; rw [e1]; omega

/-- Row r of point t's block of window 1 is row t · 2048 + r of its array. -/
theorem blk1_read (c : Dev nD) (t : Fin cfg0.N) (r : Fin 2048) (d : Fin 24) :
    iblk0 V c 1 t (ix2 r d) = xb V c (rowOf t r) d := by
  show (V c main_v23 : S2000896x24.Idx → EReal) (((cfg0.win 1).blk t).view.emb (ix2 r d)) = (V c main_v23 : S2000896x24.Idx → EReal) (ix2 (rowOf t r) d)
  refine congrArg _ (funext fun a => Fin.ext ?_)
  obtain ⟨-, ⟨e0, e1⟩, -, -, -, -, -, -⟩ := idx_facts0 t
  match a with
  | ⟨0, _⟩ => show win0_1.index t (0 : Fin 2) * 2048 + 1 * r.val = t.val * 2048 + r.val; rw [e0]; omega
  | ⟨1, _⟩ => show win0_1.index t (1 : Fin 2) * 24 + 1 * d.val = d.val; rw [e1]; omega

/-- Row r of point t's block of window 2 is row t · 2048 + r of its array. -/
theorem blk2_read (c : Dev nD) (t : Fin cfg0.N) (r : Fin 2048) :
    iblk0 V c 2 t (ix2 r 0) = ca V c (rowOf t r) := by
  show (V c main_v31 : S2000896x1.Idx → _) (((cfg0.win 2).blk t).view.emb (ix2 r (0 : Fin 1))) = (V c main_v31 : S2000896x1.Idx → _) (ix2 (rowOf t r) 0)
  refine congrArg _ (funext fun a => Fin.ext ?_)
  obtain ⟨-, -, ⟨e0, e1⟩, -, -, -, -, -⟩ := idx_facts0 t
  match a with
  | ⟨0, _⟩ => show win0_2.index t (0 : Fin 2) * 2048 + 1 * (r.val) = t.val * 2048 + r.val; rw [e0]; omega
  | ⟨1, _⟩ => show win0_2.index t (1 : Fin 2) * 1 + 1 * 0 = 0; rw [e1]

/-- Row r of point t's block of window 3 is row t · 2048 + r of its array. -/
theorem blk3_read (c : Dev nD) (t : Fin cfg0.N) (r : Fin 2048) :
    iblk0 V c 3 t (ix2 r 0) = cb V c (rowOf t r) := by
  show (V c main_v39 : S2000896x1.Idx → _) (((cfg0.win 3).blk t).view.emb (ix2 r (0 : Fin 1))) = (V c main_v39 : S2000896x1.Idx → _) (ix2 (rowOf t r) 0)
  refine congrArg _ (funext fun a => Fin.ext ?_)
  obtain ⟨-, -, -, ⟨e0, e1⟩, -, -, -, -⟩ := idx_facts0 t
  match a with
  | ⟨0, _⟩ => show win0_3.index t (0 : Fin 2) * 2048 + 1 * (r.val) = t.val * 2048 + r.val; rw [e0]; omega
  | ⟨1, _⟩ => show win0_3.index t (1 : Fin 2) * 1 + 1 * 0 = 0; rw [e1]

/-- Row r of point t's block of window 4 is row t · 2048 + r of its array. -/
theorem blk4_read (c : Dev nD) (t : Fin cfg0.N) (r : Fin 2048) :
    iblk0 V c 4 t (ix2 r 0) = vd V c (rowOf t r) := by
  show (V c main_v40 : S2000896x1.Idx → _) (((cfg0.win 4).blk t).view.emb (ix2 r (0 : Fin 1))) = (V c main_v40 : S2000896x1.Idx → _) (ix2 (rowOf t r) 0)
  refine congrArg _ (funext fun a => Fin.ext ?_)
  obtain ⟨-, -, -, -, ⟨e0, e1⟩, -, -, -⟩ := idx_facts0 t
  match a with
  | ⟨0, _⟩ => show win0_4.index t (0 : Fin 2) * 2048 + 1 * (r.val) = t.val * 2048 + r.val; rw [e0]; omega
  | ⟨1, _⟩ => show win0_4.index t (1 : Fin 2) * 1 + 1 * 0 = 0; rw [e1]

/-! ## Output array 5: the similarity column -/

/-- The similarity column as a function on the array's indices: row q holds `rowExp` of row q. -/
abbrev G5 (c : Dev nD) : S2000896x1.Idx → EReal := fun i => rowExp V c ⟨(i 0).val, (i 0).isLt⟩

/-- An index of output array 5 is in point t's block iff each coordinate is in the block's range on its axis. -/
theorem mem_blk5 (t : Fin cfg0.N) (i : S2000896x1.Idx) :
    i ∈ ((cfg0.win 5).blk t).view.set ↔ ∀ a : Fin 2, win0_5.index t a * S2048x1.size a ≤ (i a).val ∧ (i a).val < win0_5.index t a * S2048x1.size a + S2048x1.size a := by
  show i ∈ ((View.whole main_v41_0).slice (win0_5.rect t)).set ↔ _
  rw [View.set_slice_whole, Rect.mem_set_unit]
  exact Iff.rfl

/-- Every row of output array 5 is written back by the point that is its quotient by 2048. -/
theorem cover5 (i : S2000896x1.Idx) : ∃ t : Fin cfg0.N, (cfg0.win 5).flush t = true ∧ i ∈ ((cfg0.win 5).blk t).view.set := by
  have hi0 : (i 0).val < 2000896 := (i 0).isLt
  have hi1 : (i 1).val < 1 := (i 1).isLt
  have hN : cfg0.N = 977 := N_0
  refine ⟨⟨(i 0).val / 2048, by rw [hN]; omega⟩, flush0_5 _, ?_⟩
  rw [mem_blk5]
  obtain ⟨-, -, -, -, -, ⟨e0, e1⟩, -, -⟩ := idx_facts0 ⟨(i 0).val / 2048, by rw [hN]; omega⟩
  intro a
  match a with
  | ⟨0, _⟩ => show win0_5.index _ (0 : Fin 2) * 2048 ≤ (i 0).val ∧ (i 0).val < win0_5.index _ (0 : Fin 2) * 2048 + 2048; rw [e0]; show (i 0).val / 2048 * 2048 ≤ _ ∧ _ < (i 0).val / 2048 * 2048 + 2048; omega
  | ⟨1, _⟩ => show win0_5.index _ (1 : Fin 2) * 1 ≤ (i 1).val ∧ (i 1).val < win0_5.index _ (1 : Fin 2) * 1 + 1; rw [e1]; omega

/-- Row r of point t's block of output window 5 sits at row t · 2048 + r of its array. -/
theorem blk5_emb (t : Fin cfg0.N) (r : Fin 2048) :
    ((cfg0.win 5).blk t).view.emb (ix2 r (0 : Fin 1)) = (ix2 (rowOf t r) (0 : Fin 1) : S2000896x1.Idx) := by
  refine funext fun a => Fin.ext ?_
  obtain ⟨-, -, -, -, -, ⟨e0, e1⟩, -, -⟩ := idx_facts0 t
  match a with
  | ⟨0, _⟩ => show win0_5.index t (0 : Fin 2) * 2048 + 1 * r.val = t.val * 2048 + r.val; rw [e0]; omega
  | ⟨1, _⟩ => show win0_5.index t (1 : Fin 2) * 1 + 1 * 0 = 0; rw [e1]

/-- What point t writes back of window 5 is block t of `G5`. -/
theorem flushed5_eq (c : Dev nD) (t : Fin cfg0.N) :
    (dat0 (F := Ideal) V c).flushed 5 t = ((cfg0.win 5).blk t).view.read (Elt Ideal) (G5 V c) := by
  show (cfg0.win 5).cut (grid0.coords t) ((dat0 (F := Ideal) V c).after 5 t) = _
  rw [after0_5]
  unfold out0_5
  rw [View.canon_unit_zero hz]
  simp only [View.ld_unit_zero (S := S2048x24) hz]
  funext j
  obtain ⟨r, z, rfl⟩ : ∃ (r : Fin 2048) (z : Fin 1), j = ix2 r z := ⟨j 0, j 1, eq_ix2 j⟩
  obtain rfl : z = 0 := Subsingleton.elim _ _
  show k0_pay2 (F := Ideal) (iblk0 V c 0 t) (iblk0 V c 1 t) (ix2 r 0) = G5 V c (((cfg0.win 5).blk t).view.emb (ix2 r (0 : Fin 1)))
  rw [blk5_emb]
  refine (pay_exp (iblk0 V c 0 t) (iblk0 V c 1 t) r).trans ?_
  show _ = rowExp V c (rowOf t r)
  unfold rowExp
  refine congrArg (fun s : EReal => Ideal.exp (Ideal.exp ((0 - Ideal.sqrt s) * ((8 / 9 : ℝ) : EReal)) * cT - cT)) ?_
  refine Finset.sum_congr rfl fun d _ => ?_
  rw [blk0_read V c t r d, blk1_read V c t r d]

/-- The similarity array after the run: row q holds the similarity of pair q. -/
theorem final5 (c : Dev nD) : (dat0 (F := Ideal) V c).arrAt 5 cfg0.N = (fun i => rowExp V c ⟨(i 0).val, (i 0).isLt⟩ : S2000896x1.Idx → EReal) :=
  (dat0 (F := Ideal) V c).arrAt_eq_of_cover 5 (G5 V c) (fun t _ => flushed5_eq V c t) cover5

/-! ## Output array 6: the negatives' similarity column -/

/-- The negatives' column as a function on the array's indices: row q holds `rowNegExp` of row q. -/
abbrev G6 (c : Dev nD) : S2000896x1.Idx → EReal := fun i => rowNegExp V c ⟨(i 0).val, (i 0).isLt⟩

/-- An index of output array 6 is in point t's block iff each coordinate is in the block's range on its axis. -/
theorem mem_blk6 (t : Fin cfg0.N) (i : S2000896x1.Idx) :
    i ∈ ((cfg0.win 6).blk t).view.set ↔ ∀ a : Fin 2, win0_6.index t a * S2048x1.size a ≤ (i a).val ∧ (i a).val < win0_6.index t a * S2048x1.size a + S2048x1.size a := by
  show i ∈ ((View.whole main_v41_1).slice (win0_6.rect t)).set ↔ _
  rw [View.set_slice_whole, Rect.mem_set_unit]
  exact Iff.rfl

/-- Every row of output array 6 is written back by the point that is its quotient by 2048. -/
theorem cover6 (i : S2000896x1.Idx) : ∃ t : Fin cfg0.N, (cfg0.win 6).flush t = true ∧ i ∈ ((cfg0.win 6).blk t).view.set := by
  have hi0 : (i 0).val < 2000896 := (i 0).isLt
  have hi1 : (i 1).val < 1 := (i 1).isLt
  have hN : cfg0.N = 977 := N_0
  refine ⟨⟨(i 0).val / 2048, by rw [hN]; omega⟩, flush0_6 _, ?_⟩
  rw [mem_blk6]
  obtain ⟨-, -, -, -, -, -, ⟨e0, e1⟩, -⟩ := idx_facts0 ⟨(i 0).val / 2048, by rw [hN]; omega⟩
  intro a
  match a with
  | ⟨0, _⟩ => show win0_6.index _ (0 : Fin 2) * 2048 ≤ (i 0).val ∧ (i 0).val < win0_6.index _ (0 : Fin 2) * 2048 + 2048; rw [e0]; show (i 0).val / 2048 * 2048 ≤ _ ∧ _ < (i 0).val / 2048 * 2048 + 2048; omega
  | ⟨1, _⟩ => show win0_6.index _ (1 : Fin 2) * 1 ≤ (i 1).val ∧ (i 1).val < win0_6.index _ (1 : Fin 2) * 1 + 1; rw [e1]; omega

/-- Row r of point t's block of output window 6 sits at row t · 2048 + r of its array. -/
theorem blk6_emb (t : Fin cfg0.N) (r : Fin 2048) :
    ((cfg0.win 6).blk t).view.emb (ix2 r (0 : Fin 1)) = (ix2 (rowOf t r) (0 : Fin 1) : S2000896x1.Idx) := by
  refine funext fun a => Fin.ext ?_
  obtain ⟨-, -, -, -, -, -, ⟨e0, e1⟩, -⟩ := idx_facts0 t
  match a with
  | ⟨0, _⟩ => show win0_6.index t (0 : Fin 2) * 2048 + 1 * r.val = t.val * 2048 + r.val; rw [e0]; omega
  | ⟨1, _⟩ => show win0_6.index t (1 : Fin 2) * 1 + 1 * 0 = 0; rw [e1]

/-- The same-cluster bit of row r of point t's label blocks is that of row t · 2048 + r of the label arrays. -/
theorem pos_read (c : Dev nD) (t : Fin cfg0.N) (r : Fin 2048) :
    k0_pay3 (F := Ideal) (iblk0 V c 2 t) (iblk0 V c 3 t) (ix2 r 0) = rowPosBit V c (rowOf t r) := by
  refine (pay_pos (iblk0 V c 2 t) (iblk0 V c 3 t) r).trans ?_
  rw [blk2_read V c t r, blk3_read V c t r]
  rfl

/-- What point t writes back of window 6 is block t of `G6`. -/
theorem flushed6_eq (c : Dev nD) (t : Fin cfg0.N) :
    (dat0 (F := Ideal) V c).flushed 6 t = ((cfg0.win 6).blk t).view.read (Elt Ideal) (G6 V c) := by
  show (cfg0.win 6).cut (grid0.coords t) ((dat0 (F := Ideal) V c).after 6 t) = _
  rw [after0_6]
  unfold out0_6
  rw [View.canon_unit_zero hz]
  simp only [View.ld_unit_zero (S := S2048x24) hz, View.ld_unit_zero (S := S2048x1) hz]
  funext j
  obtain ⟨r, z, rfl⟩ : ∃ (r : Fin 2048) (z : Fin 1), j = ix2 r z := ⟨j 0, j 1, eq_ix2 j⟩
  obtain rfl : z = 0 := Subsingleton.elim _ _
  show k0_pay1 (F := Ideal) (k0_pay2 (iblk0 V c 0 t) (iblk0 V c 1 t)) (k0_pay4 (iblk0 V c 2 t) (iblk0 V c 3 t)) (k0_pay5 (iblk0 V c 4 t)) (ix2 r 0)
    = G6 V c (((cfg0.win 6).blk t).view.emb (ix2 r (0 : Fin 1)))
  rw [blk6_emb]
  refine (pay_negexp _ _ _ r).trans ?_
  show _ = rowExp V c (rowOf t r) * Scalar.select (rowPosBit V c (rowOf t r)) (0 : EReal) 1 * vd V c (rowOf t r)
  have he : k0_pay2 (F := Ideal) (iblk0 V c 0 t) (iblk0 V c 1 t) (ix2 r 0) = rowExp V c (rowOf t r) := by
    refine (pay_exp (iblk0 V c 0 t) (iblk0 V c 1 t) r).trans ?_
    unfold rowExp
    refine congrArg (fun s : EReal => Ideal.exp (Ideal.exp ((0 - Ideal.sqrt s) * ((8 / 9 : ℝ) : EReal)) * cT - cT)) ?_
    refine Finset.sum_congr rfl fun d _ => ?_
    rw [blk0_read V c t r d, blk1_read V c t r d]
  have hn : k0_pay4 (F := Ideal) (iblk0 V c 2 t) (iblk0 V c 3 t) (ix2 r 0) = Scalar.select (rowPosBit V c (rowOf t r)) (0 : EReal) 1 := by
    refine (pay_negf (iblk0 V c 2 t) (iblk0 V c 3 t) r).trans ?_
    rw [pos_read V c t r]
  have hv : k0_pay5 (F := Ideal) (iblk0 V c 4 t) (ix2 r 0) = vd V c (rowOf t r) :=
    (pay_valid (iblk0 V c 4 t) r).trans (blk4_read V c t r)
  rw [he, hn, hv]

/-- The negatives' array after the run: row q holds the similarity of pair q where it is not a same-cluster pair,
    times its validity. -/
theorem final6 (c : Dev nD) : (dat0 (F := Ideal) V c).arrAt 6 cfg0.N = (fun i => rowNegExp V c ⟨(i 0).val, (i 0).isLt⟩ : S2000896x1.Idx → EReal) :=
  (dat0 (F := Ideal) V c).arrAt_eq_of_cover 6 (G6 V c) (fun t _ => flushed6_eq V c t) cover6

/-! ## Output array 7: the positives' validity column -/

/-- The positives' column as a function on the array's indices: row q holds `rowPosF` of row q. -/
abbrev G7 (c : Dev nD) : S2000896x1.Idx → EReal := fun i => rowPosF V c ⟨(i 0).val, (i 0).isLt⟩

/-- An index of output array 7 is in point t's block iff each coordinate is in the block's range on its axis. -/
theorem mem_blk7 (t : Fin cfg0.N) (i : S2000896x1.Idx) :
    i ∈ ((cfg0.win 7).blk t).view.set ↔ ∀ a : Fin 2, win0_7.index t a * S2048x1.size a ≤ (i a).val ∧ (i a).val < win0_7.index t a * S2048x1.size a + S2048x1.size a := by
  show i ∈ ((View.whole main_v41_2).slice (win0_7.rect t)).set ↔ _
  rw [View.set_slice_whole, Rect.mem_set_unit]
  exact Iff.rfl

/-- Every row of output array 7 is written back by the point that is its quotient by 2048. -/
theorem cover7 (i : S2000896x1.Idx) : ∃ t : Fin cfg0.N, (cfg0.win 7).flush t = true ∧ i ∈ ((cfg0.win 7).blk t).view.set := by
  have hi0 : (i 0).val < 2000896 := (i 0).isLt
  have hi1 : (i 1).val < 1 := (i 1).isLt
  have hN : cfg0.N = 977 := N_0
  refine ⟨⟨(i 0).val / 2048, by rw [hN]; omega⟩, flush0_7 _, ?_⟩
  rw [mem_blk7]
  obtain ⟨-, -, -, -, -, -, -, ⟨e0, e1⟩⟩ := idx_facts0 ⟨(i 0).val / 2048, by rw [hN]; omega⟩
  intro a
  match a with
  | ⟨0, _⟩ => show win0_7.index _ (0 : Fin 2) * 2048 ≤ (i 0).val ∧ (i 0).val < win0_7.index _ (0 : Fin 2) * 2048 + 2048; rw [e0]; show (i 0).val / 2048 * 2048 ≤ _ ∧ _ < (i 0).val / 2048 * 2048 + 2048; omega
  | ⟨1, _⟩ => show win0_7.index _ (1 : Fin 2) * 1 ≤ (i 1).val ∧ (i 1).val < win0_7.index _ (1 : Fin 2) * 1 + 1; rw [e1]; omega

/-- Row r of point t's block of output window 7 sits at row t · 2048 + r of its array. -/
theorem blk7_emb (t : Fin cfg0.N) (r : Fin 2048) :
    ((cfg0.win 7).blk t).view.emb (ix2 r (0 : Fin 1)) = (ix2 (rowOf t r) (0 : Fin 1) : S2000896x1.Idx) := by
  refine funext fun a => Fin.ext ?_
  obtain ⟨-, -, -, -, -, -, -, ⟨e0, e1⟩⟩ := idx_facts0 t
  match a with
  | ⟨0, _⟩ => show win0_7.index t (0 : Fin 2) * 2048 + 1 * r.val = t.val * 2048 + r.val; rw [e0]; omega
  | ⟨1, _⟩ => show win0_7.index t (1 : Fin 2) * 1 + 1 * 0 = 0; rw [e1]

/-- What point t writes back of window 7 is block t of `G7`. -/
theorem flushed7_eq (c : Dev nD) (t : Fin cfg0.N) :
    (dat0 (F := Ideal) V c).flushed 7 t = ((cfg0.win 7).blk t).view.read (Elt Ideal) (G7 V c) := by
  show (cfg0.win 7).cut (grid0.coords t) ((dat0 (F := Ideal) V c).after 7 t) = _
  rw [after0_7]
  unfold out0_7
  rw [View.canon_unit_zero hz]
  simp only [View.ld_unit_zero (S := S2048x1) hz]
  funext j
  obtain ⟨r, z, rfl⟩ : ∃ (r : Fin 2048) (z : Fin 1), j = ix2 r z := ⟨j 0, j 1, eq_ix2 j⟩
  obtain rfl : z = 0 := Subsingleton.elim _ _
  show k0_pay6 (F := Ideal) (iblk0 V c 2 t) (iblk0 V c 3 t) (iblk0 V c 4 t) (ix2 r 0)
    = G7 V c (((cfg0.win 7).blk t).view.emb (ix2 r (0 : Fin 1)))
  rw [blk7_emb]
  refine (pay_posf (iblk0 V c 2 t) (iblk0 V c 3 t) (iblk0 V c 4 t) r).trans ?_
  show _ = Scalar.select (rowPosBit V c (rowOf t r)) (vd V c (rowOf t r)) (0 : EReal)
  rw [pos_read V c t r, blk4_read V c t r]

/-- The positives' array after the run: row q holds the validity of pair q where it is a same-cluster pair, 0 elsewhere. -/
theorem final7 (c : Dev nD) : (dat0 (F := Ideal) V c).arrAt 7 cfg0.N = (fun i => rowPosF V c ⟨(i 0).val, (i 0).isLt⟩ : S2000896x1.Idx → EReal) :=
  (dat0 (F := Ideal) V c).arrAt_eq_of_cover 7 (G7 V c) (fun t _ => flushed7_eq V c t) cover7

end Cert.KernelIdeal.ArrayValue

end
-- ==== Proof.PairData.lean ====
/-
  The per-pair data both programs compute from the argument arrays, written once.

  `x : [200000, 24]` are the points' feature rows, `pp : [2, 2000000]` the pairs (row 0 the anchors, row 1 the
  partners) and `cid : [200000]` the points' cluster labels.  The kernel pads the batch of 2000000 pairs to
  2000896 = 977 · 2048 with the pair (0, 0); the padded batch is the common index set here, the genuine pairs its
  first 2000000 members.

  An index into the points is used in two ways.  A GATHER normalises it first — a negative index has the extent
  200000 added once, as array indexing does — then reads it signed and clamps it into [0, 199999] (`gatherRow`).
  The accumulating SCATTER of the per-anchor sums uses the raw index and drops an update whose index is outside
  [0, 199999]: pair `q` lands on row `n` exactly when its anchor word IS `n` (`landsOn`).
-/
import Idealize.ShloMosaic.Lib.ValueIdx
import Idealize.ShloMosaic.PureOps.Ideal
import Idealize.ShloMosaic.PureOps.Ideal.Laws

noncomputable section

namespace Cert.PairLoss

open Idealize.ShloMosaic Idealize.ShloMosaic.ValueIdx

/-- The three argument arrays that matter (two more are ignored by both programs). -/
abbrev Points : Type := (⟨2, ![200000, 24]⟩ : Shape).Idx → EReal
abbrev Pairs : Type := (⟨2, ![2, 2000000]⟩ : Shape).Idx → BitVec 32
abbrev Labels : Type := (⟨1, ![200000]⟩ : Shape).Idx → BitVec 32

/-- The scale the reference divides the similarity by: the single-precision word nearest to 0.05, exactly. -/
abbrev tau : ℝ := 13421773 / 268435456

theorem tau_pos : 0 < tau := by unfold tau; norm_num

theorem genuine_le : 2000000 ≤ 2000896 := by norm_num

variable (pp : Pairs) (cid : Labels)

/-- The anchor of padded pair `q`: the given one for a genuine pair, point 0 for padding. -/
def anchorWord (q : Fin 2000896) : BitVec 32 :=
  if h : q.val < 2000000 then pp (ix2 (0 : Fin 2) (⟨q.val, h⟩ : Fin 2000000)) else 0#32

/-- The partner of padded pair `q`: the given one for a genuine pair, point 0 for padding. -/
def partnerWord (q : Fin 2000896) : BitVec 32 :=
  if h : q.val < 2000000 then pp (ix2 (1 : Fin 2) (⟨q.val, h⟩ : Fin 2000000)) else 0#32

/-- Index normalisation: a negative index has the extent added once. -/
def wrapWord (i : BitVec 32) : BitVec 32 :=
  Scalar.select (IntOp.cmpi .slt i 0#32) (IntOp.addi i 200000#32) i

/-- The row a gather reads for the index word `i`: normalised, read signed, clamped into the table. -/
def gatherRow (i : BitVec 32) : Fin 200000 := ⟨min (wrapWord i).toInt.toNat (200000 - 1), by omega⟩

/-- The accumulating scatter with raw index word `i` lands on row `n`. -/
def landsOn (i : BitVec 32) (n : Fin 200000) : Bool := decide (i.toInt = (n.val : Int))

/-- The cluster label gathered for the index word `i`. -/
def labelAt (i : BitVec 32) : BitVec 32 := cid (ix1 (gatherRow i))

/-- The positive-pair bit: the two labels agree and neither is the "no cluster" label −1. -/
def posBit (q : Fin 2000896) : BitVec 1 :=
  IntOp.andi
    (IntOp.andi (IntOp.cmpi .eq (labelAt cid (anchorWord pp q)) (labelAt cid (partnerWord pp q)))
      (IntOp.cmpi .ne (labelAt cid (anchorWord pp q)) 4294967295#32))
    (IntOp.cmpi .ne (labelAt cid (partnerWord pp q)) 4294967295#32)

/-- The positive-pair flag. -/
def isPos (q : Fin 2000896) : Bool := decide (posBit pp cid q = 1#1)

/-- The anchor row pair `q`'s per-anchor sum is read back from. -/
def anchorRow (q : Fin 2000896) : Fin 200000 := gatherRow (anchorWord pp q)

/-- Pair `q`'s contribution lands on anchor row `n`. -/
def anchorLands (q : Fin 2000896) (n : Fin 200000) : Bool := landsOn (anchorWord pp q) n

/-- The similarity of pair `q` over real feature rows: `exp (-‖x_a − x_b‖ · 8/9)`, the Gaussian-kernel width
    `2 · 0.75² = 9/8` in the denominator. -/
def simReal (xr : (⟨2, ![200000, 24]⟩ : Shape).Idx → ℝ) (q : Fin 2000896) : ℝ :=
  Real.exp (-(Real.sqrt (∑ d : Fin 24,
      (xr (ix2 (gatherRow (anchorWord pp q)) d) - xr (ix2 (gatherRow (partnerWord pp q)) d))
        * (xr (ix2 (gatherRow (anchorWord pp q)) d) - xr (ix2 (gatherRow (partnerWord pp q)) d)))) * (8 / 9))

end Cert.PairLoss

end
-- ==== Proof.LibEdgeIndex.lean ====
/-
  Gathers and accumulating scatters whose index array is a column [E, 1] of row numbers, read at an index.

  An index column `idx : [E, 1]` names one row per entry `e` (an edge).  Two readings of it occur:

  * a GATHER takes, for entry `e`, the row `idx[e, 0]` of a table with `N` rows — read signed and clamped into
    `[0, N - 1]` (`rowOf`).  From a vector `[N]` the result is `[E]`, its entry `e` the table at that row; from a
    matrix `[N, D]` the result is `[E, D]`, its entry `(e, j)` the table at that row and column `j`.
  * an ACCUMULATING SCATTER adds, for entry `e`, an update into row `idx[e, 0]` of the operand — read signed and
    NOT clamped: an update whose row is outside `[0, N - 1]` is dropped.  Entry `e` lands on row `n` exactly when
    `idx[e, 0] = n` as integers (`lands`).  Over the extended reals the result at row `n` is the operand there plus
    the sum over the entries that land on `n` of their updates; into a matrix `[N, D]` from updates `[E, D]` the
    update `(e, j')` lands on `(n, j)` exactly when `e` lands on `n` and `j' = j`, so column `j` of the result
    collects column `j` of the updates.

  Stated for any extents, over the dimension records with these dimension numbers; a printed record with the same
  numbers is such a record by unfolding.
-/
import Idealize.ShloMosaic.Lib.ValueIdx
import Idealize.ShloMosaic.PureOps.Ideal
import Idealize.ShloMosaic.PureOps.Ideal.Laws

noncomputable section

namespace Cert.EdgeIndex

open Idealize.ShloMosaic Idealize.ShloMosaic.ValueIdx

variable {α : Type} {N E D w : ℕ}

/-- A sum over a rank-1 index set is the sum over its coordinate. -/
def idxEquiv1 {n : ℕ} : (⟨1, ![n]⟩ : Shape).Idx ≃ Fin n where
  toFun i := i 0
  invFun a := ix1 a
  left_inv i := (eq_ix1 i).symm
  right_inv _ := rfl

theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-- The index column's entry for `e`. -/
abbrev at0 (e : Fin E) : (⟨2, ![E, 1]⟩ : Shape).Idx := ix2 e (0 : Fin 1)

/-- The row a gather reads for entry `e`: the column's word read signed, clamped into `[0, N - 1]`. -/
def rowOf (hN : 0 < N) (idx : IVec ⟨2, ![E, 1]⟩ w) (e : Fin E) : Fin N :=
  ⟨min (idx (at0 e)).toInt.toNat (N - 1), by omega⟩

/-- Entry `e` of the index column names row `n`, as integers, with no clamping. -/
def lands (idx : IVec ⟨2, ![E, 1]⟩ w) (e : Fin E) (n : Fin N) : Prop := (idx (at0 e)).toInt = (n.val : Int)

instance (idx : IVec ⟨2, ![E, 1]⟩ w) (e : Fin E) (n : Fin N) : Decidable (lands idx e n) := by
  unfold lands; infer_instance

/-! ## Gathers -/

/-- The dimension numbers of `vector[idx]`: one collapsed axis, the index vector on the column's second axis. -/
abbrev vecGather (N E : ℕ) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- `vector[idx]` at entry `e`: the vector at the clamped row. -/
theorem vecGather_apply (hN : 0 < N) (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGather N E wf) x idx (ix1 e) = x (ix1 (rowOf hN idx e)) := by
  unfold Host.gather
  congr 1
  funext a
  obtain rfl : a = 0 := Subsingleton.elim _ _
  refine Fin.ext ?_
  show (vecGather N E wf).start (ix1 e) idx 0 + (vecGather N E wf).batchCoord (ix1 e) 0 + (vecGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N E wf).startIndexMap from List.mem_singleton.mpr rfl)]
  have hsi : (vecGather N E wf).siIdx (ix1 e) ⟨List.idxOf (0 : Fin 1) (vecGather N E wf).startIndexMap,
      List.idxOf_lt_length_iff.2 (List.mem_singleton.mpr rfl)⟩ = at0 e := by
    funext b; refine Fin.ext ?_
    match b with
    | ⟨0, _⟩ => rfl
    | ⟨1, _⟩ => rfl
  rw [hsi]
  rfl

/-- The dimension numbers of `matrix[idx]` (whole rows): the row axis collapsed, the column axis an offset axis. -/
abbrev rowGather (N D E : ℕ) (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- `matrix[idx]` at entry `(e, j)`: the matrix at the clamped row, column `j`. -/
theorem rowGather_apply (hN : 0 < N) (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (j : Fin D) :
    Host.gather (rowGather N D E wf) x idx (ix2 e j) = x (ix2 (rowOf hN idx e) j) := by
  unfold Host.gather
  congr 1
  have h0 : ((rowGather N D E wf).operandIdx (ix2 e j) idx (0 : Fin 2)).val = (rowOf hN idx e).val := by
    show (rowGather N D E wf).start (ix2 e j) idx (0 : Fin 2) + (rowGather N D E wf).batchCoord (ix2 e j) (0 : Fin 2)
      + (rowGather N D E wf).offCoord (ix2 e j) (0 : Fin 2) = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N D E wf).startIndexMap from List.mem_singleton.mpr rfl)]
    have hsi : (rowGather N D E wf).siIdx (ix2 e j) ⟨List.idxOf (0 : Fin 2) (rowGather N D E wf).startIndexMap,
        List.idxOf_lt_length_iff.2 (List.mem_singleton.mpr rfl)⟩ = at0 e := by
      funext b; refine Fin.ext ?_
      match b with
      | ⟨0, _⟩ => rfl
      | ⟨1, _⟩ => rfl
    rw [hsi]
    rfl
  have h1 : ((rowGather N D E wf).operandIdx (ix2 e j) idx (1 : Fin 2)).val = j.val := by
    show (rowGather N D E wf).start (ix2 e j) idx (1 : Fin 2) + (rowGather N D E wf).batchCoord (ix2 e j) (1 : Fin 2)
      + (rowGather N D E wf).offCoord (ix2 e j) (1 : Fin 2) = _
    rw [GatherDims.batchCoord_eq_zero _ _ _ List.not_mem_nil]
    have hs : (rowGather N D E wf).start (ix2 e j) idx (1 : Fin 2) = 0 := by
      unfold GatherDims.start
      split
      · rename_i h
        exact ((by decide : ¬ (1 : Fin 2) ∈ ([0] : List (Fin 2))) h).elim
      · rfl
    have ho : (rowGather N D E wf).offCoord (ix2 e j) (1 : Fin 2) = j.val := by
      unfold GatherDims.offCoord
      split
      · rfl
      · rename_i h
        exact absurd ((GatherDims.mem_sKept _ _).mpr
          ⟨fun hh => absurd (hh : (1 : Fin 2) ∈ ([0] : List (Fin 2))) (by decide), List.not_mem_nil⟩) h
    rw [hs, ho, Nat.add_zero, Nat.zero_add]
  funext a
  refine Fin.ext ?_
  match a with
  | ⟨0, _⟩ => exact h0
  | ⟨1, _⟩ => exact h1

/-! ## Accumulating scatters -/

/-- An update lands on the operand index `i` exactly when, on every axis, its start plus its window coordinate is
    `i`'s coordinate. -/
theorem resultIdx?_eq_some_iff {s si u : Shape} (d : ScatterDims s si u) (j : u.Idx) (idx : IVec si w) (i : s.Idx) :
    d.resultIdx? j idx = some i ↔ ∀ a, d.start j idx a + (d.window j a : Int) = ((i a).val : Int) := by
  unfold ScatterDims.resultIdx?
  constructor
  · intro h
    split at h
    · rename_i hb
      have hf := Option.some.inj h
      intro a
      have ha := congrArg (fun f => ((f a).val : Int)) hf
      have hb' := (hb a).1
      simp only [Int.toNat_of_nonneg hb'] at ha
      exact ha
    · cases h
  · intro h
    have hb : ∀ a, 0 ≤ d.start j idx a + (d.window j a : Int) ∧ d.start j idx a + (d.window j a : Int) < s.size a := fun a => by
      rw [h a]
      exact ⟨Int.natCast_nonneg _, by exact_mod_cast (i a).isLt⟩
    rw [dif_pos hb]
    congr 1
    funext a
    apply Fin.ext
    show (d.start j idx a + (d.window j a : Int)).toNat = (i a).val
    rw [h a, Int.toNat_natCast]

/-- An operand axis carries a window coordinate exactly when it is not an inserted axis. -/
theorem mem_sKept_iff {s si u : Shape} (d : ScatterDims s si u) (a : Fin s.rank) : a ∈ d.sKept ↔ a ∉ d.insertedWindowDims := by
  simp [ScatterDims.sKept, Shape.kept, List.mem_filter, List.mem_finRange]

/-- The dimension numbers of `vector.at[idx].add(updates)`. -/
abbrev vecScatter (N E : ℕ) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

theorem vecScatter_lands (wf : ScatterDims.WF ⟨1, ![N]⟩ ⟨2, ![E, 1]⟩ ⟨1, ![E]⟩ [] [0] [0] 1)
    (idx : IVec ⟨2, ![E, 1]⟩ w) (e : Fin E) (n : Fin N) :
    (vecScatter N E wf).resultIdx? (ix1 e) idx = some (ix1 n) ↔ lands idx e n := by
  rw [resultIdx?_eq_some_iff]
  have hstart : (vecScatter N E wf).start (ix1 e) idx (0 : Fin 1) = (idx (at0 e)).toInt := by
    unfold ScatterDims.start
    rw [dif_pos (show (0 : Fin 1) ∈ (vecScatter N E wf).scatterDimsToOperandDims from List.mem_singleton.mpr rfl)]
    congr 2
    funext b; refine Fin.ext ?_
    match b with
    | ⟨0, _⟩ => rfl
    | ⟨1, _⟩ => rfl
  have hwin : (vecScatter N E wf).window (ix1 e) (0 : Fin 1) = 0 := by
    unfold ScatterDims.window
    split
    · rename_i h
      exact absurd (List.mem_singleton.mpr rfl) ((mem_sKept_iff _ _).mp h)
    · rfl
  constructor
  · intro h
    have h0 : (idx (at0 e)).toInt + ((0 : ℕ) : Int) = (n.val : Int) := by
      have := h (0 : Fin 1)
      rw [hstart, hwin] at this
      exact this
    show (idx (at0 e)).toInt = (n.val : Int)
    rw [Nat.cast_zero, add_zero] at h0
    exact h0
  · intro h a
    obtain rfl : a = 0 := Subsingleton.elim _ _
    rw [hstart, hwin]
    show (idx (at0 e)).toInt + ((0 : ℕ) : Int) = (n.val : Int)
    rw [Nat.cast_zero, add_zero]
    exact h

/-- `vector.at[idx].add(updates)` at row `n`, over the extended reals: the operand there plus the updates of the
    entries that land on `n`. -/
theorem vecScatterAdd_apply (wf : ScatterDims.WF ⟨1, ![N]⟩ ⟨2, ![E, 1]⟩ ⟨1, ![E]⟩ [] [0] [0] 1)
    (x : FVec Ideal ⟨1, ![N]⟩ .f32) (idx : IVec ⟨2, ![E, 1]⟩ w) (upd : FVec Ideal ⟨1, ![E]⟩ .f32) (n : Fin N) :
    Host.scatterAdd (F := Ideal) (vecScatter N E wf) x idx upd (ix1 n)
      = x (ix1 n) + ∑ e : Fin E, if lands idx e n then upd (ix1 e) else 0 := by
  show Ideal.hostScatterAdd (vecScatter N E wf) x idx upd (ix1 n) = _
  unfold Ideal.hostScatterAdd
  congr 1
  rw [Finset.sum_filter, sum_idx1]
  exact Finset.sum_congr rfl fun e _ => if_congr (vecScatter_lands wf idx e n) rfl rfl

/-- The dimension numbers of `matrix.at[idx].add(updates)` with whole-row updates. -/
abbrev rowScatter (N D E : ℕ) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

theorem rowScatter_lands (wf : ScatterDims.WF ⟨2, ![N, D]⟩ ⟨2, ![E, 1]⟩ ⟨2, ![E, D]⟩ [1] [0] [0] 1)
    (idx : IVec ⟨2, ![E, 1]⟩ w) (e : Fin E) (j' : Fin D) (n : Fin N) (j : Fin D) :
    (rowScatter N D E wf).resultIdx? (ix2 e j') idx = some (ix2 n j) ↔ lands idx e n ∧ j' = j := by
  rw [resultIdx?_eq_some_iff]
  have hstart0 : (rowScatter N D E wf).start (ix2 e j') idx (0 : Fin 2) = (idx (at0 e)).toInt := by
    unfold ScatterDims.start
    rw [dif_pos (show (0 : Fin 2) ∈ (rowScatter N D E wf).scatterDimsToOperandDims from List.mem_singleton.mpr rfl)]
    congr 2
    funext b; refine Fin.ext ?_
    match b with
    | ⟨0, _⟩ => rfl
    | ⟨1, _⟩ => rfl
  have hwin0 : (rowScatter N D E wf).window (ix2 e j') (0 : Fin 2) = 0 := by
    unfold ScatterDims.window
    split
    · rename_i h
      exact absurd (List.mem_singleton.mpr rfl) ((mem_sKept_iff _ _).mp h)
    · rfl
  have hstart1 : (rowScatter N D E wf).start (ix2 e j') idx (1 : Fin 2) = 0 := by
    unfold ScatterDims.start
    split
    · rename_i h
      exact ((by decide : ¬ (1 : Fin 2) ∈ ([0] : List (Fin 2))) h).elim
    · rfl
  have hwin1 : (rowScatter N D E wf).window (ix2 e j') (1 : Fin 2) = j'.val := by
    unfold ScatterDims.window
    split
    · rfl
    · rename_i h
      exact absurd ((mem_sKept_iff _ _).mpr
        (fun hh => absurd (hh : (1 : Fin 2) ∈ ([0] : List (Fin 2))) (by decide))) h
  constructor
  · intro h
    have h0 : (idx (at0 e)).toInt + ((0 : ℕ) : Int) = (n.val : Int) := by
      have := h (0 : Fin 2)
      rw [hstart0, hwin0] at this
      exact this
    have h1 : (0 : Int) + ((j'.val : ℕ) : Int) = (j.val : Int) := by
      have := h (1 : Fin 2)
      rw [hstart1, hwin1] at this
      exact this
    rw [Nat.cast_zero, add_zero] at h0
    rw [zero_add] at h1
    exact ⟨h0, Fin.ext (by exact_mod_cast h1)⟩
  · rintro ⟨h, rfl⟩ a
    match a with
    | ⟨0, _⟩ =>
      show (rowScatter N D E wf).start (ix2 e j') idx (0 : Fin 2) + (((rowScatter N D E wf).window (ix2 e j') (0 : Fin 2) : ℕ) : Int) = (n.val : Int)
      rw [hstart0, hwin0, Nat.cast_zero, add_zero]
      exact h
    | ⟨1, _⟩ =>
      show (rowScatter N D E wf).start (ix2 e j') idx (1 : Fin 2) + (((rowScatter N D E wf).window (ix2 e j') (1 : Fin 2) : ℕ) : Int) = (j'.val : Int)
      rw [hstart1, hwin1, zero_add]

/-- `matrix.at[idx].add(updates)` at `(n, j)`, over the extended reals: the operand there plus column `j` of the
    updates of the entries that land on row `n`. -/
theorem rowScatterAdd_apply (wf : ScatterDims.WF ⟨2, ![N, D]⟩ ⟨2, ![E, 1]⟩ ⟨2, ![E, D]⟩ [1] [0] [0] 1)
    (x : FVec Ideal ⟨2, ![N, D]⟩ .f32) (idx : IVec ⟨2, ![E, 1]⟩ w) (upd : FVec Ideal ⟨2, ![E, D]⟩ .f32) (n : Fin N) (j : Fin D) :
    Host.scatterAdd (F := Ideal) (rowScatter N D E wf) x idx upd (ix2 n j)
      = x (ix2 n j) + ∑ e : Fin E, if lands idx e n then upd (ix2 e j) else 0 := by
  show Ideal.hostScatterAdd (rowScatter N D E wf) x idx upd (ix2 n j) = _
  unfold Ideal.hostScatterAdd
  congr 1
  rw [Finset.sum_filter, sum_idx2]
  refine Finset.sum_congr rfl fun e _ => ?_
  rw [Finset.sum_congr rfl fun j' _ => if_congr (rowScatter_lands wf idx e j' n j) rfl rfl]
  by_cases h : lands idx e n
  · simp only [h, true_and, if_true]
    rw [Finset.sum_ite_eq' Finset.univ j (fun j' => upd (ix2 e j'))]
    simp
  · simp only [h, false_and, if_false, Finset.sum_const_zero]

end Cert.EdgeIndex

end
-- ==== Proof.LibBroadcasts.lean ====
/-
  Three broadcasts read at an entry.

  A scalar splat reads the scalar everywhere.  A vector `[a]` laid as a column `[a, 1]` and then along `b` columns reads,
  at `(n, j)`, the vector at `n`.  A vector `[b]` laid as a row `[1, b]` and then down `a` rows reads, at `(n, j)`, the
  vector at `j`.
-/
import Idealize.ShloMosaic.Lib.Pipeline.Value
import Idealize.ShloMosaic.Lib.ValueIdx

noncomputable section

namespace Cert.Broadcasts

open Idealize.ShloMosaic Idealize.ShloMosaic.ValueIdx

variable {α : Type}

/-- A splat of a scalar reads the scalar at every index. -/
theorem splat_apply {t : Shape} (dims : Fin (⟨0, ![]⟩ : Shape).rank → Fin t.rank) (h : (⟨0, ![]⟩ : Shape).BroadcastsInDim t dims)
    (x : (⟨0, ![]⟩ : Shape).Idx → α) (j : t.Idx) : broadcastInDim t dims h x j = x ix0 :=
  broadcastInDim_apply dims h x j ix0 (fun q => q.elim0)

/-- A vector laid as a column and then along the columns: at `(n, j)` the vector at `n`. -/
theorem alongColumns_apply {a b : ℕ} (d : (⟨1, ![a]⟩ : Shape).Idx → α)
    (h0 : (⟨1, ![a]⟩ : Shape).BroadcastsInDim ⟨2, ![a, 1]⟩ ![0])
    (h1 : (⟨2, ![a, 1]⟩ : Shape).BroadcastsInDim ⟨2, ![a, b]⟩ ![0, 1]) (n : Fin a) (j : Fin b) :
    broadcastInDim ⟨2, ![a, b]⟩ ![0, 1] h1 (broadcastInDim ⟨2, ![a, 1]⟩ ![0] h0 d) (ix2 n j) = d (ix1 n) := by
  refine (broadcastInDim_apply ![0, 1] h1 _ (ix2 n j) (ix2 n (0 : Fin 1)) (fun q => ?_)).trans ?_
  · match q with
    | ⟨0, _⟩ =>
      show n.val = if a = 1 then 0 else n.val
      by_cases ha : a = 1
      · rw [if_pos ha]; have := n.isLt; omega
      · rw [if_neg ha]
    | ⟨1, _⟩ =>
      show (0 : ℕ) = if (1 : ℕ) = 1 then 0 else j.val
      rw [if_pos rfl]
  · refine broadcastInDim_apply ![0] h0 d (ix2 n (0 : Fin 1)) (ix1 n) (fun q => ?_)
    match q with
    | ⟨0, _⟩ =>
      show n.val = if a = 1 then 0 else n.val
      by_cases ha : a = 1
      · rw [if_pos ha]; have := n.isLt; omega
      · rw [if_neg ha]

/-- A vector laid as a row and then down the rows: at `(n, j)` the vector at `j`. -/
theorem downRows_apply {a b : ℕ} (x : (⟨1, ![b]⟩ : Shape).Idx → α)
    (h0 : (⟨1, ![b]⟩ : Shape).BroadcastsInDim ⟨2, ![1, b]⟩ ![1])
    (h1 : (⟨2, ![1, b]⟩ : Shape).BroadcastsInDim ⟨2, ![a, b]⟩ ![0, 1]) (n : Fin a) (j : Fin b) :
    broadcastInDim ⟨2, ![a, b]⟩ ![0, 1] h1 (broadcastInDim ⟨2, ![1, b]⟩ ![1] h0 x) (ix2 n j) = x (ix1 j) := by
  refine (broadcastInDim_apply ![0, 1] h1 _ (ix2 n j) (ix2 (0 : Fin 1) j) (fun q => ?_)).trans ?_
  · match q with
    | ⟨0, _⟩ =>
      show (0 : ℕ) = if (1 : ℕ) = 1 then 0 else n.val
      rw [if_pos rfl]
    | ⟨1, _⟩ =>
      show j.val = if b = 1 then 0 else j.val
      by_cases hb : b = 1
      · rw [if_pos hb]; have := j.isLt; omega
      · rw [if_neg hb]
  · refine broadcastInDim_apply ![1] h0 x (ix2 (0 : Fin 1) j) (ix1 j) (fun q => ?_)
    match q with
    | ⟨0, _⟩ =>
      show j.val = if b = 1 then 0 else j.val
      by_cases hb : b = 1
      · rw [if_pos hb]; have := j.isLt; omega
      · rw [if_neg hb]

/-- A vector laid as a column: at `(n, u)` the vector at `n`. -/
theorem column_apply {a : ℕ} (d : (⟨1, ![a]⟩ : Shape).Idx → α)
    (h0 : (⟨1, ![a]⟩ : Shape).BroadcastsInDim ⟨2, ![a, 1]⟩ ![0]) (n : Fin a) (u : Fin 1) :
    broadcastInDim ⟨2, ![a, 1]⟩ ![0] h0 d (ix2 n u) = d (ix1 n) := by
  refine broadcastInDim_apply ![0] h0 d (ix2 n u) (ix1 n) (fun q => ?_)
  match q with
  | ⟨0, _⟩ =>
    show n.val = if a = 1 then 0 else n.val
    by_cases ha : a = 1
    · rw [if_pos ha]; have := n.isLt; omega
    · rw [if_neg ha]

end Cert.Broadcasts

end
-- ==== Proof.KI.HostStages.lean ====
/-
  The host stretches' stages read at an index, over variables.

  From the pairs `pp : [2, 2000000]` the first stretch cuts the two rows, pads each with 896 zero words to the batch
  of 2000896, normalises each padded word as an index into the 200000 points (a negative word has 200000 added once),
  and gathers with the normalised words: the points' feature rows and the points' cluster labels, the labels then
  laid as columns.  A gather reads its index signed and clamps it into the table.  Beside these it builds the
  validity column: one on the 2000000 genuine pairs, zero on the padding.
-/
import proofs.«102367_j55516747268533_2_alg».proof.Proof.Gen.KernelIdeal.Launch
import proofs.«102367_j55516747268533_2_alg».proof.Proof.PairData
import proofs.«102367_j55516747268533_2_alg».proof.Proof.LibEdgeIndex
import proofs.«102367_j55516747268533_2_alg».proof.Proof.LibBroadcasts
import proofs.«102367_j55516747268533_2_alg».proof.Proof.LibColumn
import Idealize.ShloMosaic.Lib.StableHlo.Run
import Idealize.ShloMosaic.Lib.Pipeline.Value
import Idealize.ShloMosaic.Lib.ValueIdx
import Idealize.ShloMosaic.Lib.IdealHost

noncomputable section

namespace Cert.KernelIdeal.HostValue

open Cert.KernelIdeal Cert.KernelIdeal.Gen Cert.PairLoss
open Idealize.ShloMosaic Idealize.ShloMosaic.TcCoe Idealize.ShloMosaic.ValueIdx Idealize.ShloMosaic.StableHlo

/-! ## The stages, over variables -/

/-- Row `r` of a [2, 2000000] array, cut out as [1, 2000000] and reshaped to a vector: entry `k` is the array at
    `(r, k)`. -/
theorem rowVector_apply {α : Type} (r : Fin 2) (pp : S2x2000000.Idx → α) (hs : S2x2000000.Slices ![r.val, 0] S1x2000000)
    (hc : S1x2000000.ShapeCasts S2000000) (k : Fin 2000000) :
    shapeCast S2000000 (extractStridedSlice S1x2000000 ![r.val, 0] pp hs) hc (ix1 k) = pp (ix2 r k) := by
  generalize hy : extractStridedSlice S1x2000000 ![r.val, 0] pp hs = y
  refine (shapeCast_apply y hc (ix1 k) (ix2 (0 : Fin 1) k) ?_).trans ?_
  · rw [Shape.rowMajor_val_two, Shape.rowMajor_val_one]
    show 0 * 2000000 + k.val = k.val
    omega
  · subst hy
    refine extractStridedSlice_apply ![r.val, 0] pp hs (ix2 (0 : Fin 1) k) (ix2 r k) (fun a => ?_)
    match a with
    | ⟨0, _⟩ => show r.val = r.val + 0; omega
    | ⟨1, _⟩ => show k.val = 0 + k.val; omega

/-- A vector of 2000000 entries followed by one of 896: entry `q` is the first vector's below 2000000 and the
    second's, 2000000 further down, from there on. -/
theorem pad_apply {α : Type} (a : S2000000.Idx → α) (z : S896.Idx → α) (hc : Shape.Concatenates [S2000000, S896] S2000896 0)
    (q : Fin 2000896) :
    concatenate S2000896 0 [⟨S2000000, a⟩, ⟨S896, z⟩] hc (ix1 q)
      = if h : q.val < 2000000 then a (ix1 ⟨q.val, h⟩) else z (ix1 ⟨q.val - 2000000, by have := q.isLt; omega⟩) := by
  split
  · next h =>
    exact concatenate_pair_apply_left 0 a z hc (ix1 q) rfl (ix1 ⟨q.val, h⟩) (fun b => match b with | ⟨0, _⟩ => rfl)
  · next h =>
    exact concatenate_pair_apply_right 0 a z hc (ix1 q) rfl rfl (ix1 ⟨q.val - 2000000, by have := q.isLt; omega⟩)
      (fun b hb => absurd (Subsingleton.elim _ _) hb) (by show q.val - 2000000 + 2000000 = q.val; omega)

/-- The index normalisation, entry by entry: a word below zero (read signed) has 200000 added once. -/
theorem wrap_apply {s : Shape} (v : s.Idx → BitVec 32) (h : S_.BroadcastsInDim s (![] : Fin 0 → Fin s.rank)) (i : s.Idx) :
    select (cmpi .slt v (broadcastInDim s ![] h (constantI S_ 32 0#32)))
        (addi v (broadcastInDim s ![] h (constantI S_ 32 200000#32))) v i = wrapWord (v i) := by
  show Scalar.select (IntOp.cmpi .slt (v i) (broadcastInDim s ![] h (constantI S_ 32 0#32) i))
      (IntOp.addi (v i) (broadcastInDim s ![] h (constantI S_ 32 200000#32) i)) (v i) = _
  rw [broadcastInDim_scalar_apply, broadcastInDim_scalar_apply]
  rfl

/-- The row a gather reads through an index column whose entry `q` is the normalised word `wrapWord i`. -/
theorem rowOf_wrap (idx : S2000896x1.Idx → BitVec 32) (q : Fin 2000896) (i : BitVec 32) (h : idx (ix2 q 0) = wrapWord i) :
    Cert.EdgeIndex.rowOf (N := 200000) (by norm_num) idx q = gatherRow i := by
  apply Fin.ext
  show min (idx (ix2 q 0)).toInt.toNat (200000 - 1) = min (wrapWord i).toInt.toNat (200000 - 1)
  rw [h]

/-- The feature rows gathered through an index column: entry `(q, d)` is the table at the column's clamped row. -/
theorem gatherRows_apply {α : Type} (x : S200000x24.Idx → α) (idx : S2000896x1.Idx → BitVec 32) (q : Fin 2000896) (d : Fin 24) :
    Host.gather gather_S200000x24_S2000896x1_S2000896x24_1_0_n_n_0_1_124 x idx (ix2 q d)
      = x (ix2 (Cert.EdgeIndex.rowOf (N := 200000) (by norm_num) idx q) d) := by
  unfold gather_S200000x24_S2000896x1_S2000896x24_1_0_n_n_0_1_124
  exact Cert.EdgeIndex.rowGather_apply (by norm_num) Facts₀.gather_S200000x24_S2000896x1_S2000896x24_1_0_n_n_0_1_124_wf x idx q d

/-- A vector gathered through an index column: entry `q` is the vector at the column's clamped row. -/
theorem gatherVec_apply {α : Type} (x : S200000.Idx → α) (idx : S2000896x1.Idx → BitVec 32) (q : Fin 2000896) :
    Host.gather gather_S200000_S2000896x1_S2000896_n_0_n_n_0_1_1 x idx (ix1 q)
      = x (ix1 (Cert.EdgeIndex.rowOf (N := 200000) (by norm_num) idx q)) := by
  unfold gather_S200000_S2000896x1_S2000896_n_0_n_n_0_1_1
  exact Cert.EdgeIndex.vecGather_apply (by norm_num) Facts₀.gather_S200000_S2000896x1_S2000896_n_0_n_n_0_1_1_wf x idx q

/-! ## The stretch's arrays as functions of the arguments -/

/-- Row `r` of the pairs as a vector, padded with 896 zero words to the batch. -/
def padRow (r : ℕ) (hs : S2x2000000.Slices ![r, 0] S1x2000000) (pp : S2x2000000.Idx → BitVec 32) : S2000896.Idx → BitVec 32 :=
  concatenate S2000896 0
    [⟨S2000000, shapeCast S2000000 (extractStridedSlice S1x2000000 ![r, 0] pp hs) Facts₀.shapeCasts_S1x2000000_S2000000⟩,
     ⟨S896, broadcastInDim S896 ![] Facts₀.bcast_S_S896 (constantI S_ 32 0#32)⟩] Facts₀.concatenates_S2000000_S896_S2000896_d0

/-- A vector of index words normalised and laid as an index column. -/
def indexColumn (v : S2000896.Idx → BitVec 32) : S2000896x1.Idx → BitVec 32 :=
  broadcastInDim S2000896x1 ![0] Facts₀.bcast_S2000896_S2000896x1_0
    (select (cmpi .slt v (broadcastInDim S2000896 ![] Facts₀.bcast_S_S2000896 (constantI S_ 32 0#32)))
      (addi v (broadcastInDim S2000896 ![] Facts₀.bcast_S_S2000896 (constantI S_ 32 200000#32))) v)

/-- The feature rows gathered for row `r` of the pairs. -/
def rowsStage (r : ℕ) (hs : S2x2000000.Slices ![r, 0] S1x2000000) (x : S200000x24.Idx → EReal) (pp : S2x2000000.Idx → BitVec 32) :
    S2000896x24.Idx → EReal :=
  Host.gather gather_S200000x24_S2000896x1_S2000896x24_1_0_n_n_0_1_124 x (indexColumn (padRow r hs pp))

/-- The cluster labels gathered for row `r` of the pairs, as a column. -/
def labelStage (r : ℕ) (hs : S2x2000000.Slices ![r, 0] S1x2000000) (cid : S200000.Idx → BitVec 32) (pp : S2x2000000.Idx → BitVec 32) :
    S2000896x1.Idx → BitVec 32 :=
  shapeCast S2000896x1 (Host.gather gather_S200000_S2000896x1_S2000896_n_0_n_n_0_1_1 cid (indexColumn (padRow r hs pp)))
    Facts₀.shapeCasts_S2000896_S2000896x1

/-- The validity column: the word of one on the genuine pairs, the word of zero on the padding. -/
def validStage : S2000896x1.Idx → EReal :=
  shapeCast S2000896x1
    (concatenate S2000896 0
      [⟨S2000000, broadcastInDim S2000000 ![] Facts₀.bcast_S_S2000000 (constant (F := Ideal) S_ .f32 0x3F800000#32)⟩,
       ⟨S896, broadcastInDim S896 ![] Facts₀.bcast_S_S896 (constant (F := Ideal) S_ .f32 0x00000000#32)⟩]
      Facts₀.concatenates_S2000000_S896_S2000896_d0)
    Facts₀.shapeCasts_S2000896_S2000896x1

/-- Entry `q` of a padded row: the pairs' word below 2000000, the word 0 from there on. -/
theorem padRow_apply (r : Fin 2) (hs : S2x2000000.Slices ![r.val, 0] S1x2000000) (pp : S2x2000000.Idx → BitVec 32) (q : Fin 2000896) :
    padRow r.val hs pp (ix1 q) = if h : q.val < 2000000 then pp (ix2 r ⟨q.val, h⟩) else 0#32 := by
  unfold padRow
  rw [pad_apply]
  split
  · exact rowVector_apply r pp hs _ _
  · rw [broadcastInDim_scalar_apply]; rfl

theorem padRow_anchor (hs : S2x2000000.Slices ![0, 0] S1x2000000) (pp : S2x2000000.Idx → BitVec 32) (q : Fin 2000896) :
    padRow 0 hs pp (ix1 q) = anchorWord pp q := (padRow_apply 0 hs pp q).trans rfl

theorem padRow_partner (hs : S2x2000000.Slices ![1, 0] S1x2000000) (pp : S2x2000000.Idx → BitVec 32) (q : Fin 2000896) :
    padRow 1 hs pp (ix1 q) = partnerWord pp q := (padRow_apply 1 hs pp q).trans rfl

/-- Entry `q` of the index column: the vector's word there, normalised. -/
theorem indexColumn_apply (v : S2000896.Idx → BitVec 32) (q : Fin 2000896) : indexColumn v (ix2 q 0) = wrapWord (v (ix1 q)) := by
  unfold indexColumn
  rw [Cert.Broadcasts.column_apply, wrap_apply]

/-- The gathered feature rows at `(q, d)`: the points' row that the padded word of `q` names, at column `d`. -/
theorem rowsStage_apply (r : ℕ) (hs : S2x2000000.Slices ![r, 0] S1x2000000) (x : S200000x24.Idx → EReal) (pp : S2x2000000.Idx → BitVec 32)
    (q : Fin 2000896) (d : Fin 24) :
    rowsStage r hs x pp (ix2 q d) = x (ix2 (gatherRow (padRow r hs pp (ix1 q))) d) := by
  unfold rowsStage
  rw [gatherRows_apply, rowOf_wrap _ q _ (indexColumn_apply _ q)]

/-- The gathered label column at `(q, 0)`: the label of the point that the padded word of `q` names. -/
theorem labelStage_apply (r : ℕ) (hs : S2x2000000.Slices ![r, 0] S1x2000000) (cid : S200000.Idx → BitVec 32) (pp : S2x2000000.Idx → BitVec 32)
    (q : Fin 2000896) :
    labelStage r hs cid pp (ix2 q 0) = labelAt cid (padRow r hs pp (ix1 q)) := by
  unfold labelStage labelAt
  rw [Cert.GraphConv.Column.shapeCast_a_a1_apply, gatherVec_apply, rowOf_wrap _ q _ (indexColumn_apply _ q)]

/-- The validity column at `(q, 0)`: one on a genuine pair, zero on padding. -/
theorem validStage_apply (q : Fin 2000896) : validStage (ix2 q 0) = if q.val < 2000000 then (1 : EReal) else 0 := by
  unfold validStage
  rw [Cert.GraphConv.Column.shapeCast_a_a1_apply, pad_apply]
  split
  · rw [broadcastInDim_scalar_apply, constant_apply, Ideal.ofBits_one_f32]
  · rw [broadcastInDim_scalar_apply, constant_apply, Ideal.ofBits_zero_f32]

end Cert.KernelIdeal.HostValue

end
-- ==== Proof.KI.Host0.lean ====
/-
  The first host stretch of the kernel program, read at an index: what each array the first pallas_call reads (and
  the padded anchor words the second stretch reads again) holds after the stretch, for arbitrary contents `W` of the
  buffers when the stretch starts, in terms of the three argument arrays — the points `x`, the pairs `pp` and the
  cluster labels `cid`.  Each array is first identified with its stage (a composition of the stretch's
  operations over the arguments), then the stage is read at an index.
-/
import proofs.«102367_j55516747268533_2_alg».proof.Proof.KI.HostStages
import proofs.«102367_j55516747268533_2_alg».proof.Proof.Gen.KernelIdeal.Regions

noncomputable section

namespace Cert.KernelIdeal.HostValue

open Cert.KernelIdeal Cert.KernelIdeal.Gen Cert.PairLoss
open Idealize.ShloMosaic Idealize.ShloMosaic.TcCoe Idealize.ShloMosaic.ValueIdx Idealize.ShloMosaic.StableHlo

variable (W : Valuation τ sig (Elt Ideal))

/-! ## The arrays as stages -/

theorem v5_eq :
    (StableHlo.after (hostOps0 (F := Ideal)) W (Proc.devRef .tc main_v5) : S2000896.Idx → BitVec 32)
      = padRow 0 Facts₀.slices_S2x2000000_S1x2000000_0_0 (W (Proc.devRef .tc main_arg1)) := by
  dsimp only [hostOps0]; after_results_simp; rfl

theorem v16_eq :
    (StableHlo.after (hostOps0 (F := Ideal)) W (Proc.devRef .tc main_v16) : S2000896x24.Idx → EReal)
      = rowsStage 0 Facts₀.slices_S2x2000000_S1x2000000_0_0 (W (Proc.devRef .tc main_arg0)) (W (Proc.devRef .tc main_arg1)) := by
  dsimp only [hostOps0]; after_results_simp; rfl

theorem v23_eq :
    (StableHlo.after (hostOps0 (F := Ideal)) W (Proc.devRef .tc main_v23) : S2000896x24.Idx → EReal)
      = rowsStage 1 Facts₀.slices_S2x2000000_S1x2000000_1_0 (W (Proc.devRef .tc main_arg0)) (W (Proc.devRef .tc main_arg1)) := by
  dsimp only [hostOps0]; after_results_simp; rfl

theorem v31_eq :
    (StableHlo.after (hostOps0 (F := Ideal)) W (Proc.devRef .tc main_v31) : S2000896x1.Idx → BitVec 32)
      = labelStage 0 Facts₀.slices_S2x2000000_S1x2000000_0_0 (W (Proc.devRef .tc main_arg2)) (W (Proc.devRef .tc main_arg1)) := by
  dsimp only [hostOps0]; after_results_simp; rfl

theorem v39_eq :
    (StableHlo.after (hostOps0 (F := Ideal)) W (Proc.devRef .tc main_v39) : S2000896x1.Idx → BitVec 32)
      = labelStage 1 Facts₀.slices_S2x2000000_S1x2000000_1_0 (W (Proc.devRef .tc main_arg2)) (W (Proc.devRef .tc main_arg1)) := by
  dsimp only [hostOps0]; after_results_simp; rfl

theorem v40_eq :
    (StableHlo.after (hostOps0 (F := Ideal)) W (Proc.devRef .tc main_v40) : S2000896x1.Idx → EReal) = validStage := by
  dsimp only [hostOps0]; after_results_simp; rfl

/-! ## The arrays at an index

`x := W main_arg0` are the points' feature rows, `pp := W main_arg1` the pairs, `cid := W main_arg2` the cluster labels. -/

/-- The anchors' feature rows: entry `(q, d)` is the row of the point pair `q`'s anchor word names, at column `d`. -/
theorem host0_xa (q : Fin 2000896) (d : Fin 24) :
    (StableHlo.after (hostOps0 (F := Ideal)) W (Proc.devRef .tc main_v16) : S2000896x24.Idx → EReal) (ix2 q d)
      = (W (Proc.devRef .tc main_arg0) : Points) (ix2 (gatherRow (anchorWord (W (Proc.devRef .tc main_arg1) : Pairs) q)) d) :=
  (congrFun (v16_eq W) (ix2 q d)).trans <| (rowsStage_apply 0 _ _ _ q d).trans <|
    congrArg (fun i => (W (Proc.devRef .tc main_arg0) : Points) (ix2 (gatherRow i) d)) (padRow_anchor _ _ q)

/-- The partners' feature rows. -/
theorem host0_xb (q : Fin 2000896) (d : Fin 24) :
    (StableHlo.after (hostOps0 (F := Ideal)) W (Proc.devRef .tc main_v23) : S2000896x24.Idx → EReal) (ix2 q d)
      = (W (Proc.devRef .tc main_arg0) : Points) (ix2 (gatherRow (partnerWord (W (Proc.devRef .tc main_arg1) : Pairs) q)) d) :=
  (congrFun (v23_eq W) (ix2 q d)).trans <| (rowsStage_apply 1 _ _ _ q d).trans <|
    congrArg (fun i => (W (Proc.devRef .tc main_arg0) : Points) (ix2 (gatherRow i) d)) (padRow_partner _ _ q)

/-- The anchors' cluster labels, as a column. -/
theorem host0_ca (q : Fin 2000896) :
    (StableHlo.after (hostOps0 (F := Ideal)) W (Proc.devRef .tc main_v31) : S2000896x1.Idx → BitVec 32) (ix2 q 0)
      = labelAt (W (Proc.devRef .tc main_arg2) : Labels) (anchorWord (W (Proc.devRef .tc main_arg1) : Pairs) q) :=
  (congrFun (v31_eq W) (ix2 q 0)).trans <| (labelStage_apply 0 _ _ _ q).trans <|
    congrArg (labelAt (W (Proc.devRef .tc main_arg2) : Labels)) (padRow_anchor _ _ q)

/-- The partners' cluster labels, as a column. -/
theorem host0_cb (q : Fin 2000896) :
    (StableHlo.after (hostOps0 (F := Ideal)) W (Proc.devRef .tc main_v39) : S2000896x1.Idx → BitVec 32) (ix2 q 0)
      = labelAt (W (Proc.devRef .tc main_arg2) : Labels) (partnerWord (W (Proc.devRef .tc main_arg1) : Pairs) q) :=
  (congrFun (v39_eq W) (ix2 q 0)).trans <| (labelStage_apply 1 _ _ _ q).trans <|
    congrArg (labelAt (W (Proc.devRef .tc main_arg2) : Labels)) (padRow_partner _ _ q)

/-- The validity column: one on the genuine pairs, zero on the padding. -/
theorem host0_valid (q : Fin 2000896) :
    (StableHlo.after (hostOps0 (F := Ideal)) W (Proc.devRef .tc main_v40) : S2000896x1.Idx → EReal) (ix2 q 0)
      = if q.val < 2000000 then (1 : EReal) else 0 :=
  (congrFun (v40_eq W) (ix2 q 0)).trans (validStage_apply q)

/-- The padded anchor words (the second stretch reads them again). -/
theorem host0_apad (q : Fin 2000896) :
    (StableHlo.after (hostOps0 (F := Ideal)) W (Proc.devRef .tc main_v5) : S2000896.Idx → BitVec 32) (ix1 q)
      = anchorWord (W (Proc.devRef .tc main_arg1) : Pairs) q :=
  (congrFun (v5_eq W) (ix1 q)).trans (padRow_anchor _ _ q)

/-- The stretch writes none of @main's arguments. -/
theorem host0_keeps_arg0 : StableHlo.after (hostOps0 (F := Ideal)) W (Proc.devRef .tc main_arg0) = W (Proc.devRef .tc main_arg0) :=
  StableHlo.after_of_writes_sub hostOps0 W hostOps0_writes (by decide)

theorem host0_keeps_arg1 : StableHlo.after (hostOps0 (F := Ideal)) W (Proc.devRef .tc main_arg1) = W (Proc.devRef .tc main_arg1) :=
  StableHlo.after_of_writes_sub hostOps0 W hostOps0_writes (by decide)

theorem host0_keeps_arg2 : StableHlo.after (hostOps0 (F := Ideal)) W (Proc.devRef .tc main_arg2) = W (Proc.devRef .tc main_arg2) :=
  StableHlo.after_of_writes_sub hostOps0 W hostOps0_writes (by decide)

theorem host0_keeps_arg3 : StableHlo.after (hostOps0 (F := Ideal)) W (Proc.devRef .tc main_arg3) = W (Proc.devRef .tc main_arg3) :=
  StableHlo.after_of_writes_sub hostOps0 W hostOps0_writes (by decide)

theorem host0_keeps_arg4 : StableHlo.after (hostOps0 (F := Ideal)) W (Proc.devRef .tc main_arg4) = W (Proc.devRef .tc main_arg4) :=
  StableHlo.after_of_writes_sub hostOps0 W hostOps0_writes (by decide)

end Cert.KernelIdeal.HostValue

end
-- ==== Proof.LibRealLaw.lean ====
/-
  Extended reals that are real numbers.

  An extended real is a real number when it is neither infinity.  Products and finite sums of real numbers are real
  numbers; the maximum of a real number and one is a real number that is not zero, and the ideal quotient of a real
  number by such a maximum is a real number; the coercion of a finite sum of reals is the sum of the coercions.
  On the extended reals a factor moves across a sum only when no term is infinite: for real entries
  `∑ k, (u k * a) * r k = a * ∑ k, u k * r k`, the ring identity in `ℝ`.
-/
import Idealize.ShloMosaic.PureOps.Ideal
import Idealize.ShloMosaic.PureOps.Ideal.Laws

noncomputable section

namespace Cert.Scores

open Idealize.ShloMosaic

/-- The extended real `x` is a real number (neither infinity). -/
def IsReal (x : EReal) : Prop := ∃ r : ℝ, x = (r : EReal)

theorem isReal_coe (r : ℝ) : IsReal (r : EReal) := ⟨r, rfl⟩

theorem isReal_zero : IsReal 0 := ⟨0, rfl⟩

theorem isReal_one : IsReal 1 := ⟨1, rfl⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

/-- The coercion of a finite sum of reals is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type} (s : Finset ι) {f : ι → EReal} (h : ∀ i, IsReal (f i)) : IsReal (∑ i ∈ s, f i) := by
  choose g hg using h
  exact ⟨∑ i ∈ s, g i, by rw [coe_sum]; exact Finset.sum_congr rfl fun i _ => hg i⟩

/-- The maximum of a real number and one is a real number that is not zero. -/
theorem max_one_eq (s : ℝ) : max (s : EReal) 1 = ((max s 1 : ℝ) : EReal) := by
  have h := (EReal.coe_strictMono.monotone).map_max (a := s) (b := (1 : ℝ))
  rw [h]; rfl

/-- The ideal quotient of a real number by the maximum of a real number and one is a real number: the divisor is
    a real number at least one, so it is not zero and the quotient is the product with its reciprocal. -/
theorem IsReal.div_max_one {x s : EReal} (hx : IsReal x) (hs : IsReal s) : IsReal (Ideal.div x (max s 1)) := by
  obtain ⟨s', rfl⟩ := hs
  rw [max_one_eq, Ideal.div_coe (ne_of_gt (lt_of_lt_of_le one_pos (le_max_right s' 1)))]
  exact hx.mul (isReal_coe _)

/-- For real entries, scaling the first factor of every product by `a` scales the sum of products by `a`. -/
theorem scaled_inner {n : Nat} (u r : Fin n → EReal) (a : EReal)
    (hu : ∀ k, IsReal (u k)) (hr : ∀ k, IsReal (r k)) (ha : IsReal a) :
    ∑ k : Fin n, (u k * a) * r k = a * ∑ k : Fin n, u k * r k := by
  choose u' hu' using hu
  choose r' hr' using hr
  obtain ⟨a', rfl⟩ := ha
  have hl : ∀ k : Fin n, (u k * (a' : EReal)) * r k = ((u' k * a' * r' k : ℝ) : EReal) := fun k => by
    rw [hu' k, hr' k, EReal.coe_mul, EReal.coe_mul]
  have hr2 : ∀ k : Fin n, u k * r k = ((u' k * r' k : ℝ) : EReal) := fun k => by
    rw [hu' k, hr' k, EReal.coe_mul]
  rw [Finset.sum_congr rfl fun k _ => hl k, Finset.sum_congr rfl fun k _ => hr2 k, ← coe_sum, ← coe_sum,
    ← EReal.coe_mul, Finset.mul_sum]
  exact congrArg _ (Finset.sum_congr rfl fun k _ => by ring)

end Cert.Scores

end
-- ==== Proof.LibSoftmaxRowSum.lean ====
/-
  One row of a softmax over real scores sums to one.

  Take `n > 0` scores `v k` that are real numbers and any real number `M` (in use `M` is the row's
  maximum; the argument uses only that it is real).  Each `e k = exp (v k - M)` is then a positive real, their
  sum `S` is a positive real, each quotient `e k / S` is the real `e k / S`, and in the reals
  `∑ k, e k / S = (∑ k, e k) / S = S / S = 1`.

  The file also has the facts that feed this: the maximum of finitely many reals folded from `-∞` is a real
  when there is at least one of them, two float patterns as extended reals, and the quotient of a real
  by a nonzero real.
-/
import Idealize.ShloMosaic.PureOps.Ideal
import Idealize.ShloMosaic.PureOps.Ideal.Laws
import proofs.«102367_j55516747268533_2_alg».proof.Proof.LibRealLaw

noncomputable section

open scoped BigOperators

namespace Cert.RefValue

open Idealize.ShloMosaic Cert.Scores

/-! ## Constants -/

/-- The pattern `0xFF800000` is `-∞`. -/
theorem ofBits_neg_inf : Ideal.ofBits .f32 0xFF800000#32 = ⊥ := by simp [Ideal.ofBits, Ideal.ieee]

/-- The pattern `0x42800000` is the real `64`. -/
theorem ofBits_64 : Ideal.ofBits .f32 0x42800000#32 = ((64 : ℝ) : EReal) := by
  simp [Ideal.ofBits, Ideal.ieee, -EReal.coe_mul]; norm_num

/-- The square root of `64` is a real number that is not zero. -/
theorem sqrt_64 : Ideal.sqrt (Ideal.ofBits .f32 0x42800000#32) = ((Real.sqrt 64 : ℝ) : EReal) := by
  rw [ofBits_64, Ideal.sqrt_coe, if_neg (by norm_num)]

theorem sqrt_64_ne_zero : Real.sqrt 64 ≠ 0 := ne_of_gt (Real.sqrt_pos.mpr (by norm_num))

/-! ## Reals under the operations of a softmax row -/

/-- The ideal quotient of a real by a nonzero real is a real. -/
theorem isReal_div_coe {x : EReal} (hx : IsReal x) {y : ℝ} (hy : y ≠ 0) : IsReal (Ideal.div x (y : EReal)) := by
  rw [Ideal.div_coe hy]
  exact hx.mul (isReal_coe _)

/-- The maximum of two reals is a real. -/
theorem isReal_max {x y : EReal} (hx : IsReal x) (hy : IsReal y) : IsReal (max x y) := by
  rcases max_choice x y with h | h <;> rw [h] <;> assumption

/-- The maximum of a nonempty finite family of reals, folded from `-∞`, is a real. -/
theorem isReal_fold_max {ι : Type} [DecidableEq ι] (v : ι → EReal) (hv : ∀ k, IsReal (v k)) (s : Finset ι)
    (hs : s.Nonempty) : IsReal (s.fold max ⊥ v) := by
  induction s using Finset.induction_on with
  | empty => exact absurd hs (by simp)
  | insert a s ha ih =>
    rw [Finset.fold_insert ha]
    rcases s.eq_empty_or_nonempty with h | h
    · rw [h, Finset.fold_empty, max_bot_right]; exact hv a
    · exact isReal_max (hv a) (ih h)

/-- A softmax row over real scores sums to one, with the additions from zero that the sums carry. -/
theorem softmax_row_sum_one {n : Nat} (hn : 0 < n) (v : Fin n → EReal) (hv : ∀ k, IsReal (v k)) (M : EReal)
    (hM : IsReal M) :
    (0 : EReal) + ∑ k : Fin n, Ideal.div (Ideal.exp (v k - M)) (0 + ∑ j : Fin n, Ideal.exp (v j - M)) = 1 := by
  choose a ha using hv
  obtain ⟨m, rfl⟩ := hM
  haveI : Nonempty (Fin n) := ⟨⟨0, hn⟩⟩
  -- every exponential is the positive real `exp (a k - m)`
  have he : ∀ k : Fin n, Ideal.exp (v k - (m : EReal)) = ((Real.exp (a k - m) : ℝ) : EReal) := fun k => by
    rw [ha k, ← EReal.coe_sub, Ideal.exp_coe]
  -- their sum is a positive real
  have hS : (0 : EReal) + ∑ j : Fin n, Ideal.exp (v j - (m : EReal)) = ((∑ j : Fin n, Real.exp (a j - m) : ℝ) : EReal) := by
    rw [zero_add, coe_sum]; exact Finset.sum_congr rfl fun j _ => he j
  have hpos : 0 < ∑ j : Fin n, Real.exp (a j - m) := Finset.sum_pos (fun j _ => Real.exp_pos _) Finset.univ_nonempty
  rw [hS, zero_add]
  have hq : ∀ k : Fin n, Ideal.div (Ideal.exp (v k - (m : EReal))) ((∑ j : Fin n, Real.exp (a j - m) : ℝ) : EReal)
      = ((Real.exp (a k - m) / ∑ j : Fin n, Real.exp (a j - m) : ℝ) : EReal) := fun k => by
    rw [he k, Ideal.div_coe (ne_of_gt hpos), ← EReal.coe_mul, mul_one_div]
  rw [Finset.sum_congr rfl fun k _ => hq k, ← coe_sum, ← Finset.sum_div, div_self (ne_of_gt hpos)]
  rfl

end Cert.RefValue

end
-- ==== Proof.PairLossLaw.lean ====
/-
  The algebra that joins the two programs, over the extended reals.

  A batch of `Q` pairs, of which the first `P` are genuine and the rest padding.  Pair `q` has a real similarity
  `s q ∈ (0, 1]`, a positive/negative flag `pos q`, an anchor row it gathers from (`row q`) and a set of anchor rows its
  contribution lands on (`lands q n`, at most one row; none when its index is out of range).

  The reference scales a similarity by dividing by `D₀`, subtracts the GLOBAL maximum of the scaled similarities before
  exponentiating, sums the negatives' exponentials per anchor row, and averages `-log (e / (e + denom))` over the
  positive pairs.  The kernel multiplies by the constant `1 / D₀`, subtracts that SAME constant before exponentiating
  (an upper bound of every scaled similarity, since `s ≤ 1`), masks the padding with a 0/1 factor, and otherwise does
  the same.  The two exponentials differ by the positive factor `exp (M - 1 / D₀)`, which multiplies numerator and
  denominator of every ratio alike, so every ratio — and with it each loss term — is the same real number; padded pairs
  contribute `0` to every sum.
-/
import Idealize.ShloMosaic.PureOps.Ideal
import Idealize.ShloMosaic.PureOps.Ideal.Laws
import proofs.«102367_j55516747268533_2_alg».proof.Proof.LibRealLaw
import proofs.«102367_j55516747268533_2_alg».proof.Proof.LibSoftmaxRowSum

noncomputable section

namespace Cert.PairLoss

open Idealize.ShloMosaic

variable {P Q N : ℕ} (hPQ : P ≤ Q) (D₀ : ℝ)
  (s : Fin Q → ℝ) (pos : Fin Q → Bool) (lands : Fin Q → Fin N → Bool) (row : Fin Q → Fin N)

/-! ## The reference's quantities, over the genuine pairs -/

/-- A genuine pair as a pair of the padded batch. -/
abbrev genuine (p : Fin P) : Fin Q := Fin.castLE hPQ p

/-- The scaled similarity: the quotient by `D₀`. -/
def refLogit (p : Fin P) : EReal := Ideal.div ((s (genuine hPQ p) : ℝ) : EReal) ((D₀ : ℝ) : EReal)

/-- The global maximum of the scaled similarities, folded from `-∞`. -/
def refShift : EReal := (Finset.univ : Finset (Fin P)).fold max ⊥ (refLogit hPQ D₀ s)

/-- The shifted exponential. -/
def refExp (p : Fin P) : EReal := Ideal.exp (refLogit hPQ D₀ s p - refShift hPQ D₀ s)

/-- A negative pair's exponential, a positive pair's `0`. -/
def refNeg (p : Fin P) : EReal := if pos (genuine hPQ p) then 0 else refExp hPQ D₀ s p

/-- The negatives' exponentials summed per anchor row. -/
def refDenom (n : Fin N) : EReal := 0 + ∑ p : Fin P, if lands (genuine hPQ p) n then refNeg hPQ D₀ s pos p else 0

/-- The loss term of a pair. -/
def refLoss (p : Fin P) : EReal :=
  -(Ideal.log (Ideal.div (refExp hPQ D₀ s p)
      (refExp hPQ D₀ s p + max (refDenom hPQ D₀ s pos lands (row (genuine hPQ p))) 0)))

/-- The positive-pair indicator. -/
def refPos (p : Fin P) : EReal := if pos (genuine hPQ p) then 1 else 0

/-- The sum of the positive pairs' losses, and their number. -/
def refNum : EReal := ∑ p : Fin P, refLoss hPQ D₀ s pos lands row p * refPos hPQ pos p
def refCnt : EReal := ∑ p : Fin P, refPos hPQ pos p

/-! ## The kernel's quantities, over the padded batch -/

/-- The exponential shifted by the constant `1 / D₀`. -/
def kerExp (q : Fin Q) : EReal :=
  Ideal.exp (((s q : ℝ) : EReal) * ((1 / D₀ : ℝ) : EReal) - ((1 / D₀ : ℝ) : EReal))

/-- `1` on a genuine pair, `0` on padding. -/
def kerValid (q : Fin Q) : EReal := if q.val < P then 1 else 0

/-- A genuine negative pair's exponential; `0` on positives and on padding. -/
def kerNeg (q : Fin Q) : EReal := kerExp D₀ s q * (if pos q then 0 else 1) * kerValid (P := P) q

/-- The positive-pair indicator, `0` on padding. -/
def kerPos (q : Fin Q) : EReal := if pos q then kerValid (P := P) q else 0

def kerDenom (n : Fin N) : EReal := 0 + ∑ q : Fin Q, if lands q n then kerNeg (P := P) D₀ s pos q else 0

def kerLoss (q : Fin Q) : EReal :=
  (0 - Ideal.log (Ideal.div (kerExp D₀ s q) (kerExp D₀ s q + max (kerDenom (P := P) D₀ s pos lands (row q)) 0)))
    * kerPos (P := P) pos q

def kerNum : EReal := ∑ q : Fin Q, kerLoss (P := P) D₀ s pos lands row q
def kerCnt : EReal := ∑ q : Fin Q, kerPos (P := P) pos q

/-! ## Padding contributes nothing to a sum -/

/-- A sum over the padded batch of a function that vanishes on the padding is the sum over the genuine pairs. -/
theorem sum_genuine {M : Type} [AddCommMonoid M] (f : Fin Q → M) (h : ∀ q : Fin Q, ¬ q.val < P → f q = 0) :
    ∑ q : Fin Q, f q = ∑ p : Fin P, f (genuine hPQ p) := by
  have hmap : ∑ p : Fin P, f (genuine hPQ p) = ∑ q ∈ (Finset.univ : Finset (Fin P)).map (Fin.castLEEmb hPQ), f q := by
    rw [Finset.sum_map]; rfl
  rw [hmap]
  symm
  apply Finset.sum_subset (Finset.subset_univ _)
  intro q _ hq
  apply h
  intro hlt
  apply hq
  rw [Finset.mem_map]
  exact ⟨⟨q.val, hlt⟩, Finset.mem_univ _, Fin.ext rfl⟩

theorem genuine_val_lt (p : Fin P) : (genuine hPQ p).val < P := by
  simp [genuine]

/-! ## Each quantity is a real number -/

open Cert.Scores

/-- The quotient by the nonzero real `D₀` is the product with its reciprocal. -/
theorem refLogit_eq (hD : D₀ ≠ 0) (p : Fin P) :
    refLogit hPQ D₀ s p = ((s (genuine hPQ p) * (1 / D₀) : ℝ) : EReal) := by
  unfold refLogit
  rw [Ideal.div_coe hD, ← EReal.coe_mul]

/-- With at least one genuine pair the global maximum is a real number. -/
theorem refShift_real (hP : 0 < P) (hD : D₀ ≠ 0) : ∃ m : ℝ, refShift hPQ D₀ s = (m : EReal) := by
  unfold refShift
  exact Cert.RefValue.isReal_fold_max _ (fun p => ⟨_, refLogit_eq hPQ D₀ s hD p⟩) _ ⟨⟨0, hP⟩, Finset.mem_univ _⟩

/-- The reference's exponential is the real `exp (s / D₀ - m)`. -/
theorem refExp_eq (hD : D₀ ≠ 0) {m : ℝ} (hm : refShift hPQ D₀ s = (m : EReal)) (p : Fin P) :
    refExp hPQ D₀ s p = ((Real.exp (s (genuine hPQ p) * (1 / D₀) - m) : ℝ) : EReal) := by
  unfold refExp
  rw [refLogit_eq hPQ D₀ s hD, hm, ← EReal.coe_sub, Ideal.exp_coe]

/-- The kernel's exponential is the real `exp (s / D₀ - 1 / D₀)`. -/
theorem kerExp_eq (q : Fin Q) :
    kerExp D₀ s q = ((Real.exp (s q * (1 / D₀) - 1 / D₀) : ℝ) : EReal) := by
  unfold kerExp
  rw [← EReal.coe_mul, ← EReal.coe_sub, Ideal.exp_coe]

/-- Changing the shift from `m` to `c` multiplies the exponential by `exp (m - c)`. -/
theorem exp_shift (x m c : ℝ) : Real.exp (x - c) = Real.exp (m - c) * Real.exp (x - m) := by
  rw [← Real.exp_add]; congr 1; ring

/-- The reference's per-row sum of the negatives' exponentials, as a real number. -/
def denomR (m : ℝ) (n : Fin N) : ℝ :=
  ∑ p : Fin P, if lands (genuine hPQ p) n then
    (if pos (genuine hPQ p) then 0 else Real.exp (s (genuine hPQ p) * (1 / D₀) - m)) else 0

theorem denomR_nonneg (m : ℝ) (n : Fin N) : 0 ≤ denomR hPQ D₀ s pos lands m n := by
  unfold denomR
  refine Finset.sum_nonneg fun p _ => ?_
  split_ifs
  · exact le_rfl
  · exact (Real.exp_pos _).le
  · exact le_rfl

theorem refDenom_eq (hD : D₀ ≠ 0) {m : ℝ} (hm : refShift hPQ D₀ s = (m : EReal)) (n : Fin N) :
    refDenom hPQ D₀ s pos lands n = ((denomR hPQ D₀ s pos lands m n : ℝ) : EReal) := by
  unfold refDenom denomR
  rw [zero_add, coe_sum]
  refine Finset.sum_congr rfl fun p _ => ?_
  unfold refNeg
  rw [refExp_eq hPQ D₀ s hD hm]
  split_ifs <;> rfl

/-- The kernel's per-row sum is the reference's times the common factor: the padding contributes `0`. -/
theorem kerDenom_eq {m : ℝ} (n : Fin N) :
    kerDenom (P := P) D₀ s pos lands n
      = ((Real.exp (m - 1 / D₀) * denomR hPQ D₀ s pos lands m n : ℝ) : EReal) := by
  have hpad : ∀ q : Fin Q, ¬ q.val < P → (if lands q n then kerNeg (P := P) D₀ s pos q else 0) = 0 := fun q hq => by
    simp only [kerNeg, kerValid, if_neg hq, mul_zero, ite_self]
  unfold kerDenom
  rw [zero_add, sum_genuine hPQ _ hpad]
  unfold denomR
  rw [Finset.mul_sum, coe_sum]
  refine Finset.sum_congr rfl fun p _ => ?_
  simp only [kerNeg, kerValid, if_pos (genuine_val_lt hPQ p), mul_one]
  rw [kerExp_eq, exp_shift _ m]
  split_ifs <;> simp

/-! ## One loss term -/

/-- For reals `e > 0` and `d ≥ 0` the logarithm of the ideal quotient `e / (e + max d 0)` is the real logarithm of
    the real quotient: the divisor `e + d` is a positive real and so is the quotient. -/
theorem log_ratio {e d : ℝ} (he : 0 < e) (hd : 0 ≤ d) :
    Ideal.log (Ideal.div (e : EReal) ((e : EReal) + max (d : EReal) 0))
      = ((Real.log (e * (1 / (e + d))) : ℝ) : EReal) := by
  have hpos : 0 < e + d := by linarith
  rw [max_eq_left (by exact_mod_cast hd : (0 : EReal) ≤ (d : EReal)), ← EReal.coe_add, Ideal.div_coe (ne_of_gt hpos),
    ← EReal.coe_mul, Ideal.log_coe, if_neg (not_le.mpr (mul_pos he (one_div_pos.mpr hpos)))]

/-- A common positive factor of numerator and denominator leaves the ratio alone. -/
theorem ratio_scale {K e d : ℝ} (hK : 0 < K) (he : 0 < e) (hd : 0 ≤ d) :
    K * e * (1 / (K * e + K * d)) = e * (1 / (e + d)) := by
  have h1 : e + d ≠ 0 := ne_of_gt (by linarith)
  have h2 : K * e + K * d ≠ 0 := by
    rw [← mul_add]; exact mul_ne_zero (ne_of_gt hK) h1
  field_simp

/-! ## The two agree -/

/-- The positive pairs' count: padding contributes nothing. -/
theorem kerCnt_eq : kerCnt (P := P) pos = refCnt hPQ pos := by
  unfold kerCnt refCnt
  rw [sum_genuine hPQ (fun q => kerPos (P := P) pos q)
    (fun q hq => by simp only [kerPos, kerValid, if_neg hq, ite_self])]
  refine Finset.sum_congr rfl fun p _ => ?_
  simp only [kerPos, kerValid, refPos, if_pos (genuine_val_lt hPQ p)]

/-- The summed losses agree: every ratio is invariant under the common positive factor between the two exponentials. -/
theorem kerNum_eq (hP : 0 < P) (hD : 0 < D₀) :
    kerNum (P := P) D₀ s pos lands row = refNum hPQ D₀ s pos lands row := by
  have hD' : D₀ ≠ 0 := ne_of_gt hD
  obtain ⟨m, hm⟩ := refShift_real hPQ D₀ s hP hD'
  have hpad : ∀ q : Fin Q, ¬ q.val < P → kerLoss (P := P) D₀ s pos lands row q = 0 := fun q hq => by
    simp only [kerLoss, kerPos, kerValid, if_neg hq, ite_self, mul_zero]
  unfold kerNum refNum
  rw [sum_genuine hPQ _ hpad]
  refine Finset.sum_congr rfl fun p _ => ?_
  unfold kerLoss refLoss kerPos refPos kerValid
  rw [if_pos (genuine_val_lt hPQ p)]
  by_cases hp : pos (genuine hPQ p) = true
  · rw [if_pos hp, mul_one, mul_one, kerExp_eq, kerDenom_eq hPQ D₀ s pos lands (m := m),
      refExp_eq hPQ D₀ s hD' hm, refDenom_eq hPQ D₀ s pos lands hD' hm, exp_shift _ m,
      log_ratio (mul_pos (Real.exp_pos _) (Real.exp_pos _))
        (mul_nonneg (Real.exp_pos _).le (denomR_nonneg hPQ D₀ s pos lands m _)),
      log_ratio (Real.exp_pos _) (denomR_nonneg hPQ D₀ s pos lands m _),
      ratio_scale (Real.exp_pos _) (Real.exp_pos _) (denomR_nonneg hPQ D₀ s pos lands m _), zero_sub]
  · rw [if_neg hp, mul_zero, mul_zero]

end Cert.PairLoss

end
-- ==== Proof.KerFormulas.lean ====
/-
  The kernel's per-pair quantities as closed formulas of the argument arrays, and their reading over real feature rows.

  For padded pair `q` the first grid computes, from the two gathered rows, the squared distance `Σ_d (x_a − x_b)²`, its
  root, the similarity `exp (−root · 8/9)`, the scaled and shifted exponential `exp (sim · c − c)` with `c` the reciprocal
  of the reference's scale; from the two gathered labels the positive-pair bit; and from the padding mask the three stored
  columns: the exponential, the exponential of a genuine negative pair (else `0`), and the positive-pair indicator of a
  genuine pair.  The host then sums the second column per anchor row, clips at `0` and gathers the sum back per pair, and
  the second grid sums `−log (e / (e + sum))` over the positive pairs, and counts them.

  When the feature rows are real numbers every one of these is the corresponding quantity of the algebraic law
  (`kerExp`, `kerNeg`, `kerPos`, `kerDenom`, `kerLoss`) at the real similarity `simReal`.
-/
import proofs.«102367_j55516747268533_2_alg».proof.Proof.PairData
import proofs.«102367_j55516747268533_2_alg».proof.Proof.PairLossLaw

noncomputable section

namespace Cert.PairLoss

open Idealize.ShloMosaic Idealize.ShloMosaic.ValueIdx

variable (x : Points) (pp : Pairs) (cid : Labels)

/-- The kernel's scale constant: the reciprocal of the reference's divisor, as the certificate names it. -/
def scaleC : EReal := ((268435456 / 13421773 : ℝ) : EReal)

/-- The squared distance of pair `q`'s two gathered rows. -/
def sqDist (q : Fin 2000896) : EReal :=
  ∑ d : Fin 24, (x (ix2 (gatherRow (anchorWord pp q)) d) - x (ix2 (gatherRow (partnerWord pp q)) d))
    * (x (ix2 (gatherRow (anchorWord pp q)) d) - x (ix2 (gatherRow (partnerWord pp q)) d))

/-- The scaled, shifted exponential of the similarity. -/
def expSim (q : Fin 2000896) : EReal :=
  Ideal.exp (Ideal.exp ((0 - Ideal.sqrt (sqDist x pp q)) * ((8 / 9 : ℝ) : EReal)) * scaleC - scaleC)

/-- The positive-pair bit as the kernel associates it: equal labels, and (neither label is −1). -/
def posBitK (q : Fin 2000896) : BitVec 1 :=
  IntOp.andi (IntOp.cmpi .eq (labelAt cid (anchorWord pp q)) (labelAt cid (partnerWord pp q)))
    (IntOp.andi (IntOp.cmpi .ne (labelAt cid (anchorWord pp q)) 4294967295#32)
      (IntOp.cmpi .ne (labelAt cid (partnerWord pp q)) 4294967295#32))

/-- The padding mask: `1` on a genuine pair. -/
def validF (q : Fin 2000896) : EReal := if q.val < 2000000 then 1 else 0

/-- The second stored column: a genuine negative pair's exponential. -/
def negExp (q : Fin 2000896) : EReal :=
  expSim x pp q * Scalar.select (posBitK pp cid q) (0 : EReal) 1 * validF q

/-- The third stored column: the positive-pair indicator of a genuine pair. -/
def posF (q : Fin 2000896) : EReal := Scalar.select (posBitK pp cid q) (validF q) (0 : EReal)

/-- The negatives' exponentials summed per anchor row. -/
def denomAt (n : Fin 200000) : EReal :=
  0 + ∑ q' : Fin 2000896, if landsOn (anchorWord pp q') n then negExp x pp cid q' else 0

/-- The clipped per-anchor sum gathered back for pair `q`. -/
def denomOf (q : Fin 2000896) : EReal := max (denomAt x pp cid (gatherRow (anchorWord pp q))) 0

/-- Pair `q`'s masked loss term. -/
def lossTerm (q : Fin 2000896) : EReal :=
  (0 - Ideal.log (Ideal.div (expSim x pp q) (expSim x pp q + denomOf x pp cid q))) * posF pp cid q

/-! ## Over real feature rows these are the law's quantities -/

variable (xr : (⟨2, ![200000, 24]⟩ : Shape).Idx → ℝ)

open Cert.Scores in
/-- Over real rows the squared distance is the real sum of squares. -/
theorem sqDist_real (q : Fin 2000896) :
    sqDist (fun j => ((xr j : ℝ) : EReal)) pp q
      = ((∑ d : Fin 24, (xr (ix2 (gatherRow (anchorWord pp q)) d) - xr (ix2 (gatherRow (partnerWord pp q)) d))
          * (xr (ix2 (gatherRow (anchorWord pp q)) d) - xr (ix2 (gatherRow (partnerWord pp q)) d)) : ℝ) : EReal) := by
  unfold sqDist
  rw [coe_sum]
  refine Finset.sum_congr rfl fun d _ => ?_
  rw [EReal.coe_mul, EReal.coe_sub]

/-- The scale constant is the reciprocal of the reference's divisor. -/
theorem scaleC_eq : scaleC = ((1 / tau : ℝ) : EReal) := by
  unfold scaleC tau
  congr 1
  norm_num

/-- The conjunction of words is associative, so the two flags are the same word. -/
theorem posBitK_eq (q : Fin 2000896) : posBitK pp cid q = posBit pp cid q := by
  unfold posBitK posBit IntOp.andi
  exact (BitVec.and_assoc _ _ _).symm

/-- A choice on the kernel's flag is the choice on the positive-pair flag. -/
theorem select_posBitK {α : Type} (a b : α) (q : Fin 2000896) :
    Scalar.select (posBitK pp cid q) a b = if isPos pp cid q then a else b := by
  unfold Scalar.select isPos
  rw [posBitK_eq]
  by_cases h : posBit pp cid q = 1#1
  · have h' : posBit pp cid q = 1 := h
    rw [if_pos h', if_pos (decide_eq_true h)]
  · have h' : ¬ posBit pp cid q = 1 := h
    rw [if_neg h', if_neg (fun hd => h (of_decide_eq_true hd))]

/-- The two associations of the three-way conjunction give the same flag. -/
theorem posBitK_eq_one_iff (q : Fin 2000896) : posBitK pp cid q = 1#1 ↔ posBit pp cid q = 1#1 := by
  rw [posBitK_eq]

theorem expSim_real (q : Fin 2000896) :
    expSim (fun j => ((xr j : ℝ) : EReal)) pp q = kerExp tau (simReal pp xr) q := by
  have hnn : ¬ (∑ d : Fin 24, (xr (ix2 (gatherRow (anchorWord pp q)) d) - xr (ix2 (gatherRow (partnerWord pp q)) d))
      * (xr (ix2 (gatherRow (anchorWord pp q)) d) - xr (ix2 (gatherRow (partnerWord pp q)) d))) < 0 :=
    not_lt.mpr (Finset.sum_nonneg fun d _ => mul_self_nonneg _)
  unfold expSim kerExp
  rw [sqDist_real, Ideal.sqrt_coe, if_neg hnn, zero_sub, ← EReal.coe_neg, ← EReal.coe_mul, Ideal.exp_coe, scaleC_eq]
  rfl

theorem validF_eq (q : Fin 2000896) : validF q = kerValid (P := 2000000) q := rfl

theorem negExp_real (q : Fin 2000896) :
    negExp (fun j => ((xr j : ℝ) : EReal)) pp cid q = kerNeg (P := 2000000) tau (simReal pp xr) (isPos pp cid) q := by
  unfold negExp kerNeg
  rw [expSim_real, select_posBitK, validF_eq]

theorem posF_eq (q : Fin 2000896) : posF pp cid q = kerPos (P := 2000000) (isPos pp cid) q := by
  unfold posF kerPos
  rw [select_posBitK, validF_eq]

theorem denomAt_real (n : Fin 200000) :
    denomAt (fun j => ((xr j : ℝ) : EReal)) pp cid n
      = kerDenom (P := 2000000) tau (simReal pp xr) (isPos pp cid) (anchorLands pp) n := by
  unfold denomAt kerDenom anchorLands
  exact congrArg (fun t : EReal => 0 + t) (Finset.sum_congr rfl fun q' _ => by rw [negExp_real])

theorem lossTerm_real (q : Fin 2000896) :
    lossTerm (fun j => ((xr j : ℝ) : EReal)) pp cid q
      = kerLoss (P := 2000000) tau (simReal pp xr) (isPos pp cid) (anchorLands pp) (anchorRow pp) q := by
  unfold lossTerm denomOf kerLoss
  rw [expSim_real, denomAt_real, posF_eq]
  rfl

/-- The kernel's two totals are the law's. -/
theorem sum_lossTerm_real :
    ∑ q : Fin 2000896, lossTerm (fun j => ((xr j : ℝ) : EReal)) pp cid q
      = kerNum (P := 2000000) tau (simReal pp xr) (isPos pp cid) (anchorLands pp) (anchorRow pp) := by
  unfold kerNum
  exact Finset.sum_congr rfl fun q _ => lossTerm_real pp cid xr q

theorem sum_posF :
    ∑ q : Fin 2000896, posF pp cid q = kerCnt (P := 2000000) (isPos pp cid) := by
  unfold kerCnt
  exact Finset.sum_congr rfl fun q _ => posF_eq pp cid q

end Cert.PairLoss

end
-- ==== Proof.KI.Entry0.lean ====
/-
  The first grid's rows on entry, as closed formulas of the argument arrays.

  The first grid is entered at the buffer contents the first host stretch leaves.  Its five input arrays then hold,
  at pair `q`, the two points' feature rows and cluster labels the pair's (padded) words name and the padding
  mask; so the per-row quantities the grid stores — the scaled, shifted exponential of the similarity, that
  exponential on a genuine negative pair, the positive-pair indicator of a genuine pair — are the closed per-pair
  formulas of the points `x`, the pairs `pp` and the cluster labels `cid`.
-/
import proofs.«102367_j55516747268533_2_alg».proof.Proof.KI.Run
import proofs.«102367_j55516747268533_2_alg».proof.Proof.KI.Arrays0
import proofs.«102367_j55516747268533_2_alg».proof.Proof.KI.Host0
import proofs.«102367_j55516747268533_2_alg».proof.Proof.KerFormulas

set_option maxRecDepth 16384

noncomputable section

namespace Cert.KernelIdeal.ArrayValue

open Idealize.ShloMosaic Idealize.ShloMosaic.TcCoe Idealize.ShloMosaic.ValueIdx Idealize.SL.Sem
open Cert.KernelIdeal Cert.KernelIdeal.Gen Cert.KernelIdeal.PayloadValue Cert.KernelIdeal.HostValue Cert.PairLoss

variable (m : (ℓ : Loc nD τ sig) → Buf (Elt Ideal) ℓ) (c : Dev nD)

/-- The three argument arrays as the launch finds them on device `c`. -/
abbrev xOf : Points := m ((c : Thread nD τ).loc main_arg0)
abbrev ppOf : Pairs := m ((c : Thread nD τ).loc main_arg1)
abbrev cidOf : Cert.PairLoss.Labels := m ((c : Thread nD τ).loc main_arg2)

/-! ## The five input arrays at pair `q` -/

theorem xa_entry (q : Fin 2000896) (d : Fin 24) :
    xa (Hand.U1 (F := Ideal) m) c q d = xOf m c (ix2 (gatherRow (anchorWord (ppOf m c) q)) d) :=
  host0_xa (Hand.W0 (F := Ideal) m c) q d

theorem xb_entry (q : Fin 2000896) (d : Fin 24) :
    xb (Hand.U1 (F := Ideal) m) c q d = xOf m c (ix2 (gatherRow (partnerWord (ppOf m c) q)) d) :=
  host0_xb (Hand.W0 (F := Ideal) m c) q d

theorem ca_entry (q : Fin 2000896) :
    ca (Hand.U1 (F := Ideal) m) c q = labelAt (cidOf m c) (anchorWord (ppOf m c) q) :=
  host0_ca (Hand.W0 (F := Ideal) m c) q

theorem cb_entry (q : Fin 2000896) :
    cb (Hand.U1 (F := Ideal) m) c q = labelAt (cidOf m c) (partnerWord (ppOf m c) q) :=
  host0_cb (Hand.W0 (F := Ideal) m c) q

theorem vd_entry (q : Fin 2000896) : vd (Hand.U1 (F := Ideal) m) c q = validF q :=
  (host0_valid (Hand.W0 (F := Ideal) m c) q).trans rfl

/-! ## The stored rows -/

/-- The exponential column's row `q`. -/
theorem rowExp_entry (q : Fin 2000896) :
    rowExp (Hand.U1 (F := Ideal) m) c q = expSim (xOf m c) (ppOf m c) q := by
  unfold rowExp expSim sqDist scaleC
  refine congrArg (fun t => Ideal.exp (Ideal.exp ((0 - Ideal.sqrt t) * ((8 / 9 : ℝ) : EReal)) * cT - cT)) ?_
  exact Finset.sum_congr rfl fun d _ =>
    congrArg₂ (fun a b : EReal => (a - b) * (a - b)) (xa_entry m c q d) (xb_entry m c q d)

/-- The positive-pair bit of row `q`. -/
theorem rowPosBit_entry (q : Fin 2000896) :
    rowPosBit (Hand.U1 (F := Ideal) m) c q = posBitK (ppOf m c) (cidOf m c) q := by
  unfold rowPosBit posBitK
  exact congrArg₂ (fun a b : BitVec 32 => IntOp.andi (IntOp.cmpi .eq a b)
    (IntOp.andi (IntOp.cmpi .ne a 4294967295#32) (IntOp.cmpi .ne b 4294967295#32))) (ca_entry m c q) (cb_entry m c q)

/-- The negatives' column's row `q`. -/
theorem rowNegExp_entry (q : Fin 2000896) :
    rowNegExp (Hand.U1 (F := Ideal) m) c q = negExp (xOf m c) (ppOf m c) (cidOf m c) q := by
  unfold rowNegExp negExp
  rw [rowExp_entry, rowPosBit_entry, vd_entry]

/-- The positives' column's row `q`. -/
theorem rowPosF_entry (q : Fin 2000896) :
    rowPosF (Hand.U1 (F := Ideal) m) c q = posF (ppOf m c) (cidOf m c) q := by
  unfold rowPosF posF
  rw [rowPosBit_entry, vd_entry]

/-- The padded anchor words the second host stretch reads again. -/
theorem apad_entry (q : Fin 2000896) :
    (Hand.U1 (F := Ideal) m c main_v5 : S2000896.Idx → BitVec 32) (ix1 q) = anchorWord (ppOf m c) q :=
  host0_apad (Hand.W0 (F := Ideal) m c) q

end Cert.KernelIdeal.ArrayValue

end
-- ==== Proof.KI.Host1.lean ====
/-
  The second host stretch of the kernel program, read at an index.

  The stretch takes the column `u : [2000896, 1]` the first pallas_call left and the padded anchor words
  `a : [2000896]` of the first stretch.  It adds `u` up per anchor — an accumulating scatter into a zero vector of
  200000 rows, indexed by the raw words (an update whose word is no row is dropped) —, takes the maximum of each sum
  with zero, and gathers the result back per pair through the normalised words, as a column.  Entry `q` is then
  the sum of `u` over the pairs whose anchor word IS the row the gather reads for `q`, floored at zero.
-/
import proofs.«102367_j55516747268533_2_alg».proof.Proof.KI.HostStages
import proofs.«102367_j55516747268533_2_alg».proof.Proof.Gen.KernelIdeal.Regions

noncomputable section

namespace Cert.KernelIdeal.HostValue

open Cert.KernelIdeal Cert.KernelIdeal.Gen Cert.PairLoss
open Idealize.ShloMosaic Idealize.ShloMosaic.TcCoe Idealize.ShloMosaic.ValueIdx Idealize.ShloMosaic.StableHlo

/-! ## The stages, over variables -/

/-- A column [2000896, 1] reshaped to a vector: entry `e` is the column's entry of row `e`. -/
theorem columnVector_apply {α : Type} (u : S2000896x1.Idx → α) (h : S2000896x1.ShapeCasts S2000896) (e : Fin 2000896) :
    shapeCast S2000896 u h (ix1 e) = u (ix2 e 0) :=
  shapeCast_apply u h (ix1 e) (ix2 e 0) (by
    rw [Shape.rowMajor_val_two, Shape.rowMajor_val_one]
    show e.val * 1 + 0 = e.val
    omega)

/-- The accumulating scatter of a vector of updates into 200000 rows through an index column: row `n` is the operand
    there plus the updates of the entries whose index word is `n`. -/
theorem scatterVec_apply (x : S200000.Idx → EReal) (idx : S2000896x1.Idx → BitVec 32) (upd : S2000896.Idx → EReal) (n : Fin 200000) :
    Host.scatterAdd (F := Ideal) (φ := .f32) scatter_S200000_S2000896x1_S2000896_n_0_0_1 x idx upd (ix1 n)
      = x (ix1 n) + ∑ e : Fin 2000896, if landsOn (idx (ix2 e 0)) n then upd (ix1 e) else 0 := by
  unfold scatter_S200000_S2000896x1_S2000896_n_0_0_1
  rw [Cert.EdgeIndex.vecScatterAdd_apply Facts₀.scatter_S200000_S2000896x1_S2000896_n_0_0_1_wf x idx upd n]
  refine congrArg (x (ix1 n) + ·) (Finset.sum_congr rfl fun e _ => if_congr ?_ rfl rfl)
  unfold Cert.EdgeIndex.lands landsOn
  exact decide_eq_true_iff.symm

/-- The per-anchor sums of a column `u`, floored at zero and read back per pair. -/
def denomStage (a : S2000896.Idx → BitVec 32) (u : S2000896x1.Idx → EReal) : S2000896x1.Idx → EReal :=
  shapeCast S2000896x1
    (Host.gather gather_S200000_S2000896x1_S2000896_n_0_n_n_0_1_1
      (maximumf (F := Ideal) (φ := .f32)
        (Host.scatterAdd (F := Ideal) (φ := .f32) scatter_S200000_S2000896x1_S2000896_n_0_0_1
          (broadcastInDim S200000 ![] Facts₀.bcast_S_S200000 (constant (F := Ideal) S_ .f32 0x00000000#32))
          (broadcastInDim S2000896x1 ![0] Facts₀.bcast_S2000896_S2000896x1_0 a)
          (shapeCast S2000896 u Facts₀.shapeCasts_S2000896x1_S2000896))
        (broadcastInDim S200000 ![] Facts₀.bcast_S_S200000 (constant (F := Ideal) S_ .f32 0x00000000#32)))
      (indexColumn a))
    Facts₀.shapeCasts_S2000896_S2000896x1

/-- Entry `(q, 0)` of the stage: the sum of `u` over the pairs whose anchor word is the row the gather reads for
    `q`, floored at zero. -/
theorem denomStage_apply (a : S2000896.Idx → BitVec 32) (u : S2000896x1.Idx → EReal) (q : Fin 2000896) :
    denomStage a u (ix2 q 0)
      = max ((0 : EReal) + ∑ q' : Fin 2000896, if landsOn (a (ix1 q')) (gatherRow (a (ix1 q))) then u (ix2 q' 0) else 0) 0 := by
  unfold denomStage
  rw [Cert.GraphConv.Column.shapeCast_a_a1_apply, gatherVec_apply, rowOf_wrap _ q _ (indexColumn_apply _ q), maximumf_apply,
    scatterVec_apply, broadcastInDim_scalar_apply, constant_apply, Ideal.ofBits_zero_f32]
  refine congrArg (fun s => max ((0 : EReal) + s) 0) (Finset.sum_congr rfl fun e _ => ?_)
  rw [Cert.Broadcasts.column_apply, columnVector_apply]

/-! ## The stretch -/

variable (W : Valuation τ sig (Elt Ideal))

/-- The padded anchor words, as the stretch finds them. -/
abbrev aOf : S2000896.Idx → BitVec 32 := W (Proc.devRef .tc main_v5)

/-- The first pallas_call's middle column, as the stretch finds it. -/
abbrev uOf : S2000896x1.Idx → EReal := W (Proc.devRef .tc main_v41_1)

set_option maxHeartbeats 2000000 in
/-- The array the stretch leaves for the second pallas_call's middle window is the stage of the anchor words and
    the column it found. -/
theorem v55_eq :
    (StableHlo.after (hostOps1 (F := Ideal)) W (Proc.devRef .tc main_v55) : S2000896x1.Idx → EReal)
      = denomStage (aOf W) (uOf W) := by
  dsimp only [hostOps1]; after_results_simp; rfl

/-- What the second pallas_call's middle window reads at `(q, 0)`, for arbitrary contents `W` when the stretch
    starts: with `a` the padded anchor words and `u` the first pallas_call's middle column, the sum of `u` over the
    pairs whose anchor word is the row the gather reads for `q`, floored at zero. -/
theorem host1_denom (q : Fin 2000896) :
    (StableHlo.after (hostOps1 (F := Ideal)) W (Proc.devRef .tc main_v55) : S2000896x1.Idx → EReal) (ix2 q 0)
      = max ((0 : EReal) + ∑ q' : Fin 2000896,
          if landsOn (aOf W (ix1 q')) (gatherRow (aOf W (ix1 q))) then uOf W (ix2 q' 0) else 0) 0 :=
  (congrFun (v55_eq W) (ix2 q 0)).trans (denomStage_apply _ _ q)

/-- The stretch writes none of the first pallas_call's outer two columns, nor the padded anchor words. -/
theorem host1_keeps_0 : StableHlo.after (hostOps1 (F := Ideal)) W (Proc.devRef .tc main_v41_0) = W (Proc.devRef .tc main_v41_0) :=
  StableHlo.after_of_writes_sub hostOps1 W hostOps1_writes (by decide)

theorem host1_keeps_2 : StableHlo.after (hostOps1 (F := Ideal)) W (Proc.devRef .tc main_v41_2) = W (Proc.devRef .tc main_v41_2) :=
  StableHlo.after_of_writes_sub hostOps1 W hostOps1_writes (by decide)

theorem host1_keeps_a : StableHlo.after (hostOps1 (F := Ideal)) W (Proc.devRef .tc main_v5) = W (Proc.devRef .tc main_v5) :=
  StableHlo.after_of_writes_sub hostOps1 W hostOps1_writes (by decide)

end Cert.KernelIdeal.HostValue

end
-- ==== Proof.KI.Entry1.lean ====
/- What the loss kernel's three input arrays hold when its grid is entered, pair by pair, as closed formulas of the
   argument arrays.

   The second host stretch leaves the similarity column and the positives' column of the first grid as that grid
   wrote them, so at pair q they hold  expSim  and  posF  of the points, the pairs and the labels. The third array
   is what the stretch computes: the negatives' column summed over the pairs whose anchor word is the row that
   pair q's anchor names, floored at zero — the clipped per-anchor sum `denomOf` at q. -/
import proofs.«102367_j55516747268533_2_alg».proof.Proof.KI.Run
import proofs.«102367_j55516747268533_2_alg».proof.Proof.KI.Arrays0
import proofs.«102367_j55516747268533_2_alg».proof.Proof.KI.Entry0
import proofs.«102367_j55516747268533_2_alg».proof.Proof.KI.Host1
import proofs.«102367_j55516747268533_2_alg».proof.Proof.KerFormulas

set_option maxRecDepth 16384

noncomputable section

namespace Cert.KernelIdeal.ArrayValue

open Idealize.ShloMosaic Idealize.ShloMosaic.TcCoe Idealize.ShloMosaic.ValueIdx Idealize.SL.Sem
open Cert.KernelIdeal Cert.KernelIdeal.Gen Cert.KernelIdeal.PayloadValue Cert.KernelIdeal.HostValue Cert.PairLoss

variable (m : (ℓ : Loc nD τ sig) → Buf (Elt Ideal) ℓ) (c : Dev nD)

/-! ## The first grid's three columns when it is left -/

/-- The similarity column after the first grid: row q is the scaled, shifted exponential of pair q's similarity. -/
theorem exit_exp (q : Fin 2000896) :
    (Hand.W2 (F := Ideal) m c (Proc.devRef .tc main_v41_0) : S2000896x1.Idx → EReal) (ix2 q 0) = expSim (xOf m c) (ppOf m c) q :=
  (congrFun ((Hand.W2_arr m c 5).trans (final5 (Hand.U1 (F := Ideal) m) c)) (ix2 q 0)).trans (rowExp_entry m c q)

/-- The negatives' column after the first grid: row q is that exponential on a genuine negative pair, 0 elsewhere. -/
theorem exit_neg (q : Fin 2000896) :
    (Hand.W2 (F := Ideal) m c (Proc.devRef .tc main_v41_1) : S2000896x1.Idx → EReal) (ix2 q 0)
      = negExp (xOf m c) (ppOf m c) (cidOf m c) q :=
  (congrFun ((Hand.W2_arr m c 6).trans (final6 (Hand.U1 (F := Ideal) m) c)) (ix2 q 0)).trans (rowNegExp_entry m c q)

/-- The positives' column after the first grid: row q is the positive-pair indicator of a genuine pair. -/
theorem exit_pos (q : Fin 2000896) :
    (Hand.W2 (F := Ideal) m c (Proc.devRef .tc main_v41_2) : S2000896x1.Idx → EReal) (ix2 q 0)
      = posF (ppOf m c) (cidOf m c) q :=
  (congrFun ((Hand.W2_arr m c 7).trans (final7 (Hand.U1 (F := Ideal) m) c)) (ix2 q 0)).trans (rowPosF_entry m c q)

/-- The padded anchor words are no array of the first grid: it leaves them as the first host stretch wrote them. -/
theorem exit_anchor (q : Fin 2000896) :
    (Hand.W2 (F := Ideal) m c (Proc.devRef .tc main_v5) : S2000896.Idx → BitVec 32) (ix1 q) = anchorWord (ppOf m c) q :=
  (congrFun (Hand.W2_of_ne m c main_v5 (by decide)) (ix1 q)).trans (apad_entry m c q)

/-! ## The second grid's three input arrays when it is entered -/

/-- Its first input: the similarity column, untouched by the second host stretch. -/
theorem e_entry (q : Fin 2000896) :
    (Hand.U3 (F := Ideal) m c main_v41_0 : S2000896x1.Idx → EReal) (ix2 q 0) = expSim (xOf m c) (ppOf m c) q :=
  (congrFun (host1_keeps_0 (Hand.W2 (F := Ideal) m c)) (ix2 q 0)).trans (exit_exp m c q)

/-- Its third input: the positives' column, untouched by the second host stretch. -/
theorem pf_entry (q : Fin 2000896) :
    (Hand.U3 (F := Ideal) m c main_v41_2 : S2000896x1.Idx → EReal) (ix2 q 0) = posF (ppOf m c) (cidOf m c) q :=
  (congrFun (host1_keeps_2 (Hand.W2 (F := Ideal) m c)) (ix2 q 0)).trans (exit_pos m c q)

/-- Its second input: the negatives' exponentials summed over the pairs whose anchor word is the row pair q's anchor
    names, floored at zero. -/
theorem dn_entry (q : Fin 2000896) :
    (Hand.U3 (F := Ideal) m c main_v55 : S2000896x1.Idx → EReal) (ix2 q 0)
      = denomOf (xOf m c) (ppOf m c) (cidOf m c) q := by
  refine (host1_denom (Hand.W2 (F := Ideal) m c) q).trans ?_
  unfold denomOf denomAt
  have ha : ∀ q' : Fin 2000896, aOf (Hand.W2 (F := Ideal) m c) (ix1 q') = anchorWord (ppOf m c) q' := exit_anchor m c
  have hu : ∀ q' : Fin 2000896, uOf (Hand.W2 (F := Ideal) m c) (ix2 q' 0) = negExp (xOf m c) (ppOf m c) (cidOf m c) q' :=
    exit_neg m c
  rw [ha q]
  refine congrArg (fun s : EReal => max ((0 : EReal) + s) 0) (Finset.sum_congr rfl fun q' _ => ?_)
  rw [ha q', hu q']

end Cert.KernelIdeal.ArrayValue

end
-- ==== Proof.KI.Result.lean ====
/-
  The program's result in closed form, over the extended reals.

  The second grid leaves in its [1,2] output array the pair (Σ_q rowLoss q, Σ_q rowPf q) over the 2000896 padded
  pairs, the rows read off the arrays the grid is entered at; on entry those rows are the closed per-pair formulas
  of the argument arrays — the exponential of the similarity, the clipped per-anchor sum of the negatives'
  exponentials, the positive-pair indicator —, so row q's masked loss is pair q's loss term.  The last host stretch
  divides the pair's first entry by its second.  Hence the result: the pairs' total masked loss divided by the
  number of positive pairs.
-/
import proofs.«102367_j55516747268533_2_alg».proof.Proof.KI.Run
import proofs.«102367_j55516747268533_2_alg».proof.Proof.KI.Host2
import proofs.«102367_j55516747268533_2_alg».proof.Proof.KI.Arrays1
import proofs.«102367_j55516747268533_2_alg».proof.Proof.KI.Entry1
import proofs.«102367_j55516747268533_2_alg».proof.Proof.KerFormulas
import Idealize.ShloMosaic.Lib.Pipeline.Value
import Idealize.ShloMosaic.Lib.ValueIdx

set_option maxRecDepth 16384

noncomputable section

namespace Cert.KernelIdeal.ArrayValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand Cert.KernelIdeal.HostValue Cert.PairLoss

variable (m : (ℓ : Loc nD τ sig) → Buf (Elt Ideal) ℓ) (c : Dev nD)

/-- Row `q`'s masked loss on entry to the second grid is pair `q`'s loss term: the three rows it is made of are the
    pair's exponential, clipped per-anchor sum and positive-pair indicator. -/
theorem rowLoss_entry (q : Fin 2000896) :
    rowLoss (Hand.U3 (F := Ideal) m) c q = lossTerm (xOf m c) (ppOf m c) (cidOf m c) q := by
  unfold rowLoss rowE rowDn rowPf lossTerm
  rw [e_entry, dn_entry, pf_entry]

/-- Row `q` of the mask on entry to the second grid is pair `q`'s positive-pair indicator. -/
theorem rowPf_entry (q : Fin 2000896) :
    rowPf (Hand.U3 (F := Ideal) m) c q = posF (ppOf m c) (cidOf m c) q := by
  unfold rowPf
  rw [pf_entry]

/-- THE RESULT: after the last host stretch the scalar result is the pairs' total masked loss divided by the number of
    positive pairs — entry (0,0) of the second grid's output array over its entry (0,1). -/
theorem result_value :
    (Hand.W5 (F := Ideal) m c (Proc.devRef .tc main_v61) : S_.Idx → EReal)
      = fun _ => Ideal.div (∑ q : Fin 2000896, lossTerm (xOf m c) (ppOf m c) (cidOf m c) q)
          (∑ q : Fin 2000896, posF (ppOf m c) (cidOf m c) q) := by
  funext i
  obtain rfl := eq_ix0 i
  refine (host2_result (Hand.W4 (F := Ideal) m c)).trans ?_
  have h56 : (Hand.W4 (F := Ideal) m c (Proc.devRef .tc main_v56) : S1x2.Idx → EReal)
      = result3 (Hand.U3 (F := Ideal) m) c :=
    (Hand.W4_arr (F := Ideal) m c 3).trans (final3 (Hand.U3 (F := Ideal) m) c)
  rw [h56]
  refine congrArg₂ Ideal.div ?_ ?_
  · unfold result3
    refine (if_pos rfl).trans ?_
    exact Finset.sum_congr rfl fun q _ => rowLoss_entry m c q
  · unfold result3
    refine (if_neg (by decide)).trans ?_
    exact Finset.sum_congr rfl fun q _ => rowPf_entry m c q

end Cert.KernelIdeal.ArrayValue

end
-- ==== Proof.Ref.Pairs.lean ====
/-
  The reference's integer stages, read at one genuine pair.

  Pair `p` has an anchor word `pp[0, p]` and a partner word `pp[1, p]`.  Before every gather the program normalises
  the index word (a negative word has the extent 200000 added once) and lays the result out as a column; the
  accumulating scatter uses the raw anchor words as its column.  A gather of labels through a normalised column
  reads the label at the clamped row of the normalised word.  The positive-pair bit is the conjunction "the two
  gathered labels agree, and neither is -1", and its conversion to a float is the indicator 1 / 0.
-/
import proofs.«102367_j55516747268533_2_alg».proof.Proof.Gen.ReferenceIdeal.Read
import proofs.«102367_j55516747268533_2_alg».proof.Proof.PairData
import proofs.«102367_j55516747268533_2_alg».proof.Proof.LibEdgeIndex

noncomputable section

namespace Cert.RefSide

open Idealize.ShloMosaic Idealize.ShloMosaic.ValueIdx Cert.ReferenceIdeal Cert.ReferenceIdeal.Gen Cert.ReferenceIdeal.Read
  Cert.PairLoss Cert.EdgeIndex

variable {F : FTy → Type} [FloatOps F]
variable (pp : Pairs) (cid : Labels)

/-- A genuine pair as a member of the padded batch. -/
abbrev gen (p : Fin 2000000) : Fin 2000896 := Fin.castLE genuine_le p

/-- The padded batch's anchor word of a genuine pair is the given one. -/
theorem anchorWord_gen (p : Fin 2000000) : anchorWord pp (gen p) = pp (ix2 (0 : Fin 2) p) := by
  unfold anchorWord
  rw [dif_pos (show (gen p).val < 2000000 from p.isLt)]
  rfl

/-- The padded batch's partner word of a genuine pair is the given one. -/
theorem partnerWord_gen (p : Fin 2000000) : partnerWord pp (gen p) = pp (ix2 (1 : Fin 2) p) := by
  unfold partnerWord
  rw [dif_pos (show (gen p).val < 2000000 from p.isLt)]
  rfl

/-! ## The two rows of the pair array -/

/-- Row 0 of the pair array, flattened: the anchor words. -/
theorem anchor_apply (p : Fin 2000000) : val_main_v1 (F := F) pp (ix1 p) = pp (ix2 (0 : Fin 2) p) := by
  rw [val_main_v1_apply, val_main_v0_apply]
  refine congrArg pp (funext fun a => Fin.ext ?_)
  match a with
  | ⟨0, _⟩ => rfl
  | ⟨1, _⟩ => show p.val % 2000000 = p.val; exact Nat.mod_eq_of_lt p.isLt

/-- Row 1 of the pair array, flattened: the partner words. -/
theorem partner_apply (p : Fin 2000000) : val_main_v3 (F := F) pp (ix1 p) = pp (ix2 (1 : Fin 2) p) := by
  rw [val_main_v3_apply, val_main_v2_apply]
  refine congrArg pp (funext fun a => Fin.ext ?_)
  match a with
  | ⟨0, _⟩ => rfl
  | ⟨1, _⟩ => show p.val % 2000000 = p.val; exact Nat.mod_eq_of_lt p.isLt

/-- The column entry `(p, 0)` sits over the vector entry `p`. -/
theorem col_idx (p : Fin 2000000) : (fun a => match a with | ⟨0, _⟩ => ⟨((at0 p : S2000000x1.Idx) 0).val, ((at0 p : S2000000x1.Idx) 0).isLt⟩ : S2000000.Idx) = ix1 p := by
  funext a
  match a with
  | ⟨0, _⟩ => rfl

/-! ## The index columns -/

/-- The normalised anchor column feeding the first label gather. -/
theorem anchorCol_label (p : Fin 2000000) : val_main_v9 (F := F) pp (at0 p) = wrapWord (pp (ix2 (0 : Fin 2) p)) := by
  rw [val_main_v9_apply, show idx_main_v9 (at0 p) = ix1 p from col_idx p, val_main_v8_apply, val_main_v5_apply,
    val_main_v7_apply, val_main_v4_apply, val_main_v6_apply, val_main_c_apply, val_main_c_0_apply, anchor_apply]
  rfl

/-- The normalised partner column feeding the second label gather. -/
theorem partnerCol_label (p : Fin 2000000) : val_main_v16 (F := F) pp (at0 p) = wrapWord (pp (ix2 (1 : Fin 2) p)) := by
  rw [val_main_v16_apply, show idx_main_v16 (at0 p) = ix1 p from col_idx p, val_main_v15_apply, val_main_v12_apply,
    val_main_v14_apply, val_main_v11_apply, val_main_v13_apply, val_main_c_1_apply, val_main_c_2_apply, partner_apply]
  rfl

/-- The normalised anchor column feeding the first row gather. -/
theorem anchorCol_row (p : Fin 2000000) : val_main_v31 (F := F) pp (at0 p) = wrapWord (pp (ix2 (0 : Fin 2) p)) := by
  rw [val_main_v31_apply, show idx_main_v31 (at0 p) = ix1 p from col_idx p, val_main_v30_apply, val_main_v27_apply,
    val_main_v29_apply, val_main_v26_apply, val_main_v28_apply, val_main_c_5_apply, val_main_c_6_apply, anchor_apply]
  rfl

/-- The normalised partner column feeding the second row gather. -/
theorem partnerCol_row (p : Fin 2000000) : val_main_v38 (F := F) pp (at0 p) = wrapWord (pp (ix2 (1 : Fin 2) p)) := by
  rw [val_main_v38_apply, show idx_main_v38 (at0 p) = ix1 p from col_idx p, val_main_v37_apply, val_main_v34_apply,
    val_main_v36_apply, val_main_v33_apply, val_main_v35_apply, val_main_c_7_apply, val_main_c_8_apply, partner_apply]
  rfl

/-- The normalised anchor column through which the per-anchor sums are read back. -/
theorem anchorCol_back (p : Fin 2000000) : val_main_v65 (F := F) pp (at0 p) = wrapWord (pp (ix2 (0 : Fin 2) p)) := by
  rw [val_main_v65_apply, show idx_main_v65 (at0 p) = ix1 p from col_idx p, val_main_v64_apply, val_main_v61_apply,
    val_main_v63_apply, val_main_v60_apply, val_main_v62_apply, val_main_c_15_apply, val_main_c_16_apply, anchor_apply]
  rfl

/-- The RAW anchor column the accumulating scatter is indexed by. -/
theorem anchorCol_raw (p : Fin 2000000) : val_main_v56 (F := F) pp (at0 p) = pp (ix2 (0 : Fin 2) p) := by
  rw [val_main_v56_apply, show idx_main_v56 (at0 p) = ix1 p from col_idx p, anchor_apply]

/-! ## Gathers through a normalised column -/

/-- A gather from a vector of 200000 entries through a column of 2000000 index words reads, for pair `p`, the
    entry at the clamped row of the column's word. -/
theorem vecGather_at {α : Type} (x : S200000.Idx → α) (idx : IVec S2000000x1 32) (p : Fin 2000000) :
    Host.gather gather_S200000_S2000000x1_S2000000_n_0_n_n_0_1_1 x idx (ix1 p)
      = x (ix1 (rowOf (N := 200000) (by norm_num) idx p)) :=
  vecGather_apply (N := 200000) (E := 2000000) (by norm_num) gather_S200000_S2000000x1_S2000000_n_0_n_n_0_1_1_wf x idx p

/-- A gather of whole rows of a [200000, 24] table through a column of 2000000 index words reads, for pair `p` and
    column `d`, the table at the clamped row of the column's word. -/
theorem rowGather_at {α : Type} (x : S200000x24.Idx → α) (idx : IVec S2000000x1 32) (p : Fin 2000000) (d : Fin 24) :
    Host.gather gather_S200000x24_S2000000x1_S2000000x24_1_0_n_n_0_1_124 x idx (ix2 p d)
      = x (ix2 (rowOf (N := 200000) (by norm_num) idx p) d) :=
  rowGather_apply (N := 200000) (D := 24) (E := 2000000) (by norm_num)
    gather_S200000x24_S2000000x1_S2000000x24_1_0_n_n_0_1_124_wf x idx p d

/-- The clamped row of a column whose word for `p` is the normalised `i` is the gather row of `i`. -/
theorem rowOf_wrap (idx : IVec S2000000x1 32) (p : Fin 2000000) (i : BitVec 32) (h : idx (at0 p) = wrapWord i) :
    rowOf (N := 200000) (by norm_num) idx p = gatherRow i := by
  refine Fin.ext ?_
  show min (idx (at0 p)).toInt.toNat (200000 - 1) = min (wrapWord i).toInt.toNat (200000 - 1)
  rw [h]

/-- The anchor's gathered label. -/
theorem anchorLabel_apply (p : Fin 2000000) :
    val_main_v10 (F := F) pp cid (ix1 p) = labelAt cid (pp (ix2 (0 : Fin 2) p)) := by
  unfold val_main_v10 labelAt
  rw [vecGather_at, rowOf_wrap _ p _ (anchorCol_label pp p)]

/-- The partner's gathered label. -/
theorem partnerLabel_apply (p : Fin 2000000) :
    val_main_v17 (F := F) pp cid (ix1 p) = labelAt cid (pp (ix2 (1 : Fin 2) p)) := by
  unfold val_main_v17 labelAt
  rw [vecGather_at, rowOf_wrap _ p _ (partnerCol_label pp p)]

/-! ## The positive-pair bit -/

/-- The reference's positive-pair bit of a genuine pair. -/
theorem posBit_apply (p : Fin 2000000) : val_main_v24 (F := F) pp cid (ix1 p) = posBit pp cid (gen p) := by
  rw [val_main_v24_apply, val_main_v21_apply, val_main_v18_apply, val_main_v20_apply, val_main_v23_apply,
    val_main_v19_apply, val_main_v22_apply, val_main_c_3_apply, val_main_c_4_apply, anchorLabel_apply,
    partnerLabel_apply]
  unfold posBit
  rw [anchorWord_gen, partnerWord_gen]

/-- A one-bit word is `1` or `0`. -/
theorem bit_cases (b : BitVec 1) : b = 1#1 ∨ b = 0#1 := by
  revert b; decide

/-- The complemented bit selects the second branch exactly on a positive pair. -/
theorem select_not_posBit {α : Type} (p : Fin 2000000) (a b : α) :
    Scalar.select (~~~(posBit pp cid (gen p))) a b = if isPos pp cid (gen p) then b else a := by
  unfold isPos
  rcases bit_cases (posBit pp cid (gen p)) with h | h <;> rw [h] <;> simp [Scalar.select]

/-- The bit converted to a float over the extended reals is the indicator of a positive pair. -/
theorem uitofp_posBit (p : Fin 2000000) :
    FloatOps.uitofp (F := Ideal) .f32 (posBit pp cid (gen p)) = if isPos pp cid (gen p) then (1 : EReal) else 0 := by
  unfold isPos
  rcases bit_cases (posBit pp cid (gen p)) with h | h <;> rw [h]
  · show (((1#1 : BitVec 1).toNat : ℝ) : EReal) = _
    simp
  · show (((0#1 : BitVec 1).toNat : ℝ) : EReal) = _
    simp

end Cert.RefSide

end
-- ==== Proof.Ref.Sim.lean ====
/-
  The reference's similarity stages, read at one genuine pair, for feature rows that are real numbers.

  The two feature rows of a pair are gathered through the normalised anchor and partner columns.  With real
  entries every stage stays a real number: the squared differences, their sum over the 24 features, its square
  root (the sum is not negative), the quotient of its negative by 9/8 (the product with 8/9) and the
  exponential — the pair's similarity.  The scaled similarity is the quotient by the word nearest 0.05; the
  global shift is the maximum of the scaled similarities folded from -∞; the shifted exponential follows.
-/
import proofs.«102367_j55516747268533_2_alg».proof.Proof.Ref.Pairs
import proofs.«102367_j55516747268533_2_alg».proof.Proof.PairLossLaw
import proofs.«102367_j55516747268533_2_alg».proof.Proof.LibSoftmaxRowSum

noncomputable section

namespace Cert.RefSide

open Idealize.ShloMosaic Idealize.ShloMosaic.ValueIdx Cert.ReferenceIdeal Cert.ReferenceIdeal.Gen Cert.ReferenceIdeal.Read
  Cert.PairLoss Cert.EdgeIndex

variable (xr : (⟨2, ![200000, 24]⟩ : Shape).Idx → ℝ) (x : Points) (hx : ∀ j, x j = ((xr j : ℝ) : EReal)) (pp : Pairs)

/-! ## Constants -/

/-- The pattern `0x3F900000` is the real `9/8`. -/
theorem ofBits_9_8 : Ideal.ofBits .f32 0x3F900000#32 = ((9 / 8 : ℝ) : EReal) := by
  simp [Ideal.ofBits, Ideal.ieee, -EReal.coe_mul]; norm_num

/-- The pattern `0x3D4CCCCD` is the real `13421773 / 2^28`. -/
theorem ofBits_tau : Ideal.ofBits .f32 0x3D4CCCCD#32 = ((tau : ℝ) : EReal) := by
  unfold tau
  simp [Ideal.ofBits, Ideal.ieee, -EReal.coe_mul]; norm_num

/-! ## The gathered rows and their distance -/

/-- The anchor's feature row. -/
theorem anchorRow_apply (p : Fin 2000000) (d : Fin 24) :
    val_main_v32 (F := Ideal) x pp (ix2 p d) = x (ix2 (gatherRow (pp (ix2 (0 : Fin 2) p))) d) := by
  unfold val_main_v32
  rw [rowGather_at, rowOf_wrap _ p _ (anchorCol_row pp p)]

/-- The partner's feature row. -/
theorem partnerRow_apply (p : Fin 2000000) (d : Fin 24) :
    val_main_v39 (F := Ideal) x pp (ix2 p d) = x (ix2 (gatherRow (pp (ix2 (1 : Fin 2) p))) d) := by
  unfold val_main_v39
  rw [rowGather_at, rowOf_wrap _ p _ (partnerCol_row pp p)]

/-- The squared difference of one feature, a real number. -/
def sqDiff (p : Fin 2000000) (d : Fin 24) : ℝ :=
  (xr (ix2 (gatherRow (pp (ix2 (0 : Fin 2) p))) d) - xr (ix2 (gatherRow (pp (ix2 (1 : Fin 2) p))) d))
    * (xr (ix2 (gatherRow (pp (ix2 (0 : Fin 2) p))) d) - xr (ix2 (gatherRow (pp (ix2 (1 : Fin 2) p))) d))

include hx in
theorem sq_apply (p : Fin 2000000) (d : Fin 24) :
    val_main_v41 (F := Ideal) x pp (ix2 p d) = ((sqDiff xr pp p d : ℝ) : EReal) := by
  rw [val_main_v41_apply, val_main_v40_apply, anchorRow_apply, partnerRow_apply, hx, hx]
  simp only [Ideal.subf_def, Ideal.mulf_def]
  rw [← EReal.coe_sub, ← EReal.coe_mul]
  rfl

include hx in
/-- The sum of the squared differences, a real number. -/
theorem sumSq_apply (p : Fin 2000000) :
    val_main_v42 (F := Ideal) x pp (ix1 p) = ((∑ d : Fin 24, sqDiff xr pp p d : ℝ) : EReal) := by
  rw [val_main_v42_apply, val_main_cst_apply, Ideal.ofBits_def, Ideal.ofBits_zero_f32, zero_add, Cert.Scores.coe_sum]
  refine Finset.sum_congr rfl fun d _ => ?_
  rw [show idx_main_v42 (ix1 p) d = ix2 p d from funext fun a => by match a with | ⟨0, _⟩ => rfl | ⟨1, _⟩ => rfl]
  exact sq_apply xr x hx pp p d

theorem sumSq_nonneg (p : Fin 2000000) : 0 ≤ ∑ d : Fin 24, sqDiff xr pp p d :=
  Finset.sum_nonneg fun d _ => mul_self_nonneg _

include hx in
/-- The pair's similarity: the exponential of minus the distance times 8/9. -/
theorem sim_apply (p : Fin 2000000) :
    val_main_v47 (F := Ideal) x pp (ix1 p) = ((simReal pp xr (gen p) : ℝ) : EReal) := by
  rw [val_main_v47_apply, val_main_v46_apply, val_main_v44_apply, val_main_v43_apply, val_main_v45_apply,
    val_main_cst_9_apply, sumSq_apply xr x hx pp p]
  simp only [Ideal.hostUnary_sqrt_def, Ideal.hostUnary_exp_def, Ideal.hostNegf_def, Ideal.negf_def, Ideal.hostDivf_def,
    Ideal.ofBits_def]
  rw [Ideal.sqrt_coe, if_neg (not_lt.mpr (sumSq_nonneg xr pp p)), ofBits_9_8, ← EReal.coe_neg,
    Ideal.div_coe (by norm_num : (9 / 8 : ℝ) ≠ 0), ← EReal.coe_mul, Ideal.exp_coe]
  unfold simReal
  rw [anchorWord_gen, partnerWord_gen, show (1 / (9 / 8) : ℝ) = 8 / 9 by norm_num]
  rfl

/-! ## The scaled similarity, the global shift and the shifted exponential -/

include hx in
/-- The scaled similarity. -/
theorem logit_apply (p : Fin 2000000) :
    val_main_v49 (F := Ideal) x pp (ix1 p) = refLogit genuine_le tau (simReal pp xr) p := by
  rw [val_main_v49_apply, val_main_v48_apply, val_main_cst_10_apply, sim_apply xr x hx pp p]
  simp only [Ideal.hostDivf_def, Ideal.ofBits_def]
  rw [ofBits_tau]
  rfl

/-- A fold over a rank-1 index set is the fold over its coordinate. -/
theorem fold_idx1 {α : Type} (op : α → α → α) [Std.Commutative op] [Std.Associative op] (b : α) {n : ℕ}
    (f : (⟨1, ![n]⟩ : Shape).Idx → α) :
    (Finset.univ : Finset (⟨1, ![n]⟩ : Shape).Idx).fold op b f
      = (Finset.univ : Finset (Fin n)).fold op b (fun a => f (ix1 a)) := by
  rw [← Finset.map_univ_equiv (idxEquiv1 (n := n)).symm, Finset.fold_map]
  rfl

include hx in
/-- The global shift: the maximum of the scaled similarities, folded from -∞.  Every pair drops to the one index
    of the scalar result, so the fold runs over all of them. -/
theorem shift_apply (i : S_.Idx) :
    val_main_v50 (F := Ideal) x pp i = refShift genuine_le tau (simReal pp xr) := by
  unfold val_main_v50
  rw [Host.reduce_eq_fold FloatOps.maximumf _ _ reducesTo_S2000000_S_d0 h_S_ i,
    Finset.filter_true_of_mem (by intro j _; exact funext fun a => a.elim0), fold_idx1,
    val_main_cst_11_apply, Ideal.ofBits_def, Cert.RefValue.ofBits_neg_inf]
  unfold refShift
  rw [show (fun a => val_main_v49 (F := Ideal) x pp (ix1 a)) = refLogit genuine_le tau (simReal pp xr) from
    funext fun k => logit_apply xr x hx pp k]
  rfl

include hx in
/-- The shifted exponential. -/
theorem exp_apply (p : Fin 2000000) :
    val_main_v53 (F := Ideal) x pp (ix1 p) = refExp genuine_le tau (simReal pp xr) p := by
  rw [val_main_v53_apply, val_main_v52_apply, val_main_v51_apply, logit_apply xr x hx pp p, shift_apply xr x hx pp]
  simp only [Ideal.hostUnary_exp_def, Ideal.subf_def]
  rfl

end Cert.RefSide

end
-- ==== Proof.Ref.Value.lean ====
/-
  The reference program's value in closed form, and its frame.

  From the shifted exponentials: a positive pair's is masked to 0; the masked values are summed per anchor row by the
  accumulating scatter through the RAW anchor words (a pair lands on row `n` exactly when its anchor word is `n`); the
  sums are floored at 0 and read back through the normalised anchor column; a pair's loss is
  `-log (e / (e + floored sum))`; the result is the sum of the positive pairs' losses divided by their number.
-/
import proofs.«102367_j55516747268533_2_alg».proof.Proof.Ref.Sim
import proofs.«102367_j55516747268533_2_alg».proof.Defs
import proofs.«102367_j55516747268533_2_alg».proof.Proof.Gen.Pre_finite_inputs

noncomputable section

namespace Cert.RefSide

open Idealize.ShloMosaic Idealize.ShloMosaic.ValueIdx Idealize.SL.Sem Cert.ReferenceIdeal Cert.ReferenceIdeal.Gen
  Cert.ReferenceIdeal.Read Cert.PairLoss Cert.EdgeIndex

variable (xr : (⟨2, ![200000, 24]⟩ : Shape).Idx → ℝ) (x : Points) (hx : ∀ j, x j = ((xr j : ℝ) : EReal)) (pp : Pairs)
  (cid : Cert.PairLoss.Labels)

/-! ## The per-anchor sums -/

include hx in
/-- A negative pair's shifted exponential, a positive pair's 0. -/
theorem neg_apply (p : Fin 2000000) :
    val_main_v54 (F := Ideal) x pp cid (ix1 p) = refNeg genuine_le tau (simReal pp xr) (isPos pp cid) p := by
  rw [val_main_v54_apply, val_main_v25_apply, posBit_apply, exp_apply xr x hx pp p, val_main_call0_v0_apply,
    val_main_cst_12_apply, Ideal.ofBits_def, Ideal.ofBits_zero_f32, select_not_posBit]
  rfl

/-- The accumulating scatter into a vector of 200000 entries through a column of 2000000 raw index words: at row
    `n`, the operand there plus the updates of the pairs whose word is `n`. -/
theorem vecScatterAdd_at (z : FVec Ideal S200000 .f32) (idx : IVec S2000000x1 32) (upd : FVec Ideal S2000000 .f32)
    (n : Fin 200000) :
    Host.scatterAdd (F := Ideal) scatter_S200000_S2000000x1_S2000000_n_0_0_1 z idx upd (ix1 n)
      = z (ix1 n) + ∑ e : Fin 2000000, if lands idx e n then upd (ix1 e) else 0 :=
  vecScatterAdd_apply (N := 200000) (E := 2000000) scatter_S200000_S2000000x1_S2000000_n_0_0_1_wf z idx upd n

/-- A pair lands on row `n` through the raw anchor column exactly when its anchor word is `n`. -/
theorem lands_raw (p : Fin 2000000) (n : Fin 200000) :
    lands (val_main_v56 (F := Ideal) pp) p n ↔ anchorLands pp (gen p) n = true := by
  unfold lands anchorLands landsOn
  rw [anchorCol_raw, anchorWord_gen, decide_eq_true_iff]

include hx in
/-- The negatives' exponentials summed per anchor row. -/
theorem denom_apply (n : Fin 200000) :
    val_main_v57 (F := Ideal) x pp cid (ix1 n)
      = refDenom genuine_le tau (simReal pp xr) (isPos pp cid) (anchorLands pp) n := by
  unfold val_main_v57
  rw [vecScatterAdd_at, val_main_v55_apply, val_main_cst_13_apply, Ideal.ofBits_def, Ideal.ofBits_zero_f32]
  unfold refDenom
  refine congrArg (0 + ·) (Finset.sum_congr rfl fun p _ => ?_)
  rw [neg_apply xr x hx pp cid p]
  exact if_congr (lands_raw pp p n) rfl rfl

include hx in
/-- The floored per-anchor sum read back for a pair's anchor. -/
theorem back_apply (p : Fin 2000000) :
    val_main_v66 (F := Ideal) x pp cid (ix1 p)
      = max (refDenom genuine_le tau (simReal pp xr) (isPos pp cid) (anchorLands pp) (anchorRow pp (gen p))) 0 := by
  unfold val_main_v66
  rw [vecGather_at, rowOf_wrap _ p _ (anchorCol_back pp p), val_main_v59_apply, denom_apply xr x hx pp cid,
    val_main_v58_apply, val_main_cst_14_apply, Ideal.ofBits_def, Ideal.ofBits_zero_f32, Ideal.maximumf_def]
  unfold anchorRow
  rw [anchorWord_gen]

/-! ## The loss terms and the two sums -/

include hx in
/-- A pair's loss term. -/
theorem loss_apply (p : Fin 2000000) :
    val_main_v70 (F := Ideal) x pp cid (ix1 p)
      = refLoss genuine_le tau (simReal pp xr) (isPos pp cid) (anchorLands pp) (anchorRow pp) p := by
  rw [val_main_v70_apply, val_main_v69_apply, val_main_v68_apply, val_main_v67_apply, exp_apply xr x hx pp p,
    back_apply xr x hx pp cid p]
  simp only [Ideal.hostNegf_def, Ideal.negf_def, Ideal.hostUnary_log_def, Ideal.hostDivf_def, Ideal.addf_def]
  rfl

/-- The positive-pair indicator. -/
theorem pos_apply (p : Fin 2000000) :
    val_main_v71 (F := Ideal) pp cid (ix1 p) = refPos genuine_le (isPos pp cid) p := by
  rw [val_main_v71_apply, posBit_apply, uitofp_posBit]
  rfl

include hx in
/-- The sum of the positive pairs' losses. -/
theorem num_apply (i : S_.Idx) :
    val_main_v73 (F := Ideal) x pp cid i
      = refNum genuine_le tau (simReal pp xr) (isPos pp cid) (anchorLands pp) (anchorRow pp) := by
  rw [val_main_v73_apply, val_main_cst_17_apply, Ideal.ofBits_def, Ideal.ofBits_zero_f32, zero_add, sum_idx1]
  unfold refNum
  refine Finset.sum_congr rfl fun p _ => ?_
  rw [val_main_v72_apply, loss_apply xr x hx pp cid p, pos_apply pp cid p, Ideal.mulf_def]

/-- The number of positive pairs. -/
theorem cnt_apply (i : S_.Idx) :
    val_main_v74 (F := Ideal) pp cid i = refCnt genuine_le (isPos pp cid) := by
  rw [val_main_v74_apply, val_main_cst_18_apply, Ideal.ofBits_def, Ideal.ofBits_zero_f32, zero_add, sum_idx1]
  unfold refCnt
  exact Finset.sum_congr rfl fun p _ => pos_apply pp cid p

/-- THE REFERENCE'S VALUE: the mean loss over the positive pairs, as the quotient of the two sums. -/
theorem ref_value (xr : (⟨2, ![200000, 24]⟩ : Shape).Idx → ℝ) (pp : Pairs) (cid : Cert.PairLoss.Labels) (i : S_.Idx) :
    val_main_v75 (F := Ideal) (fun j => ((xr j : ℝ) : EReal)) pp cid i
      = Ideal.div (refNum genuine_le tau (simReal pp xr) (isPos pp cid) (anchorLands pp) (anchorRow pp))
          (refCnt genuine_le (isPos pp cid)) := by
  rw [val_main_v75_apply, num_apply xr _ (fun _ => rfl) pp cid i, cnt_apply pp cid i, Ideal.hostDivf_def]

/-! ## The frame -/

/-- The reference runs and leaves its argument arrays unchanged: its run with the result dropped. -/
theorem ref_frame : Cert.frame_ReferenceIdeal := fun m ρ _ =>
  (θ_run Cert.ReferenceIdeal.defs _ _).mono (fun _ h c => (h c).2) (Cert.ReferenceIdeal.Value.run (F := Ideal) m ρ)

end Cert.RefSide

end
-- ==== Proof.Finite.lean ====
/-
  From the precondition to real numbers.

  The precondition says of each floating-point argument array that `|v| < +∞` holds at every entry (an all-reduce by
  `and` of the comparisons, from `true`).  Over the extended reals an entry with `|v| < ⊤` is neither `⊤` nor `⊥`: it is a
  real number.  So under the precondition the array of feature rows is the coercion of an array of reals.
-/
import proofs.«102367_j55516747268533_2_alg».proof.Pre_finite_inputs
import proofs.«102367_j55516747268533_2_alg».proof.Proof.Gen.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.FiniteInputs

open Idealize.ShloMosaic Cert.Pre_finite_inputs

instance : Subsingleton S_.Idx := ⟨fun a b => funext fun d => d.elim0⟩

/-- An extended real whose absolute value is below `+∞` is a real number. -/
theorem real_of_abs_lt_top (v : EReal) (h : Ideal.cmp .olt (max v (-v)) (Ideal.ofBits .f32 0x7F800000#32) = 1#1) :
    ∃ r : ℝ, v = (r : EReal) := by
  have htop : Ideal.ofBits .f32 0x7F800000#32 = ⊤ := by simp [Ideal.ofBits, Ideal.ieee]
  rw [htop] at h
  induction v using EReal.rec with
  | bot => exact absurd h (by simp [Ideal.cmp])
  | coe r => exact ⟨r, rfl⟩
  | top => exact absurd h (by simp [Ideal.cmp])

/-- Under the precondition every entry of the feature array is a real number. -/
theorem points_real (x : FVec Ideal S200000x24 .f32) (a1 : IVec S2x2000000 32) (a2 : IVec S200000 32)
    (a3 a4 : FVec Ideal S200000x3 .f32)
    (h : Cert.Pre_finite_inputs.fn (F := Ideal) x a1 a2 a3 a4 = fun _ => 1#1) :
    ∃ xr : S200000x24.Idx → ℝ, x = fun j => ((xr j : ℝ) : EReal) := by
  have h0 := congrFun h ValueIdx.ix0
  dsimp only [Cert.Pre_finite_inputs.fn] at h0
  have h1 := (IntOp.andi_eq_one.mp h0).1
  have h2 := (IntOp.andi_eq_one.mp h1).1
  have hall : ∀ j : S200000x24.Idx, ∃ r : ℝ, x j = (r : EReal) := fun j =>
    real_of_abs_lt_top (x j) (Host.reduce_andi_all _ _ _ _ ValueIdx.ix0 h2 j)
  exact ⟨fun j => (hall j).choose, funext fun j => (hall j).choose_spec⟩

end Cert.FiniteInputs

end
-- ==== Proof.lean ====
/-
  The certificate of a pairwise contrastive loss (an InfoNCE loss over point pairs with a Gaussian-kernel similarity):
  a two-grid kernel program against its array-language reference, equal over the extended reals.

  Both programs take feature rows `x : [200000, 24]`, pairs `pp : [2, 2000000]` and cluster labels `cid : [200000]`.  For
  pair `p = (a, b)`: `sim = exp (-‖x_a − x_b‖ · 8/9)`; the pair is positive when the two labels agree and neither is −1; with
  `e_p` a shifted exponential of `sim_p / τ` and `D_a` the sum of `e_q` over the negative pairs `q` anchored at `a`, the
  result is the mean over the positive pairs of `-log (e_p / (e_p + max D_a 0))`.

  The reference shifts by the global maximum of `sim / τ`.  The kernel pads the batch to 977 blocks of 2048 pairs with a 0/1
  mask, multiplies by the constant `1 / τ` and shifts by that same constant; its first grid computes `e`, the masked
  negatives' `e` and the positive indicator per pair, the host sums per anchor and gathers back, its second grid keeps a
  running pair (sum of masked losses, count) in a scratch over the 977 points and writes it out at the last.  The two
  exponentials differ by one positive factor common to a ratio's numerator and denominator, so every ratio, every loss term
  and both totals agree (`PairLossLaw`); that needs the similarities to be real numbers, which is where the precondition
  (finite feature entries, `Finite`) is used.  The constant `1 / τ` is the kernel's literal 20 read as the exact reciprocal
  of the reference's single-precision τ (and `8/9` as the exact reciprocal of `2 · 0.75²`): the three `preserves` conjuncts.

  The modules: `K/`, `KI/` Region0, Region1*, Run — each program's run from the launch to the return with every buffer's
  contents at each boundary, for the program as compiled and for its idealization; `KI/` Payload, Arrays0, Arrays1*, Host*,
  Entry*, Result — what those contents are, down to the result; `Ref/` — the reference's result; `PairData`,
  `KerFormulas`, `PairLossLaw` — the per-pair formulas and the law joining the two.
-/
import proofs.«102367_j55516747268533_2_alg».proof.Defs
import proofs.«102367_j55516747268533_2_alg».proof.Proof.Gen.Kernel
import proofs.«102367_j55516747268533_2_alg».proof.Proof.Gen.KernelIdeal
import proofs.«102367_j55516747268533_2_alg».proof.Proof.Gen.ReferenceIdeal
import proofs.«102367_j55516747268533_2_alg».proof.Proof.Gen.Pre_finite_inputs
import proofs.«102367_j55516747268533_2_alg».proof.Proof.K.Run
import proofs.«102367_j55516747268533_2_alg».proof.Proof.KI.Run
import proofs.«102367_j55516747268533_2_alg».proof.Proof.KI.Result
import proofs.«102367_j55516747268533_2_alg».proof.Proof.Ref.Value
import proofs.«102367_j55516747268533_2_alg».proof.Proof.Finite
import proofs.«102367_j55516747268533_2_alg».proof.Proof.PairLossLaw
import proofs.«102367_j55516747268533_2_alg».proof.Proof.KerFormulas
import Idealize.ShloMosaic.Adequacy
import Idealize.ShloMosaic.Init

noncomputable section

namespace Cert.Proof

open Idealize.ShloMosaic Idealize.ShloMosaic.TcCoe Idealize.SL.Sem Idealize.ShloMosaic.ValueIdx

/-- The program as compiled runs to the end, faults nowhere and leaves its arguments unchanged. -/
theorem frame_k : Cert.frame_Kernel := fun m ρ _ => Cert.Kernel.Hand.frame (F := Bits) m ρ

/-- So does its idealization, -/
theorem frame_ki : Cert.frame_KernelIdeal := fun m ρ _ => Cert.KernelIdeal.Hand.frame (F := Ideal) m ρ

/-- and the reference (its run with the result dropped). -/
theorem frame_ri : Cert.frame_ReferenceIdeal := Cert.RefSide.ref_frame

/-- The idealization's three named constants: `8/9` for the kernel-width reciprocal, and the reciprocal of the reference's
    τ for the scale and for the shift. -/
theorem preserves : Cert.preserves_Kernel_KernelIdeal :=
  ⟨IdealRules.named_const.statement Cert.KernelIdeal.κ "c_8_9" .f32 0x3F638E39#32 ((8 / 9 : ℝ) : EReal) rfl,
   IdealRules.named_const.statement Cert.KernelIdeal.κ "inv_tau" .f32 0x41A00000#32 ((268435456 / 13421773 : ℝ) : EReal) rfl,
   IdealRules.named_const.statement Cert.KernelIdeal.κ "inv_tau" .f32 0x41A00000#32 ((268435456 / 13421773 : ℝ) : EReal) rfl⟩

open Cert.PairLoss in
/-- Over the extended reals both programs end with the same number: the kernel's result is the quotient of its two totals
    over the padded batch, the reference's the quotient of its two totals over the genuine pairs, and on real feature rows
    the totals agree. -/
theorem algebraic : Cert.algebraic_KernelIdeal_ReferenceIdeal := by
  intro m ρ m' ρ' hpre hagree
  refine ⟨fun c => Cert.KernelIdeal.Hand.W5 (F := Ideal) m c (Proc.devRef .tc Cert.KernelIdeal.main_v61),
    Cert.KernelIdeal.Hand.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨xr, hx⟩ := Cert.FiniteInputs.points_real _ _ _ _ _ (hpre c)
  have hres := Cert.KernelIdeal.ArrayValue.result_value m c
  dsimp only [Cert.KernelIdeal.ArrayValue.xOf, Cert.KernelIdeal.ArrayValue.ppOf, Cert.KernelIdeal.ArrayValue.cidOf] at hres
  rw [hx] at hres
  rw [Cert.ReferenceIdeal.Read.val_main_v75_eq, (hagree c).1, (hagree c).2.1, (hagree c).2.2.1]
  show _ = Cert.KernelIdeal.Hand.W5 (F := Ideal) m c (Proc.devRef .tc Cert.KernelIdeal.main_v61)
  rw [hres, hx]
  funext i
  rw [Cert.RefSide.ref_value, sum_lossTerm_real, sum_posF,
    kerNum_eq genuine_le tau _ _ _ _ (by norm_num) tau_pos, kerCnt_eq genuine_le]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
